-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x131072 : Shape := ⟨2, ![64, 131072]⟩
abbrev S1024x1024 : Shape := ⟨2, ![1024, 1024]⟩
abbrev S129x256 : Shape := ⟨2, ![129, 256]⟩
abbrev S256 : Shape := ⟨1, ![256]⟩
abbrev S129x128 : Shape := ⟨2, ![129, 128]⟩
abbrev S128 : Shape := ⟨1, ![128]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x131072 : S_.BroadcastsInDim S64x131072 (![] : Fin 0 → Fin S64x131072.rank)
  reducesTo_S64x131072_S_d0_1 : S64x131072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S129x256 : S_.BroadcastsInDim S129x256 (![] : Fin 0 → Fin S129x256.rank)
  reducesTo_S129x256_S_d0_1 : S129x256.ReducesTo [0, 1] S_
  bcast_S_S256 : S_.BroadcastsInDim S256 (![] : Fin 0 → Fin S256.rank)
  reducesTo_S256_S_d0 : S256.ReducesTo [0] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256 .f32) (main_arg5 : FVec F S129x128 .f32) (main_arg6 : FVec F S128 .f32) (main_v13 : IVec S_ 1) (main_v16 : IVec S129x256 1) : IVec S_ 1 :=
  let main_c_5 : IVec S_ 1 := constantI S_ 1 1#1
  let main_v17 : IVec S_ 1 := (fun x v => Host.reduce IntOp.andi x v reducesTo_S129x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S129x128 .f32 := Host.absf main_arg5
  let main_cst_8 : FVec F S_ .f32 := constant S_ .f32 0x7F800000#32
  let main_v25 : FVec F S129x128 .f32 := broadcastInDim S129x128 ![] bcast_S_S129x128 main_cst_8
  let main_v26 : IVec S129x128 1 := cmpf .olt main_v24 main_v25
  let main_c_9 : IVec S_ 1 := constantI S_ 1 1#1
  let main_v27 : IVec S_ 1 := (fun x v => Host.reduce IntOp.andi x v reducesTo_S129x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S64x1024 .f32) (main_arg1 : FVec F S64x131072 .f32) (main_arg2 : FVec F S1024x1024 .f32) (main_arg3 : FVec F S129x256 .f32) (main_arg4 : FVec F S256 .f32) (main_arg5 : FVec F S129x128 .f32) (main_arg6 : FVec F S128 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x131072 .f32 := Host.absf main_arg1
  let main_cst_0 : FVec F S_ .f32 := constant S_ .f32 0x7F800000#32
  let main_v5 : FVec F S64x131072 .f32 := broadcastInDim S64x131072 ![] bcast_S_S64x131072 main_cst_0
  let main_v6 : IVec S64x131072 1 := cmpf .olt main_v4 main_v5
  let main_c_1 : IVec S_ 1 := constantI S_ 1 1#1
  let main_v7 : IVec S_ 1 := (fun x v => Host.reduce IntOp.andi x v reducesTo_S64x131072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S129x256 .f32 := Host.absf main_arg3
  let main_cst_4 : FVec F S_ .f32 := constant S_ .f32 0x7F800000#32
  let main_v15 : FVec F S129x256 .f32 := broadcastInDim S129x256 ![] bcast_S_S129x256 main_cst_4
  let main_v16 : IVec S129x256 1 := cmpf .olt main_v14 main_v15
  fn_part1 (F := F) main_arg4 main_arg5 main_arg6 main_v13 main_v16
-- ==== Kernel.lean ====
abbrev S64x1024 : Shape := ⟨2, ![64, 1024]⟩
abbrev S64x131072 : Shape := ⟨2, ![64, 131072]⟩
abbrev S1024x1024 : Shape := ⟨2, ![1024, 1024]⟩
abbrev S129x256 : Shape := ⟨2, ![129, 256]⟩
abbrev S256 : Shape := ⟨1, ![256]⟩
abbrev S129x128 : Shape := ⟨2, ![129, 128]⟩
abbrev S128 : Shape := ⟨1, ![128]⟩
abbrev S512 : Shape := ⟨1, ![512]⟩
abbrev S_ : Shape := ⟨0, ![]⟩
abbrev S1024 : Shape := ⟨1, ![1024]⟩
abbrev S64x512x256 : Shape := ⟨3, ![64, 512, 256]⟩
abbrev S1024x64 : Shape := ⟨2, ![1024, 64]⟩
abbrev S1024x1 : Shape := ⟨2, ![1024, 1]⟩
abbrev S1x256 : Shape := ⟨2, ![1, 256]⟩
abbrev S128x256 : Shape := ⟨2, ![128, 256]⟩
abbrev S1x128 : Shape := ⟨2, ![1, 128]⟩
abbrev S128x128 : Shape := ⟨2, ![128, 128]⟩
abbrev S8x512x256 : Shape := ⟨3, ![8, 512, 256]⟩
abbrev S1x512x256 : Shape := ⟨3, ![1, 512, 256]⟩
abbrev S512x256 : Shape := ⟨2, ![512, 256]⟩
abbrev S512x128 : Shape := ⟨2, ![512, 128]⟩
abbrev S512x1024 : Shape := ⟨2, ![512, 1024]⟩
abbrev S64x8 : Shape := ⟨2, ![64, 8]⟩
abbrev S1024x8 : Shape := ⟨2, ![1024, 8]⟩
abbrev S1024x128 : Shape := ⟨2, ![1024, 128]⟩
abbrev S1024x256 : Shape := ⟨2, ![1024, 256]⟩

abbrev nBuf : Space → Nat
  | .hbm => 44
  | .vmem => 17
  | .smem => 0
  | _ => 0

abbrev bufTy : (tb : Table) → Fin (tcTables nBuf tb) → BufTy
  | .hbm, ⟨0, _⟩ => ⟨S64x1024, .f32⟩
  | .hbm, ⟨1, _⟩ => ⟨S64x131072, .f32⟩
  | .hbm, ⟨2, _⟩ => ⟨S1024x1024, .f32⟩
  | .hbm, ⟨3, _⟩ => ⟨S129x256, .f32⟩
  | .hbm, ⟨4, _⟩ => ⟨S256, .f32⟩
  | .hbm, ⟨5, _⟩ => ⟨S129x128, .f32⟩
  | .hbm, ⟨6, _⟩ => ⟨S128, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S1024, .i32⟩
  | .hbm, ⟨22, _⟩ => ⟨S64x512x256, .f32⟩
  | .hbm, ⟨23, _⟩ => ⟨S1024x64, .f32⟩
  | .hbm, ⟨24, _⟩ => ⟨S1024x64, .bf16⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x64, .bf16⟩
  | .hbm, ⟨34, _⟩ => ⟨S1x256, .f32⟩
  | .hbm, ⟨35, _⟩ => ⟨S128x256, .f32⟩
  | .hbm, ⟨36, _⟩ => ⟨S128x256, .bf16⟩
  | .hbm, ⟨37, _⟩ => ⟨S1x128, .f32⟩
  | .hbm, ⟨38, _⟩ => ⟨S128x128, .f32⟩
  | .hbm, ⟨39, _⟩ => ⟨S128x128, .bf16⟩
  | .hbm, ⟨40, _⟩ => ⟨S1x256, .f32⟩
  | .hbm, ⟨41, _⟩ => ⟨S1x128, .f32⟩
  | .hbm, ⟨42, _⟩ => ⟨S64x512x256, .f32⟩
  | .hbm, ⟨43, _⟩ => ⟨S64x131072, .f32⟩
  | .local _ .vmem, ⟨0, _⟩ => ⟨S1024x1024, .f32⟩
  | .local _ .vmem, ⟨1, _⟩ => ⟨S1024x64, .bf16⟩
  | .local _ .vmem, ⟨2, _⟩ => ⟨S1024x64, .bf16⟩
  | .local _ .vmem, ⟨3, _⟩ => ⟨S8x512x256, .f32⟩
  | .local _ .vmem, ⟨4, _⟩ => ⟨S8x512x256, .f32⟩
  | .local _ .vmem, ⟨5, _⟩ => ⟨S1x256, .f32⟩
  | .local _ .vmem, ⟨6, _⟩ => ⟨S128x256, .bf16⟩
  | .local _ .vmem, ⟨7, _⟩ => ⟨S1x256, .f32⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S8x512x256, .f32⟩
  | .local _ .vmem, ⟨12, _⟩ => ⟨S8x512x256, .f32⟩
  | .local _ .vmem, ⟨13, _⟩ => ⟨S1024x1024, .bf16⟩
  | .local _ .vmem, ⟨14, _⟩ => ⟨S1024x1024, .bf16⟩
  | .local _ .vmem, ⟨15, _⟩ => ⟨S1024x64, .f32⟩
  | .local _ .vmem, ⟨16, _⟩ => ⟨S1024x64, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_c_0 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_v6 : Ref sig .tc := ⟨.hbm, 16, rfl⟩
abbrev main_call0_v7 : Ref sig .tc := ⟨.hbm, 17, rfl⟩
abbrev main_call0_c_2 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_c_3 : Ref sig .tc := ⟨.hbm, 25, rfl⟩
abbrev main_call0_v14 : Ref sig .tc := ⟨.hbm, 26, rfl⟩
abbrev main_call0_v15 : Ref sig .tc := ⟨.hbm, 27, rfl⟩
abbrev main_call0_c_4 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_v0 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S512 : S_.BroadcastsInDim S512 (![] : Fin 0 → Fin S512.rank)
  concatenates_S512_S512_S1024_d0 : Shape.Concatenates [S512, S512] S1024 0
  shapeCasts_S64x131072_S64x512x256 : S64x131072.ShapeCasts S64x512x256
  transposes_S64x1024_S1024x64_1_0 : S64x1024.Transposes [1, 0] S1024x64
  bitsLt_bf16_f32 : FTy.bits .bf16 < FTy.bits .f32
  bcast_S_S1024 : S_.BroadcastsInDim S1024 (![] : Fin 0 → Fin S1024.rank)
  bcast_S1024_S1024x1_0 : S1024.BroadcastsInDim S1024x1 (![0] : Fin 1 → Fin S1024x1.rank)
  slices_S129x256_S1x256_0_0 : S129x256.Slices ![0, 0] S1x256
  slices_S129x256_S128x256_1_0 : S129x256.Slices ![1, 0] S128x256
  slices_S129x128_S1x128_0_0 : S129x128.Slices ![0, 0] S1x128
  slices_S129x128_S128x128_1_0 : S129x128.Slices ![1, 0] S128x128
  shapeCasts_S256_S1x256 : S256.ShapeCasts S1x256
  shapeCasts_S128_S1x128 : S128.ShapeCasts S1x128
  shapeCasts_S64x512x256_S64x131072 : S64x512x256.ShapeCasts S64x131072
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  natLt_1_32 : 1 < 32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S8x512x256_S1x512x256_0_0_0 : ∀ a, (![0, 0, 0] : Fin 3 → Nat) a + S1x512x256.size a ≤ S8x512x256.size a
  h_S1x512x256 : 0 < S1x512x256.numel
  shapeCasts_S1x512x256_S512x256 : S1x512x256.ShapeCasts S512x256
  inb_S8x512x256_S1x512x256_1_0_0 : ∀ a, (![1, 0, 0] : Fin 3 → Nat) a + S1x512x256.size a ≤ S8x512x256.size a
  inb_S8x512x256_S1x512x256_2_0_0 : ∀ a, (![2, 0, 0] : Fin 3 → Nat) a + S1x512x256.size a ≤ S8x512x256.size a
  inb_S8x512x256_S1x512x256_3_0_0 : ∀ a, (![3, 0, 0] : Fin 3 → Nat) a + S1x512x256.size a ≤ S8x512x256.size a
  inb_S8x512x256_S1x512x256_4_0_0 : ∀ a, (![4, 0, 0] : Fin 3 → Nat) a + S1x512x256.size a ≤ S8x512x256.size a
  inb_S8x512x256_S1x512x256_5_0_0 : ∀ a, (![5, 0, 0] : Fin 3 → Nat) a + S1x512x256.size a ≤ S8x512x256.size a
  inb_S8x512x256_S1x512x256_6_0_0 : ∀ a, (![6, 0, 0] : Fin 3 → Nat) a + S1x512x256.size a ≤ S8x512x256.size a
  inb_S8x512x256_S1x512x256_7_0_0 : ∀ a, (![7, 0, 0] : Fin 3 → Nat) a + S1x512x256.size a ≤ S8x512x256.size a
  slices_S512x256_o0_0_S512x128 : S512x256.Slices ![0, 0] S512x128
  concatenates_S512x128_S512x128_S512x128_S512x128_S512x128_S512x128_S512x128_S512x128_S512x1024_d1 : Shape.Concatenates [S512x128, S512x128, S512x128, S512x128, S512x128, S512x128, S512x128, S512x128] S512x1024 1
  slices_S512x256_o0_128_S512x128 : S512x256.Slices ![0, 128] S512x128
  concatenates_S512x1024_S512x1024_S1024x1024_d0 : Shape.Concatenates [S512x1024, S512x1024] S1024x1024 0
  iota_S64x8_d0_w32 : S64x8.Iotas .tc 32 [0]
  iota_S64x8_d1_w32 : S64x8.Iotas .tc 32 [1]
  slices_S1024x8_o0_0_S1024x1 : S1024x8.Slices ![0, 0] S1024x1
  slices_S1024x1024_o0_0_S1024x128 : S1024x1024.Slices ![0, 0] S1024x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  slices_S1024x256_o0_0_S512x256 : S1024x256.Slices ![0, 0] S512x256
  slices_S1024x256_o512_0_S512x256 : S1024x256.Slices ![512, 0] S512x256
  slices_S1024x8_o0_1_S1024x1 : S1024x8.Slices ![0, 1] S1024x1
  slices_S1024x1024_o0_128_S1024x128 : S1024x1024.Slices ![0, 128] S1024x128
  slices_S1024x8_o0_2_S1024x1 : S1024x8.Slices ![0, 2] S1024x1
  slices_S1024x1024_o0_256_S1024x128 : S1024x1024.Slices ![0, 256] S1024x128
  slices_S1024x8_o0_3_S1024x1 : S1024x8.Slices ![0, 3] S1024x1
  slices_S1024x1024_o0_384_S1024x128 : S1024x1024.Slices ![0, 384] S1024x128
  slices_S1024x8_o0_4_S1024x1 : S1024x8.Slices ![0, 4] S1024x1
  slices_S1024x1024_o0_512_S1024x128 : S1024x1024.Slices ![0, 512] S1024x128
  slices_S1024x8_o0_5_S1024x1 : S1024x8.Slices ![0, 5] S1024x1
  slices_S1024x1024_o0_640_S1024x128 : S1024x1024.Slices ![0, 640] S1024x128
  slices_S1024x8_o0_6_S1024x1 : S1024x8.Slices ![0, 6] S1024x1
  slices_S1024x1024_o0_768_S1024x128 : S1024x1024.Slices ![0, 768] S1024x128
  slices_S1024x8_o0_7_S1024x1 : S1024x8.Slices ![0, 7] S1024x1
  slices_S1024x1024_o0_896_S1024x128 : S1024x1024.Slices ![0, 896] S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  slices_S1024x128_o0_0_S512x128 : S1024x128.Slices ![0, 0] S512x128
  slices_S1024x128_o512_0_S512x128 : S1024x128.Slices ![512, 0] S512x128
  concatenates_S512x128_S512x128_S512x256_d1 : Shape.Concatenates [S512x128, S512x128] S512x256 1
  shapeCasts_S512x256_S1x512x256 : S512x256.ShapeCasts S1x512x256
  gather_S1024x64_S1024x1_S1024x64_1_0_n_n_0_1_164_wf : GatherDims.WF S1024x64 S1024x1 S1024x64 [1] [0] [] [0] [] 1 ![1, 64]
  dot_S1024x1024_S1024x1024_S1024x1024_1_0_0_1_n_n_wf : DotDims.WF S1024x1024 S1024x1024 S1024x1024 [1] [0] [0] [1] [] []
  dot_S1024x1024_S1024x64_S1024x64_1_0_0_1_n_n_wf : DotDims.WF S1024x1024 S1024x64 S1024x64 [1] [0] [0] [1] [] []
  dot_S1024x64_S64x8_S1024x8_1_0_0_1_n_n_wf : DotDims.WF S1024x64 S64x8 S1024x8 [1] [0] [0] [1] [] []
  dot_S1024x128_S128x256_S1024x256_1_0_0_1_n_n_wf : DotDims.WF S1024x128 S128x256 S1024x256 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .bf16 = 32 ∨ (Rect.block (s := S1024x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x256.size a ≤ S64x512x256.size a
  hwx0_3 : ∀ i : grid0.Coords, EltTy.bits .f32 = 32 ∨ (Rect.block (s := S64x512x256) S8x512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x512x256.size a ≤ S64x512x256.size a
  hwx0_10 : ∀ i : grid0.Coords, EltTy.bits .f32 = 32 ∨ (Rect.block (s := S64x512x256) S8x512x256.size (cc0_transform_10 i) (hinb0_10 i)).WholeWords (EltTy.packing .f32)

variable [Facts₀]

def gather_S1024x64_S1024x1_S1024x64_1_0_n_n_0_1_164 : GatherDims S1024x64 S1024x1 S1024x64 where
  offsetDims := [1]
  collapsedSliceDims := [0]
  operandBatchingDims := []
  startIndicesBatchingDims := []
  startIndexMap := [0]
  indexVectorDim := 1
  sliceSizes := ![1, 64]
  wf := gather_S1024x64_S1024x1_S1024x64_1_0_n_n_0_1_164_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg2) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v11) S8x512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v23) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v26) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v28) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v29) S8x512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x131072 : Shape := ⟨2, ![64, 131072]⟩
abbrev S1024x1024 : Shape := ⟨2, ![1024, 1024]⟩
abbrev S129x256 : Shape := ⟨2, ![129, 256]⟩
abbrev S256 : Shape := ⟨1, ![256]⟩
abbrev S129x128 : Shape := ⟨2, ![129, 128]⟩
abbrev S128 : Shape := ⟨1, ![128]⟩
abbrev S64x1024x128 : Shape := ⟨3, ![64, 1024, 128]⟩
abbrev S64x1024x1 : Shape := ⟨3, ![64, 1024, 1]⟩
abbrev S64x1024x129 : Shape := ⟨3, ![64, 1024, 129]⟩
abbrev S1024x129x64 : Shape := ⟨3, ![1024, 129, 64]⟩
abbrev S1024x8256 : Shape := ⟨2, ![1024, 8256]⟩
abbrev S65536x129 : Shape := ⟨2, ![65536, 129]⟩
abbrev S65536x256 : Shape := ⟨2, ![65536, 256]⟩
abbrev S1x256 : Shape := ⟨2, ![1, 256]⟩
abbrev S64x1024x256 : Shape := ⟨3, ![64, 1024, 256]⟩
abbrev S64x262144 : Shape := ⟨2, ![64, 262144]⟩
abbrev S_ : Shape := ⟨0, ![]⟩
abbrev S65536x128 : Shape := ⟨2, ![65536, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x131072, .f32⟩
  | .hbm, ⟨2, _⟩ => ⟨S1024x1024, .f32⟩
  | .hbm, ⟨3, _⟩ => ⟨S129x256, .f32⟩
  | .hbm, ⟨4, _⟩ => ⟨S256, .f32⟩
  | .hbm, ⟨5, _⟩ => ⟨S129x128, .f32⟩
  | .hbm, ⟨6, _⟩ => ⟨S128, .f32⟩
  | .hbm, ⟨7, _⟩ => ⟨S64x1024x128, .f32⟩
  | .hbm, ⟨8, _⟩ => ⟨S64x1024x1, .f32⟩
  | .hbm, ⟨9, _⟩ => ⟨S64x1024x129, .f32⟩
  | .hbm, ⟨10, _⟩ => ⟨S1024x129x64, .f32⟩
  | .hbm, ⟨11, _⟩ => ⟨S1024x8256, .f32⟩
  | .hbm, ⟨12, _⟩ => ⟨S1024x8256, .f32⟩
  | .hbm, ⟨13, _⟩ => ⟨S1024x129x64, .f32⟩
  | .hbm, ⟨14, _⟩ => ⟨S64x1024x129, .f32⟩
  | .hbm, ⟨15, _⟩ => ⟨S65536x129, .f32⟩
  | .hbm, ⟨16, _⟩ => ⟨S65536x256, .f32⟩
  | .hbm, ⟨17, _⟩ => ⟨S1x256, .f32⟩
  | .hbm, ⟨18, _⟩ => ⟨S65536x256, .f32⟩
  | .hbm, ⟨19, _⟩ => ⟨S65536x256, .f32⟩
  | .hbm, ⟨20, _⟩ => ⟨S64x1024x256, .f32⟩
  | .hbm, ⟨21, _⟩ => ⟨S64x262144, .f32⟩
  | .hbm, ⟨22, _⟩ => ⟨S64x262144, .f32⟩
  | .hbm, ⟨23, _⟩ => ⟨S64x262144, .f32⟩
  | .hbm, ⟨24, _⟩ => ⟨S_, .f32⟩
  | .hbm, ⟨25, _⟩ => ⟨S64x262144, .f32⟩
  | .hbm, ⟨26, _⟩ => ⟨S64x262144, .f32⟩
  | .hbm, ⟨27, _⟩ => ⟨S_, .f32⟩
  | .hbm, ⟨28, _⟩ => ⟨S64x262144, .f32⟩
  | .hbm, ⟨29, _⟩ => ⟨S64x262144, .f32⟩
  | .hbm, ⟨30, _⟩ => ⟨S64x131072, .f32⟩
  | .hbm, ⟨31, _⟩ => ⟨S64x131072, .f32⟩
  | .hbm, ⟨32, _⟩ => ⟨S64x131072, .f32⟩
  | .hbm, ⟨33, _⟩ => ⟨S64x1024x128, .f32⟩
  | .hbm, ⟨34, _⟩ => ⟨S64x1024x1, .f32⟩
  | .hbm, ⟨35, _⟩ => ⟨S64x1024x129, .f32⟩
  | .hbm, ⟨36, _⟩ => ⟨S1024x129x64, .f32⟩
  | .hbm, ⟨37, _⟩ => ⟨S1024x8256, .f32⟩
  | .hbm, ⟨38, _⟩ => ⟨S1024x8256, .f32⟩
  | .hbm, ⟨39, _⟩ => ⟨S1024x129x64, .f32⟩
  | .hbm, ⟨40, _⟩ => ⟨S64x1024x129, .f32⟩
  | .hbm, ⟨41, _⟩ => ⟨S65536x129, .f32⟩
  | .hbm, ⟨42, _⟩ => ⟨S65536x128, .f32⟩
  | .hbm, ⟨43, _⟩ => ⟨S1x128, .f32⟩
  | .hbm, ⟨44, _⟩ => ⟨S65536x128, .f32⟩
  | .hbm, ⟨45, _⟩ => ⟨S65536x128, .f32⟩
  | .hbm, ⟨46, _⟩ => ⟨S64x1024x128, .f32⟩
  | .hbm, ⟨47, _⟩ => ⟨S64x131072, .f32⟩
  | .hbm, ⟨48, _⟩ => ⟨S64x131072, .f32⟩
  | .hbm, ⟨49, _⟩ => ⟨S64x131072, .f32⟩
  | .hbm, ⟨50, _⟩ => ⟨S_, .f32⟩
  | .hbm, ⟨51, _⟩ => ⟨S64x131072, .f32⟩
  | .hbm, ⟨52, _⟩ => ⟨S64x131072, .f32⟩
  | .hbm, ⟨53, _⟩ => ⟨S64x131072, .f32⟩
  | .hbm, ⟨54, _⟩ => ⟨S64x131072, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_1 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]

class Facts₀ : Prop where
  shapeCasts_S64x131072_S64x1024x128 : S64x131072.ShapeCasts S64x1024x128
  shapeCasts_S64x1024_S64x1024x1 : S64x1024.ShapeCasts S64x1024x1
  concatenates_S64x1024x1_S64x1024x128_S64x1024x129_d2 : Shape.Concatenates [S64x1024x1, S64x1024x128] S64x1024x129 2
  transposes_S64x1024x129_S1024x129x64_1_2_0 : S64x1024x129.Transposes [1, 2, 0] S1024x129x64
  shapeCasts_S1024x129x64_S1024x8256 : S1024x129x64.ShapeCasts S1024x8256
  shapeCasts_S1024x8256_S1024x129x64 : S1024x8256.ShapeCasts S1024x129x64
  transposes_S1024x129x64_S64x1024x129_2_0_1 : S1024x129x64.Transposes [2, 0, 1] S64x1024x129
  shapeCasts_S64x1024x129_S65536x129 : S64x1024x129.ShapeCasts S65536x129
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  shapeCasts_S65536x256_S64x1024x256 : S65536x256.ShapeCasts S64x1024x256
  shapeCasts_S64x1024x256_S64x262144 : S64x1024x256.ShapeCasts S64x262144
  bcast_S_S64x262144 : S_.BroadcastsInDim S64x262144 (![] : Fin 0 → Fin S64x262144.rank)
  slices_S64x262144_S64x131072_0_0 : S64x262144.Slices ![0, 0] S64x131072
  slices_S64x262144_S64x131072_0_131072 : S64x262144.Slices ![0, 131072] S64x131072
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  shapeCasts_S65536x128_S64x1024x128 : S65536x128.ShapeCasts S64x1024x128
  shapeCasts_S64x1024x128_S64x131072 : S64x1024x128.ShapeCasts S64x131072
  bcast_S_S64x131072 : S_.BroadcastsInDim S64x131072 (![] : Fin 0 → Fin S64x131072.rank)
  dot_S1024x1024_S1024x8256_S1024x8256_1_0_0_1_n_n_wf : DotDims.WF S1024x1024 S1024x8256 S1024x8256 [1] [0] [0] [1] [] []
  dot_S65536x129_S129x256_S65536x256_1_0_0_1_n_n_wf : DotDims.WF S65536x129 S129x256 S65536x256 [1] [0] [0] [1] [] []
  dot_S65536x129_S129x128_S65536x128_1_0_0_1_n_n_wf : DotDims.WF S65536x129 S129x128 S65536x128 [1] [0] [0] [1] [] []

variable [Facts₀]

def dot_S1024x1024_S1024x8256_S1024x8256_1_0_0_1_n_n : DotDims S1024x1024 S1024x8256 S1024x8256 where
  lhsContracting := [1]
  rhsContracting := [0]
  lhsNonContracting := [0]
  rhsNonContracting := [1]
  lhsBatch := []
  rhsBatch := []
  wf := dot_S1024x1024_S1024x8256_S1024x8256_1_0_0_1_n_n_wf
def dot_S65536x129_S129x256_S65536x256_1_0_0_1_n_n : DotDims S65536x129 S129x256 S65536x256 where
  lhsContracting := [1]
  rhsContracting := [0]
  lhsNonContracting := [0]
  rhsNonContracting := [1]
  lhsBatch := []
  rhsBatch := []
  wf := dot_S65536x129_S129x256_S65536x256_1_0_0_1_n_n_wf
def dot_S65536x129_S129x128_S65536x128_1_0_0_1_n_n : DotDims S65536x129 S129x128 S65536x128 where
  lhsContracting := [1]
  rhsContracting := [0]
  lhsNonContracting := [0]
  rhsNonContracting := [1]
  lhsBatch := []
  rhsBatch := []
  wf := dot_S65536x129_S129x128_S65536x128_1_0_0_1_n_n_wf

class Facts : Prop extends Facts₀ where

variable [Facts]
-- ==== Proof.Spec.lean ====
/-
  The gated graph-convolution cell as ONE function of the argument arrays, index by index, over the extended reals.

  With `x : [64, 1024]` the node inputs, `h : [64, 131072]` the hidden state (node `k`, unit `g` at `k * 128 + g`),
  `A : [1024, 1024]` the adjacency, and the two layers' weights `W : [129, O]` and biases `[O]`:
    * `cat hh b k g'`   the layer's input at node `k`: the node input for `g' = 0`, else unit `g' - 1` of `hh`;
    * `conv hh W bias b n o = (∑ g', (∑ k, A n k * cat hh b k g') * W g' o) + bias o`;
    * `s b n o = logistic (conv h W1 b1 b n o)`, a `[64, 1024, 256]` array read FLAT as `[64, 262144]`: its first
      half is the reset gate `r`, its second half the update gate `u` (both `[64, 131072]`);
    * `c b j = tanh (conv (r * h) W2 b2 b (j / 128) (j % 128))`;
    * the new state `G b j = u b j * h b j + (1 - u b j) * c b j`.
-/
import Idealize.ShloMosaic.PureOps.Ideal
import Idealize.ShloMosaic.Lib.ValueIdx

noncomputable section

namespace Cert.Spec

open Idealize.ShloMosaic

/-- The seven argument arrays as functions of their coordinates. -/
structure Args where
  x : Fin 64 → Fin 1024 → EReal
  h : Fin 64 → Fin 131072 → EReal
  A : Fin 1024 → Fin 1024 → EReal
  W1 : Fin 129 → Fin 256 → EReal
  b1 : Fin 256 → EReal
  W2 : Fin 129 → Fin 128 → EReal
  b2 : Fin 128 → EReal

variable (a : Args)

/-- A layer's input at batch `b`, node `k`: column `0` is the node input, column `1 + g` is unit `g` of `hh`. -/
def cat (hh : Fin 64 → Fin 131072 → EReal) (b : Fin 64) (k : Fin 1024) (g' : Fin 129) : EReal :=
  if g'.val = 0 then a.x b k
  else hh b ⟨k.val * 128 + (g'.val - 1), by have := k.isLt; have := g'.isLt; omega⟩

/-- One graph convolution: aggregate every column over the nodes by `A`, then contract the 129 columns with `W`. -/
def conv {O : Nat} (hh : Fin 64 → Fin 131072 → EReal) (W : Fin 129 → Fin O → EReal) (bias : Fin O → EReal)
    (b : Fin 64) (n : Fin 1024) (o : Fin O) : EReal :=
  (∑ g' : Fin 129, (∑ k : Fin 1024, a.A n k * cat a hh b k g') * W g' o) + bias o

/-- The first layer's gates, `[64, 1024, 256]`. -/
def s (b : Fin 64) (n : Fin 1024) (o : Fin 256) : EReal :=
  Ideal.logistic (conv a a.h a.W1 a.b1 b n o)

/-- The reset gate: the first half of the gates read flat. -/
def r (b : Fin 64) (j : Fin 131072) : EReal :=
  s a b ⟨j.val / 256, by have := j.isLt; omega⟩ ⟨j.val % 256, Nat.mod_lt _ (by norm_num)⟩

/-- The update gate: the second half of the gates read flat. -/
def u (b : Fin 64) (j : Fin 131072) : EReal :=
  s a b ⟨512 + j.val / 256, by have := j.isLt; omega⟩ ⟨j.val % 256, Nat.mod_lt _ (by norm_num)⟩

/-- The candidate state: the second layer over the reset hidden state. -/
def c (b : Fin 64) (j : Fin 131072) : EReal :=
  Ideal.tanh (conv a (fun b j => r a b j * a.h b j) a.W2 a.b2 b
    ⟨j.val / 128, by have := j.isLt; omega⟩ ⟨j.val % 128, Nat.mod_lt _ (by norm_num)⟩)

/-- The new hidden state. -/
def G (b : Fin 64) (j : Fin 131072) : EReal :=
  u a b j * a.h b j + (1 - u a b j) * c a b j

/-- Evens-then-odds node order: position `j < 512` holds node `2 j`, position `512 + j'` holds node `2 j' + 1`. -/
def perm (j : Fin 1024) : Fin 1024 :=
  if h : j.val < 512 then ⟨2 * j.val, by omega⟩ else ⟨2 * (j.val - 512) + 1, by have := j.isLt; omega⟩

/-- The argument arrays (functions of a shape's index) read by coordinates. -/
def argsOf (x : (⟨2, ![64, 1024]⟩ : Shape).Idx → EReal) (h : (⟨2, ![64, 131072]⟩ : Shape).Idx → EReal)
    (A : (⟨2, ![1024, 1024]⟩ : Shape).Idx → EReal) (W1 : (⟨2, ![129, 256]⟩ : Shape).Idx → EReal)
    (b1 : (⟨1, ![256]⟩ : Shape).Idx → EReal) (W2 : (⟨2, ![129, 128]⟩ : Shape).Idx → EReal)
    (b2 : (⟨1, ![128]⟩ : Shape).Idx → EReal) : Args where
  x b k := x (ValueIdx.ix2 b k)
  h b j := h (ValueIdx.ix2 b j)
  A n k := A (ValueIdx.ix2 n k)
  W1 g o := W1 (ValueIdx.ix2 g o)
  b1 o := b1 (ValueIdx.ix1 o)
  W2 g o := W2 (ValueIdx.ix2 g o)
  b2 o := b2 (ValueIdx.ix1 o)

end Cert.Spec

end
-- ==== Proof.RefConv.lean ====
/-
  One graph-convolution layer of the reference, read at an index.

  The layer's input is the concatenation [x | hh] along the last axis (widths 1 and 128). The reference aggregates it
  over the nodes by a single matrix product whose right operand is the input transposed to [node, column, batch] and
  flattened to [1024, 8256] (8256 = 129 * 64), and then re-lays the product as [batch * 1024 + node, column].
  Read at (batch b, node n, column g) the re-laid product is  ∑ k, A n k * input b k g : only index arithmetic
  separates the two.
-/
import proofs.«180865_g44452911513920_cont_8to1_c_104_44_alg».proof.Proof.Gen.ReferenceIdeal.Run
import proofs.«180865_g44452911513920_cont_8to1_c_104_44_alg».proof.Proof.Gen.ReferenceIdeal.Read
import Idealize.ShloMosaic.Lib.Pipeline.Value
import Idealize.ShloMosaic.Lib.ValueIdx

noncomputable section

namespace Cert.RefSide

open Cert.ReferenceIdeal Cert.ReferenceIdeal.Gen Cert.ReferenceIdeal.Read Idealize.ShloMosaic Idealize.ShloMosaic.ValueIdx

/-- The concatenation [p | q] along the last axis at (b, k, g): column 0 is `p`, column 1 + g' is column g' of `q`. -/
theorem cat_at {α : Type} (p : S64x1024x1.Idx → α) (q : S64x1024x128.Idx → α) (b : Fin 64) (k : Fin 1024) (g : Fin 129) :
    concatenate S64x1024x129 2 [⟨S64x1024x1, p⟩, ⟨S64x1024x128, q⟩] concatenates_S64x1024x1_S64x1024x128_S64x1024x129_d2 (ix3 b k g)
      = if g.val = 0 then p (ix3 b k ⟨0, Nat.one_pos⟩)
        else q (ix3 b k ⟨g.val - 1, by have := g.isLt; omega⟩) := by
  split
  · next h =>
    exact concatenate_pair_apply_left 2 p q _ (ix3 b k g) rfl (ix3 b k ⟨0, Nat.one_pos⟩)
      (fun a => match a with | ⟨0, _⟩ => rfl | ⟨1, _⟩ => rfl | ⟨2, _⟩ => h.symm)
  · next h =>
    exact concatenate_pair_apply_right 2 p q _ (ix3 b k g) rfl rfl (ix3 b k ⟨g.val - 1, by have := g.isLt; omega⟩)
      (fun a ha => match a, ha with | ⟨0, _⟩, _ => rfl | ⟨1, _⟩, _ => rfl | ⟨2, _⟩, ha => absurd rfl ha)
      (by show g.val - 1 + 1 = g.val; omega)

/-! The composed index maps of the aggregation, at coordinates. -/

theorem e8 (b : Fin 64) (n : Fin 1024) (g : Fin 129) (hbn : b.val * 1024 + n.val < 65536) :
    idx_main_v8 (ix2 (⟨b.val * 1024 + n.val, hbn⟩ : Fin 65536) g) = ix3 b n g :=
  funext fun a => Fin.ext (by
    have hb := b.isLt; have hn := n.isLt; have hg := g.isLt
    match a with
    | ⟨0, _⟩ => show ((b.val * 1024 + n.val) * 129 + g.val) / 132096 = b.val; omega
    | ⟨1, _⟩ => show ((b.val * 1024 + n.val) * 129 + g.val) / 129 % 1024 = n.val; omega
    | ⟨2, _⟩ => show ((b.val * 1024 + n.val) * 129 + g.val) % 129 = g.val; omega)

theorem e7 (b : Fin 64) (n : Fin 1024) (g : Fin 129) : idx_main_v7 (ix3 b n g) = ix3 n g b :=
  funext fun a => Fin.ext (by match a with | ⟨0, _⟩ => rfl | ⟨1, _⟩ => rfl | ⟨2, _⟩ => rfl)

theorem e6 (b : Fin 64) (n : Fin 1024) (g : Fin 129) (hgb : g.val * 64 + b.val < 8256) :
    idx_main_v6 (ix3 n g b) = ix2 n (⟨g.val * 64 + b.val, hgb⟩ : Fin 8256) :=
  funext fun a => Fin.ext (by
    have hb := b.isLt; have hn := n.isLt; have hg := g.isLt
    match a with
    | ⟨0, _⟩ => show ((n.val * 129 + g.val) * 64 + b.val) / 8256 = n.val; omega
    | ⟨1, _⟩ => show ((n.val * 129 + g.val) * 64 + b.val) % 8256 = g.val * 64 + b.val; omega)

theorem e5l (n : Fin 1024) (c : Fin 8256) (k : Fin 1024) : lidx_main_v5 (ix2 n c) k = ix2 n k :=
  funext fun a => Fin.ext (by match a with | ⟨0, _⟩ => rfl | ⟨1, _⟩ => rfl)

theorem e5r (n : Fin 1024) (c : Fin 8256) (k : Fin 1024) : ridx_main_v5 (ix2 n c) k = ix2 k c :=
  funext fun a => Fin.ext (by match a with | ⟨0, _⟩ => rfl | ⟨1, _⟩ => rfl)

theorem e4 (b : Fin 64) (k : Fin 1024) (g : Fin 129) (hgb : g.val * 64 + b.val < 8256) :
    idx_main_v4 (ix2 k (⟨g.val * 64 + b.val, hgb⟩ : Fin 8256)) = ix3 k g b :=
  funext fun a => Fin.ext (by
    have hb := b.isLt; have hk := k.isLt; have hg := g.isLt
    match a with
    | ⟨0, _⟩ => show (k.val * 8256 + (g.val * 64 + b.val)) / 8256 = k.val; omega
    | ⟨1, _⟩ => show (k.val * 8256 + (g.val * 64 + b.val)) / 64 % 129 = g.val; omega
    | ⟨2, _⟩ => show (k.val * 8256 + (g.val * 64 + b.val)) % 64 = b.val; omega)

theorem e3 (b : Fin 64) (k : Fin 1024) (g : Fin 129) : idx_main_v3 (ix3 k g b) = ix3 b k g :=
  funext fun a => Fin.ext (by match a with | ⟨0, _⟩ => rfl | ⟨1, _⟩ => rfl | ⟨2, _⟩ => rfl)

/-- The aggregation over the nodes. Whatever the layer's input `v2` is, if the six stages after it read as the
    reference's transposes, reshapes and matrix product do, the last stage at (b * 1024 + n, g) is
    `∑ k, A n k * v2 b k g`. -/
theorem agg_at (A : S1024x1024.Idx → EReal)
    (v2 : S64x1024x129.Idx → EReal) (v3 : S1024x129x64.Idx → EReal) (v4 v5 : S1024x8256.Idx → EReal)
    (v6 : S1024x129x64.Idx → EReal) (v7 : S64x1024x129.Idx → EReal) (v8 : S65536x129.Idx → EReal)
    (h3 : ∀ i, v3 i = v2 (idx_main_v3 i)) (h4 : ∀ i, v4 i = v3 (idx_main_v4 i))
    (h5 : ∀ i, v5 i = ∑ k : Fin 1024, A (lidx_main_v5 i k) * v4 (ridx_main_v5 i k))
    (h6 : ∀ i, v6 i = v5 (idx_main_v6 i)) (h7 : ∀ i, v7 i = v6 (idx_main_v7 i)) (h8 : ∀ i, v8 i = v7 (idx_main_v8 i))
    (b : Fin 64) (n : Fin 1024) (g : Fin 129) (hbn : b.val * 1024 + n.val < 65536) :
    v8 (ix2 (⟨b.val * 1024 + n.val, hbn⟩ : Fin 65536) g) = ∑ k : Fin 1024, A (ix2 n k) * v2 (ix3 b k g) := by
  have hgb : g.val * 64 + b.val < 8256 := by have := b.isLt; have := g.isLt; omega
  rw [h8, e8, h7, e7, h6, e6 b n g hgb, h5]
  refine Finset.sum_congr rfl fun k _ => ?_
  rw [e5l, e5r, h4, e4 b k g hgb, h3, e3]

end Cert.RefSide

end
-- ==== Proof.RefSide.lean ====
/-
  The reference's run, read one operation at a time: its result is the gated cell `Spec.G` of the argument arrays.

  Layer 1 (stages 2 to 12) is the convolution of [x | h] with W1, b1; its logistic (stages 13 to 20, spelled
  1 / (1 + exp (-v))) read flat is the pair of gates, the first half r (stage 21), the second half u (stage 22).
  Layer 2 (stages 23 to 36) is the convolution of [x | r * h] with W2, b2, its tanh (stage 39) the candidate c, and
  the result (stage 44) is u * h + (1 - u) * c. The reference and the specification are the same arrangement of the
  same sums: only index arithmetic separates them.
-/
import proofs.«180865_g44452911513920_cont_8to1_c_104_44_alg».proof.Defs
import proofs.«180865_g44452911513920_cont_8to1_c_104_44_alg».proof.Proof.Gen.ReferenceIdeal.Run
import proofs.«180865_g44452911513920_cont_8to1_c_104_44_alg».proof.Proof.Gen.ReferenceIdeal.Read
import proofs.«180865_g44452911513920_cont_8to1_c_104_44_alg».proof.Proof.Spec
import proofs.«180865_g44452911513920_cont_8to1_c_104_44_alg».proof.Proof.RefConv
import Idealize.ShloMosaic.Lib.IdealHost

noncomputable section

namespace Cert.RefSide

open Cert.ReferenceIdeal Cert.ReferenceIdeal.Gen Cert.ReferenceIdeal.Read Idealize.ShloMosaic Idealize.ShloMosaic.ValueIdx

variable (x0 : (⟨S64x1024, .f32⟩ : BufTy).Contents (Elt Ideal)) (x1 : (⟨S64x131072, .f32⟩ : BufTy).Contents (Elt Ideal)) (x2 : (⟨S1024x1024, .f32⟩ : BufTy).Contents (Elt Ideal)) (x3 : (⟨S129x256, .f32⟩ : BufTy).Contents (Elt Ideal)) (x4 : (⟨S256, .f32⟩ : BufTy).Contents (Elt Ideal)) (x5 : (⟨S129x128, .f32⟩ : BufTy).Contents (Elt Ideal)) (x6 : (⟨S128, .f32⟩ : BufTy).Contents (Elt Ideal))

/-- The argument arrays by coordinates. -/
abbrev args : Cert.Spec.Args := Cert.Spec.argsOf x0 x1 x2 x3 x4 x5 x6

/-! ## Layer 1 -/

/-- The first layer's input at (b, k, g) is the specification's `cat` of the hidden state. -/
theorem v2_at (b : Fin 64) (k : Fin 1024) (g : Fin 129) :
    val_main_v2 (F := Ideal) x0 x1 (ix3 b k g) = Cert.Spec.cat (args x0 x1 x2 x3 x4 x5 x6) (args x0 x1 x2 x3 x4 x5 x6).h b k g := by
  unfold val_main_v2
  rw [cat_at]
  unfold Cert.Spec.cat
  by_cases h : g.val = 0
  · rw [if_pos h, if_pos h, val_main_v1_apply]
    exact congrArg x0 (funext fun a => Fin.ext (by
      have hb := b.isLt; have hk := k.isLt
      match a with
      | ⟨0, _⟩ => show ((b.val * 1024 + k.val) * 1 + 0) / 1024 = b.val; omega
      | ⟨1, _⟩ => show ((b.val * 1024 + k.val) * 1 + 0) % 1024 = k.val; omega))
  · rw [if_neg h, if_neg h, val_main_v0_apply]
    exact congrArg x1 (funext fun a => Fin.ext (by
      have hb := b.isLt; have hk := k.isLt; have hg := g.isLt
      match a with
      | ⟨0, _⟩ => show ((b.val * 1024 + k.val) * 128 + (g.val - 1)) / 131072 = b.val; omega
      | ⟨1, _⟩ => show ((b.val * 1024 + k.val) * 128 + (g.val - 1)) % 131072 = k.val * 128 + (g.val - 1); omega))

/-- The first layer before the logistic, at (b * 1024 + n, o), is the specification's convolution of the hidden state. -/
theorem v12_at (b : Fin 64) (n : Fin 1024) (o : Fin 256) (hbn : b.val * 1024 + n.val < 65536) :
    val_main_v12 (F := Ideal) x0 x1 x2 x3 x4 (ix2 (⟨b.val * 1024 + n.val, hbn⟩ : Fin 65536) o)
      = Cert.Spec.conv (args x0 x1 x2 x3 x4 x5 x6) (args x0 x1 x2 x3 x4 x5 x6).h (args x0 x1 x2 x3 x4 x5 x6).W1 (args x0 x1 x2 x3 x4 x5 x6).b1 b n o := by
  rw [val_main_v12_apply, val_main_v9_apply, val_main_v11_apply, val_main_v10_apply, Ideal.addf_def]
  unfold Cert.Spec.conv
  congr 1
  · refine Finset.sum_congr rfl fun g _ => ?_
    rw [show lidx_main_v9 (ix2 (⟨b.val * 1024 + n.val, hbn⟩ : Fin 65536) o) g = ix2 (⟨b.val * 1024 + n.val, hbn⟩ : Fin 65536) g from
        funext fun a => Fin.ext (by match a with | ⟨0, _⟩ => rfl | ⟨1, _⟩ => rfl),
      show ridx_main_v9 (ix2 (⟨b.val * 1024 + n.val, hbn⟩ : Fin 65536) o) g = ix2 g o from
        funext fun a => Fin.ext (by match a with | ⟨0, _⟩ => rfl | ⟨1, _⟩ => rfl),
      agg_at x2 (val_main_v2 (F := Ideal) x0 x1) (val_main_v3 (F := Ideal) x0 x1) (val_main_v4 (F := Ideal) x0 x1)
        (val_main_v5 (F := Ideal) x0 x1 x2) (val_main_v6 (F := Ideal) x0 x1 x2) (val_main_v7 (F := Ideal) x0 x1 x2)
        (val_main_v8 (F := Ideal) x0 x1 x2)
        (val_main_v3_apply x0 x1) (val_main_v4_apply x0 x1) (val_main_v5_apply x0 x1 x2) (val_main_v6_apply x0 x1 x2)
        (val_main_v7_apply x0 x1 x2) (val_main_v8_apply x0 x1 x2) b n g hbn]
    congr 1
    refine Finset.sum_congr rfl fun k _ => ?_
    rw [v2_at]
    rfl
  · exact congrArg x4 (funext fun a => Fin.ext (by match a with | ⟨0, _⟩ => rfl))

/-! ## The gates -/

/-- The two reshapes after layer 1, composed, at flat position m of batch b. -/
theorem e13_14 (b : Fin 64) (m : Fin 262144) (hq : b.val * 1024 + m.val / 256 < 65536) :
    idx_main_v13 (idx_main_v14 (ix2 b m))
      = ix2 (⟨b.val * 1024 + m.val / 256, hq⟩ : Fin 65536) (⟨m.val % 256, Nat.mod_lt _ (by norm_num)⟩ : Fin 256) :=
  funext fun a => Fin.ext (by
    have hb := b.isLt; have hm := m.isLt
    match a with
    | ⟨0, _⟩ =>
      show ((((b.val * 262144 + m.val) / 262144) * 1024 + (b.val * 262144 + m.val) / 256 % 1024) * 256
        + (b.val * 262144 + m.val) % 256) / 256 = b.val * 1024 + m.val / 256
      omega
    | ⟨1, _⟩ =>
      show ((((b.val * 262144 + m.val) / 262144) * 1024 + (b.val * 262144 + m.val) / 256 % 1024) * 256
        + (b.val * 262144 + m.val) % 256) % 256 = m.val % 256
      omega)

/-- The logistic of layer 1, read flat: position m of batch b is the gate at node m / 256, unit m % 256. -/
theorem s_at (b : Fin 64) (m : Fin 262144) :
    val_main_v20 (F := Ideal) x0 x1 x2 x3 x4 (ix2 b m)
      = Cert.Spec.s (args x0 x1 x2 x3 x4 x5 x6) b ⟨m.val / 256, by have := m.isLt; omega⟩ ⟨m.val % 256, Nat.mod_lt _ (by norm_num)⟩ := by
  have hq : b.val * 1024 + m.val / 256 < 65536 := by have := b.isLt; have := m.isLt; omega
  rw [val_main_v20_apply, val_main_v19_apply, val_main_cst_0_apply, val_main_v18_apply, val_main_v17_apply,
    val_main_cst_apply, val_main_v16_apply, val_main_v15_apply, val_main_v14_apply, val_main_v13_apply,
    e13_14 b m hq,
    show val_main_v12 (F := Ideal) x0 x1 x2 x3 x4
        (ix2 (⟨b.val * 1024 + m.val / 256, hq⟩ : Fin 65536) (⟨m.val % 256, Nat.mod_lt _ (by norm_num)⟩ : Fin 256))
      = Cert.Spec.conv (args x0 x1 x2 x3 x4 x5 x6) (args x0 x1 x2 x3 x4 x5 x6).h (args x0 x1 x2 x3 x4 x5 x6).W1 (args x0 x1 x2 x3 x4 x5 x6).b1 b
          ⟨m.val / 256, by have := m.isLt; omega⟩ ⟨m.val % 256, Nat.mod_lt _ (by norm_num)⟩ from
      v12_at x0 x1 x2 x3 x4 x5 x6 b ⟨m.val / 256, by have := m.isLt; omega⟩ ⟨m.val % 256, Nat.mod_lt _ (by norm_num)⟩ hq]
  simp only [Ideal.hostDivf_def, Ideal.ofBits_def, Ideal.ofBits_one_f32, Ideal.addf_def, Ideal.hostUnary_exp_def,
    Ideal.hostNegf_def, Ideal.negf_def]
  rfl

/-- The reset gate: the first half of the flat gates. -/
theorem r_at (b : Fin 64) (j : Fin 131072) :
    val_main_v21 (F := Ideal) x0 x1 x2 x3 x4 (ix2 b j) = Cert.Spec.r (args x0 x1 x2 x3 x4 x5 x6) b j := by
  rw [val_main_v21_apply,
    show idx_main_v21 (ix2 b j) = ix2 b (⟨j.val, by have := j.isLt; omega⟩ : Fin 262144) from
      funext fun a => Fin.ext (by match a with | ⟨0, _⟩ => rfl | ⟨1, _⟩ => rfl),
    s_at]
  rfl

/-- The update gate: the second half of the flat gates. -/
theorem u_at (b : Fin 64) (j : Fin 131072) :
    val_main_v22 (F := Ideal) x0 x1 x2 x3 x4 (ix2 b j) = Cert.Spec.u (args x0 x1 x2 x3 x4 x5 x6) b j := by
  rw [val_main_v22_apply,
    show idx_main_v22 (ix2 b j) = ix2 b (⟨131072 + j.val, by have := j.isLt; omega⟩ : Fin 262144) from
      funext fun a => Fin.ext (by match a with | ⟨0, _⟩ => rfl | ⟨1, _⟩ => rfl),
    s_at]
  unfold Cert.Spec.u
  exact congrArg₂ (Cert.Spec.s (args x0 x1 x2 x3 x4 x5 x6) b)
    (Fin.ext (by show (131072 + j.val) / 256 = 512 + j.val / 256; omega))
    (Fin.ext (by show (131072 + j.val) % 256 = j.val % 256; omega))

/-! ## Layer 2 -/

/-- The reset hidden state, re-laid as [batch, node, unit]. -/
theorem v24_at (b : Fin 64) (k : Fin 1024) (g : Fin 128) :
    val_main_v24 (F := Ideal) x0 x1 x2 x3 x4 (ix3 b k g)
      = Cert.Spec.r (args x0 x1 x2 x3 x4 x5 x6) b ⟨k.val * 128 + g.val, by have := k.isLt; have := g.isLt; omega⟩
        * (args x0 x1 x2 x3 x4 x5 x6).h b ⟨k.val * 128 + g.val, by have := k.isLt; have := g.isLt; omega⟩ := by
  have hkg : k.val * 128 + g.val < 131072 := by have := k.isLt; have := g.isLt; omega
  rw [val_main_v24_apply,
    show idx_main_v24 (ix3 b k g) = ix2 b (⟨k.val * 128 + g.val, hkg⟩ : Fin 131072) from
      funext fun a => Fin.ext (by
        have hb := b.isLt; have hk := k.isLt; have hg := g.isLt
        match a with
        | ⟨0, _⟩ => show ((b.val * 1024 + k.val) * 128 + g.val) / 131072 = b.val; omega
        | ⟨1, _⟩ => show ((b.val * 1024 + k.val) * 128 + g.val) % 131072 = k.val * 128 + g.val; omega),
    val_main_v23_apply, r_at, Ideal.mulf_def]
  rfl

/-- The second layer's input at (b, k, g) is the specification's `cat` of the reset hidden state. -/
theorem v26_at (b : Fin 64) (k : Fin 1024) (g : Fin 129) :
    val_main_v26 (F := Ideal) x0 x1 x2 x3 x4 (ix3 b k g) = Cert.Spec.cat (args x0 x1 x2 x3 x4 x5 x6) (fun b j => Cert.Spec.r (args x0 x1 x2 x3 x4 x5 x6) b j * (args x0 x1 x2 x3 x4 x5 x6).h b j) b k g := by
  unfold val_main_v26
  rw [cat_at]
  unfold Cert.Spec.cat
  by_cases h : g.val = 0
  · rw [if_pos h, if_pos h, val_main_v25_apply]
    exact congrArg x0 (funext fun a => Fin.ext (by
      have hb := b.isLt; have hk := k.isLt
      match a with
      | ⟨0, _⟩ => show ((b.val * 1024 + k.val) * 1 + 0) / 1024 = b.val; omega
      | ⟨1, _⟩ => show ((b.val * 1024 + k.val) * 1 + 0) % 1024 = k.val; omega))
  · rw [if_neg h, if_neg h, v24_at]

/-- The second layer before the tanh, at (b * 1024 + n, o), is the specification's convolution of the reset hidden state. -/
theorem v36_at (b : Fin 64) (n : Fin 1024) (o : Fin 128) (hbn : b.val * 1024 + n.val < 65536) :
    val_main_v36 (F := Ideal) x0 x1 x2 x3 x4 x5 x6 (ix2 (⟨b.val * 1024 + n.val, hbn⟩ : Fin 65536) o)
      = Cert.Spec.conv (args x0 x1 x2 x3 x4 x5 x6) (fun b j => Cert.Spec.r (args x0 x1 x2 x3 x4 x5 x6) b j * (args x0 x1 x2 x3 x4 x5 x6).h b j) (args x0 x1 x2 x3 x4 x5 x6).W2 (args x0 x1 x2 x3 x4 x5 x6).b2 b n o := by
  rw [val_main_v36_apply, val_main_v33_apply, val_main_v35_apply, val_main_v34_apply, Ideal.addf_def]
  unfold Cert.Spec.conv
  congr 1
  · refine Finset.sum_congr rfl fun g _ => ?_
    rw [show lidx_main_v33 (ix2 (⟨b.val * 1024 + n.val, hbn⟩ : Fin 65536) o) g = ix2 (⟨b.val * 1024 + n.val, hbn⟩ : Fin 65536) g from
        funext fun a => Fin.ext (by match a with | ⟨0, _⟩ => rfl | ⟨1, _⟩ => rfl),
      show ridx_main_v33 (ix2 (⟨b.val * 1024 + n.val, hbn⟩ : Fin 65536) o) g = ix2 g o from
        funext fun a => Fin.ext (by match a with | ⟨0, _⟩ => rfl | ⟨1, _⟩ => rfl),
      agg_at x2 (val_main_v26 (F := Ideal) x0 x1 x2 x3 x4) (val_main_v27 (F := Ideal) x0 x1 x2 x3 x4)
        (val_main_v28 (F := Ideal) x0 x1 x2 x3 x4) (val_main_v29 (F := Ideal) x0 x1 x2 x3 x4)
        (val_main_v30 (F := Ideal) x0 x1 x2 x3 x4) (val_main_v31 (F := Ideal) x0 x1 x2 x3 x4)
        (val_main_v32 (F := Ideal) x0 x1 x2 x3 x4)
        (val_main_v27_apply x0 x1 x2 x3 x4) (val_main_v28_apply x0 x1 x2 x3 x4) (val_main_v29_apply x0 x1 x2 x3 x4)
        (val_main_v30_apply x0 x1 x2 x3 x4) (val_main_v31_apply x0 x1 x2 x3 x4) (val_main_v32_apply x0 x1 x2 x3 x4) b n g hbn]
    congr 1
    refine Finset.sum_congr rfl fun k _ => ?_
    rw [v26_at]
    rfl
  · exact congrArg x6 (funext fun a => Fin.ext (by match a with | ⟨0, _⟩ => rfl))

/-- The two reshapes after layer 2, composed, at flat position j of batch b. -/
theorem e37_38 (b : Fin 64) (j : Fin 131072) (hq : b.val * 1024 + j.val / 128 < 65536) :
    idx_main_v37 (idx_main_v38 (ix2 b j))
      = ix2 (⟨b.val * 1024 + j.val / 128, hq⟩ : Fin 65536) (⟨j.val % 128, Nat.mod_lt _ (by norm_num)⟩ : Fin 128) :=
  funext fun a => Fin.ext (by
    have hb := b.isLt; have hj := j.isLt
    match a with
    | ⟨0, _⟩ =>
      show ((((b.val * 131072 + j.val) / 131072) * 1024 + (b.val * 131072 + j.val) / 128 % 1024) * 128
        + (b.val * 131072 + j.val) % 128) / 128 = b.val * 1024 + j.val / 128
      omega
    | ⟨1, _⟩ =>
      show ((((b.val * 131072 + j.val) / 131072) * 1024 + (b.val * 131072 + j.val) / 128 % 1024) * 128
        + (b.val * 131072 + j.val) % 128) % 128 = j.val % 128
      omega)

/-- The candidate state. -/
theorem c_at (b : Fin 64) (j : Fin 131072) :
    val_main_v39 (F := Ideal) x0 x1 x2 x3 x4 x5 x6 (ix2 b j) = Cert.Spec.c (args x0 x1 x2 x3 x4 x5 x6) b j := by
  have hq : b.val * 1024 + j.val / 128 < 65536 := by have := b.isLt; have := j.isLt; omega
  rw [val_main_v39_apply, val_main_v38_apply, val_main_v37_apply, e37_38 b j hq,
    show val_main_v36 (F := Ideal) x0 x1 x2 x3 x4 x5 x6
        (ix2 (⟨b.val * 1024 + j.val / 128, hq⟩ : Fin 65536) (⟨j.val % 128, Nat.mod_lt _ (by norm_num)⟩ : Fin 128))
      = Cert.Spec.conv (args x0 x1 x2 x3 x4 x5 x6) (fun b j => Cert.Spec.r (args x0 x1 x2 x3 x4 x5 x6) b j * (args x0 x1 x2 x3 x4 x5 x6).h b j) (args x0 x1 x2 x3 x4 x5 x6).W2 (args x0 x1 x2 x3 x4 x5 x6).b2 b
          ⟨j.val / 128, by have := j.isLt; omega⟩ ⟨j.val % 128, Nat.mod_lt _ (by norm_num)⟩ from
      v36_at x0 x1 x2 x3 x4 x5 x6 b ⟨j.val / 128, by have := j.isLt; omega⟩ ⟨j.val % 128, Nat.mod_lt _ (by norm_num)⟩ hq,
    Ideal.hostUnary_tanh_def]
  rfl

/-! ## The result -/

/-- The reference's result is the specification's new hidden state. -/
theorem ref_is_G (i : Cert.ReferenceIdeal.S64x131072.Idx) :
    Cert.ReferenceIdeal.Read.val_main_v44 (F := Ideal) x0 x1 x2 x3 x4 x5 x6 i
      = Cert.Spec.G (Cert.Spec.argsOf x0 x1 x2 x3 x4 x5 x6) (i 0) (i 1) := by
  obtain ⟨b, j, rfl⟩ : ∃ (b : Fin 64) (j : Fin 131072), i = ix2 b j := ⟨i 0, i 1, eq_ix2 i⟩
  show val_main_v44 (F := Ideal) x0 x1 x2 x3 x4 x5 x6 (ix2 b j) = Cert.Spec.G (args x0 x1 x2 x3 x4 x5 x6) b j
  rw [val_main_v44_apply, val_main_v40_apply, val_main_v43_apply, val_main_v42_apply, val_main_v41_apply,
    val_main_cst_1_apply, u_at, c_at]
  simp only [Ideal.addf_def, Ideal.mulf_def, Ideal.subf_def, Ideal.ofBits_def, Ideal.ofBits_one_f32]
  rfl

end Cert.RefSide

end
-- ==== Proof.KRun.lean ====
/-
  The kernel program's run, read: the launch writes its output array block by block — grid point `t` writes rows
  `8 t .. 8 t + 7` of the `[64, 512, 256]` array, the eight blocks tile it — and the one host operation after the launch
  reshapes that array to `[64, 131072]`. So the program's result is the reshape of `KArr`, the array whose block `t` is what
  point `t` left in the output's staging buffer; the argument arrays are unchanged.
-/
import proofs.«180865_g44452911513920_cont_8to1_c_104_44_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.KRun

open Cert.KernelIdeal Cert.KernelIdeal.Gen Idealize.ShloMosaic.ValueIdx

variable {F : FTy → Type} [FloatOps F]
variable (m : (ℓ : Loc nD τ sig) → Buf (Elt F) ℓ) (ρ : Dev nD → PrngReg)

theorem hN : cfg0.N = 8 := N_0

/-- What grid point `n` leaves in the output's staging buffer. -/
abbrev outAt (c : Dev nD) (n : ℕ) (hn : n < cfg0.N) : Vec F S8x512x256 .f32 := (outsAt0 m c n hn).1

/-- The launch's output array: rows `8 t .. 8 t + 7` are what grid point `t` left. -/
def KArr (c : Dev nD) : S64x512x256.Idx → Elt F .f32 := fun i =>
  outAt m c ((i 0).val / 8) (by rw [hN]; have h0 : (i 0).val < 64 := (i 0).isLt; omega)
    (ix3 (⟨(i 0).val % 8, Nat.mod_lt _ (by norm_num)⟩ : Fin 8) (i 1) (i 2))

/-- The output window's block index at point `t` is `(t, 0, 0)`. -/
theorem idx10 : ∀ t : Fin cfg0.N, win0_10.index t (0 : Fin 3) = t.val ∧ win0_10.index t (1 : Fin 3) = 0
    ∧ win0_10.index t (2 : Fin 3) = 0 :=
  (by decide +kernel : ∀ t : Fin grid0.N, _)

/-- `KArr` on rows `8 t .. 8 t + 7` is what point `t` left. -/
theorem KArr_blk (c : Dev nD) (t : Fin cfg0.N) (s : Fin 8) (p : Fin 512) (q : Fin 256) (i : S64x512x256.Idx)
    (h0 : (i 0).val = t.val * 8 + s.val) (h1 : (i 1).val = p.val) (h2 : (i 2).val = q.val) :
    KArr m c i = outAt m c t.val t.isLt (ix3 s p q) := by
  unfold KArr
  have hs : s.val < 8 := s.isLt
  have hdiv : (i 0).val / 8 = t.val := by omega
  have key : ∀ (n : ℕ) (hn : n < cfg0.N), n = t.val → outAt m c n hn = outAt m c t.val t.isLt := by
    intro n hn e; subst e; rfl
  rw [key _ _ hdiv]
  refine congrArg _ ?_
  funext a; apply Fin.ext
  match a with
  | ⟨0, _⟩ => show (i 0).val % 8 = s.val; omega
  | ⟨1, _⟩ => exact h1
  | ⟨2, _⟩ => exact h2

/-- What point `t` writes back is block `t` of `KArr`. -/
theorem flushed_eq (c : Dev nD) (t : Fin cfg0.N) :
    (dats m 0 c).flushed 10 t = ((cfg0.win 10).blk t).view.read (Elt F) (KArr m c) := by
  show (cfg0.win 10).cut (grid0.coords t) ((dats m 0 c).after 10 t) = _
  rw [after0_10]
  obtain ⟨e0, e1, e2⟩ := idx10 t
  funext y
  show (outsAt0 m c t.val t.isLt).1 y = KArr m c (((cfg0.win 10).blk t).view.emb y)
  have hy0 : (y 0).val < 8 := (y 0).isLt
  have hy1 : (y 1).val < 512 := (y 1).isLt
  have hy2 : (y 2).val < 256 := (y 2).isLt
  have h0 : ((((cfg0.win 10).blk t).view.emb y) 0).val = t.val * 8 + (y 0).val := by
    show win0_10.index t (0 : Fin 3) * 8 + 1 * (y 0).val = _; rw [e0]; omega
  have h1 : ((((cfg0.win 10).blk t).view.emb y) 1).val = (y 1).val := by
    show win0_10.index t (1 : Fin 3) * 512 + 1 * (y 1).val = _; rw [e1]; omega
  have h2 : ((((cfg0.win 10).blk t).view.emb y) 2).val = (y 2).val := by
    show win0_10.index t (2 : Fin 3) * 256 + 1 * (y 2).val = _; rw [e2]; omega
  rw [KArr_blk m c t ⟨(y 0).val, hy0⟩ ⟨(y 1).val, hy1⟩ ⟨(y 2).val, hy2⟩ _ h0 h1 h2]
  exact congrArg (outAt m c t.val t.isLt) (funext fun a => Fin.ext (by
    match a with
    | ⟨0, _⟩ => rfl
    | ⟨1, _⟩ => rfl
    | ⟨2, _⟩ => rfl))

/-- An index of the array is in point `t`'s block iff each coordinate is in the block's range. -/
theorem mem_blk (t : Fin cfg0.N) (i : S64x512x256.Idx) :
    i ∈ ((cfg0.win 10).blk t).view.set ↔ ∀ a : Fin 3, win0_10.index t a * S8x512x256.size a ≤ (i a).val ∧ (i a).val < win0_10.index t a * S8x512x256.size a + S8x512x256.size a := by
  show i ∈ ((View.whole main_call0_v29).slice (win0_10.rect t)).set ↔ _
  rw [View.set_slice_whole, Rect.mem_set_unit]
  exact Iff.rfl

/-- After the run the launch's output array is `KArr`: the eight points' blocks tile it. -/
theorem final (c : Dev nD) : (dats m 0 c).arrAt 10 cfg0.N = KArr m c :=
  (dats m 0 c).arrAt_eq_of_cover 10 (KArr m c) (fun t _ => flushed_eq m c t) fun i => by
    have h0 : (i 0).val < 64 := (i 0).isLt
    have h1 : (i 1).val < 512 := (i 1).isLt
    have h2 : (i 2).val < 256 := (i 2).isLt
    have ht : (i 0).val / 8 < cfg0.N := by rw [hN]; omega
    obtain ⟨e0, e1, e2⟩ := idx10 ⟨(i 0).val / 8, ht⟩
    refine ⟨⟨(i 0).val / 8, ht⟩, flush0_10 _, ?_⟩
    rw [mem_blk]
    intro a
    match a with
    | ⟨0, _⟩ => show win0_10.index ⟨(i 0).val / 8, ht⟩ (0 : Fin 3) * 8 ≤ (i 0).val ∧ (i 0).val < win0_10.index ⟨(i 0).val / 8, ht⟩ (0 : Fin 3) * 8 + 8; rw [e0]; dsimp only; omega
    | ⟨1, _⟩ => show win0_10.index ⟨(i 0).val / 8, ht⟩ (1 : Fin 3) * 512 ≤ (i 1).val ∧ (i 1).val < win0_10.index ⟨(i 0).val / 8, ht⟩ (1 : Fin 3) * 512 + 512; rw [e1]; omega
    | ⟨2, _⟩ => show win0_10.index ⟨(i 0).val / 8, ht⟩ (2 : Fin 3) * 256 ≤ (i 2).val ∧ (i 2).val < win0_10.index ⟨(i 0).val / 8, ht⟩ (2 : Fin 3) * 256 + 256; rw [e2]; omega

/-- The program's result: the launch's output array, reshaped by the one host operation after the launch. -/
theorem tail_v0 (c : Dev nD) :
    Pipeline.afterTail₀ cfgs (dats m) 0 (V0 m) [hostOps1] c main_v0
      = shapeCast S64x131072 (KArr m c) shapeCasts_S64x512x256_S64x131072 := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v29) = KArr m c :=
    (Pipeline.withArrays_arr spec0 launch0.win.arr_inj c _ _ 10).trans (final m c)
  show shapeCast S64x131072 (Pipeline.withArrays (cfgs 0).spec c (V0 m c) (fun w => (dats m 0 c).arrAt w (cfgs 0).N) (Proc.devRef .tc main_call0_v29)) shapeCasts_S64x512x256_S64x131072 = _
  rw [hw]

/-- The run, read: the result is the reshaped launch output; the arguments are unchanged. -/
theorem run : θ_run defs (onTc (τ := τ) (main (F := F))) ⟨m, fun _ => 0, ρ⟩ fun r => ∀ c : Dev nD,
      r.2.mem ((c.tc : Thread nD τ).loc main_v0) = shapeCast S64x131072 (KArr m c) shapeCasts_S64x512x256_S64x131072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v0 (Pipeline.mem_restRefs_of main_v0 (by decide) (by decide))).trans (tail_v0 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KRun
end
-- ==== Proof.KSpec.lean ====
/-
  One grid step of the fused cell as a function of what the step reads, index by index, over the extended reals.

  A step handles eight batches (slots `t`). It reads their hidden rows in the flat `[512, 256]` view `hg t`
  (row `p` holds nodes `2p` (lanes `0..127`) and `2p + 1` (lanes `128..255`)), the column-permuted adjacency
  `AcP`, the row-and-column-permuted adjacency `App`, the node-input aggregates of its slots in natural and in permuted
  row order (`axc`, `axcP`), and the two layers' weights split into the node-input row and the hidden rows.
    * `hP j t g`: the hidden rows stacked evens-then-odds: position `j < 512` is row `j`, lanes `g`; position
      `512 + j'` is row `j'`, lanes `128 + g`;
    * `sg t n o = logistic ((∑ g, (∑ j, AcP n j * hP j t g) * W1h g o + axc n t * w1x o) + b1 o)`;
    * the reset hidden rows `rh t p q = sg t p q * hg t p q` (`p < 512`), stacked the same way (`rhP`);
    * `cP t r o = tanh ((∑ g, (∑ j, App r j * rhP j t g) * W2h g o + axcP r t * w2x o) + b2 o)`, in permuted row order,
      read back flat: `cc t p q` is `cP t p q` for `q < 128` and `cP t (512 + p) (q - 128)` otherwise;
    * the step's output `outK t p q = cc t p q + sg t (512 + p) q * (hg t p q - cc t p q)`.
-/
import Idealize.ShloMosaic.PureOps.Ideal

noncomputable section

namespace Cert.KSpec

open Idealize.ShloMosaic

/-- What one grid step reads. -/
structure KIn where
  hg : Fin 8 → Fin 512 → Fin 256 → EReal
  AcP : Fin 1024 → Fin 1024 → EReal
  App : Fin 1024 → Fin 1024 → EReal
  axc : Fin 1024 → Fin 8 → EReal
  axcP : Fin 1024 → Fin 8 → EReal
  w1x : Fin 256 → EReal
  W1h : Fin 128 → Fin 256 → EReal
  b1 : Fin 256 → EReal
  w2x : Fin 128 → EReal
  W2h : Fin 128 → Fin 128 → EReal
  b2 : Fin 128 → EReal

variable (k : KIn)

/-- Rows of a flat `[512, 256]` view stacked evens-then-odds, `128` lanes wide. -/
def stack (v : Fin 512 → Fin 256 → EReal) (j : Fin 1024) (g : Fin 128) : EReal :=
  if h : j.val < 512 then v ⟨j.val, h⟩ ⟨g.val, by have := g.isLt; omega⟩
  else v ⟨j.val - 512, by have := j.isLt; omega⟩ ⟨128 + g.val, by have := g.isLt; omega⟩

/-- The first layer's pre-activation. -/
def pre1 (t : Fin 8) (n : Fin 1024) (o : Fin 256) : EReal :=
  ((∑ g : Fin 128, (∑ j : Fin 1024, k.AcP n j * stack (k.hg t) j g) * k.W1h g o) + k.axc n t * k.w1x o) + k.b1 o

/-- The gates. -/
def sg (t : Fin 8) (n : Fin 1024) (o : Fin 256) : EReal := Ideal.logistic (pre1 k t n o)

/-- The reset hidden rows, flat view. -/
def rh (t : Fin 8) (p : Fin 512) (q : Fin 256) : EReal :=
  sg k t ⟨p.val, by have := p.isLt; omega⟩ q * k.hg t p q

/-- The second layer's pre-activation, rows in permuted order. -/
def pre2 (t : Fin 8) (r : Fin 1024) (o : Fin 128) : EReal :=
  ((∑ g : Fin 128, (∑ j : Fin 1024, k.App r j * stack (rh k t) j g) * k.W2h g o) + k.axcP r t * k.w2x o) + k.b2 o

/-- The candidate state, rows in permuted order. -/
def cP (t : Fin 8) (r : Fin 1024) (o : Fin 128) : EReal := Ideal.tanh (pre2 k t r o)

/-- The candidate state read back in the flat view. -/
def cc (t : Fin 8) (p : Fin 512) (q : Fin 256) : EReal :=
  if h : q.val < 128 then cP k t ⟨p.val, by have := p.isLt; omega⟩ ⟨q.val, h⟩
  else cP k t ⟨512 + p.val, by have := p.isLt; omega⟩ ⟨q.val - 128, by have := q.isLt; omega⟩

/-- The step's output for slot `t`, flat view. -/
def outK (t : Fin 8) (p : Fin 512) (q : Fin 256) : EReal :=
  cc k t p q + sg k t ⟨512 + p.val, by have := p.isLt; omega⟩ q * (k.hg t p q - cc k t p q)

end Cert.KSpec

end
-- ==== Proof.KGlue.lean ====
/-
  What one grid step reads, packaged for the step's index-level description (KSpec): the eight hidden rows of the
  step's block (each a `[1, 512, 256]` load), the two resident adjacency matrices, the node-input aggregates of the
  step's eight batches (already extracted, `[1024, 8]`), and the weights as the kernel receives them.
-/
import proofs.«180865_g44452911513920_cont_8to1_c_104_44_alg».proof.KernelIdeal
import proofs.«180865_g44452911513920_cont_8to1_c_104_44_alg».proof.Proof.KSpec
import Idealize.ShloMosaic.Lib.ValueIdx

noncomputable section

namespace Cert.KGlue

open Idealize.ShloMosaic Idealize.ShloMosaic.ValueIdx Cert.KernelIdeal

/-- Slot `t`'s load among the eight. -/
def sel8 {α : Type} (a0 a1 a2 a3 a4 a5 a6 a7 : α) : Fin 8 → α
  | ⟨0, _⟩ => a0 | ⟨1, _⟩ => a1 | ⟨2, _⟩ => a2 | ⟨3, _⟩ => a3
  | ⟨4, _⟩ => a4 | ⟨5, _⟩ => a5 | ⟨6, _⟩ => a6 | ⟨7, _⟩ => a7
  | ⟨_ + 8, h⟩ => absurd h (by omega)

/-- The step's inputs as functions of coordinates. -/
def kin (l0 l1 l2 l3 l4 l5 l6 l7 : Vec Ideal S1x512x256 .f32)
    (AcP App : Vec Ideal S1024x1024 .bf16) (axcw axcPw : FVec Ideal S1024x8 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) : Cert.KSpec.KIn where
  hg t p q := sel8 l0 l1 l2 l3 l4 l5 l6 l7 t (ix3 (0 : Fin 1) p q)
  AcP n j := AcP (ix2 n j)
  App r j := App (ix2 r j)
  axc n t := axcw (ix2 n t)
  axcP r t := axcPw (ix2 r t)
  w1x o := w1x (ix2 (0 : Fin 1) o)
  W1h g o := W1h (ix2 g o)
  b1 o := b1 (ix2 (0 : Fin 1) o)
  w2x o := w2x (ix2 (0 : Fin 1) o)
  W2h g o := W2h (ix2 g o)
  b2 o := b2 (ix2 (0 : Fin 1) o)

end Cert.KGlue

end
-- ==== Proof.KStep.lean ====
/-
  A grid step as a whole: the step's index-level inputs (KSpec.KIn) from the blocks its body loads — the eight hidden
  rows of the step's `[8, 512, 256]` block, the weights, and the four resident arrays — and the four resident arrays
  themselves as the first step computes them from the adjacency and the two transposed node-input matrices.
-/
import proofs.«180865_g44452911513920_cont_8to1_c_104_44_alg».proof.Proof.Gen.KernelIdeal.Skeleton
import proofs.«180865_g44452911513920_cont_8to1_c_104_44_alg».proof.Proof.KGlue
import Idealize.ShloMosaic.Lib.Pipeline.Value

noncomputable section

namespace Cert.KStep

open Idealize.ShloMosaic Idealize.ShloMosaic.ValueIdx Cert.KernelIdeal Cert.KernelIdeal.Gen

attribute [local instance] Cert.KernelIdeal.Gen.facts

/-- Slot 0's rows of the step's hidden block, as the body loads them. -/
abbrev ld0 (x3 : Vec Ideal S8x512x256 .f32) : Vec Ideal S1x512x256 .f32 :=
  View.ld x3 (Rect.unit ![0, 0, 0] S1x512x256.size inb_S8x512x256_S1x512x256_0_0_0)
/-- Slot 1's rows of the step's hidden block, as the body loads them. -/
abbrev ld1 (x3 : Vec Ideal S8x512x256 .f32) : Vec Ideal S1x512x256 .f32 :=
  View.ld x3 (Rect.unit ![1, 0, 0] S1x512x256.size inb_S8x512x256_S1x512x256_1_0_0)
/-- Slot 2's rows of the step's hidden block, as the body loads them. -/
abbrev ld2 (x3 : Vec Ideal S8x512x256 .f32) : Vec Ideal S1x512x256 .f32 :=
  View.ld x3 (Rect.unit ![2, 0, 0] S1x512x256.size inb_S8x512x256_S1x512x256_2_0_0)
/-- Slot 3's rows of the step's hidden block, as the body loads them. -/
abbrev ld3 (x3 : Vec Ideal S8x512x256 .f32) : Vec Ideal S1x512x256 .f32 :=
  View.ld x3 (Rect.unit ![3, 0, 0] S1x512x256.size inb_S8x512x256_S1x512x256_3_0_0)
/-- Slot 4's rows of the step's hidden block, as the body loads them. -/
abbrev ld4 (x3 : Vec Ideal S8x512x256 .f32) : Vec Ideal S1x512x256 .f32 :=
  View.ld x3 (Rect.unit ![4, 0, 0] S1x512x256.size inb_S8x512x256_S1x512x256_4_0_0)
/-- Slot 5's rows of the step's hidden block, as the body loads them. -/
abbrev ld5 (x3 : Vec Ideal S8x512x256 .f32) : Vec Ideal S1x512x256 .f32 :=
  View.ld x3 (Rect.unit ![5, 0, 0] S1x512x256.size inb_S8x512x256_S1x512x256_5_0_0)
/-- Slot 6's rows of the step's hidden block, as the body loads them. -/
abbrev ld6 (x3 : Vec Ideal S8x512x256 .f32) : Vec Ideal S1x512x256 .f32 :=
  View.ld x3 (Rect.unit ![6, 0, 0] S1x512x256.size inb_S8x512x256_S1x512x256_6_0_0)
/-- Slot 7's rows of the step's hidden block, as the body loads them. -/
abbrev ld7 (x3 : Vec Ideal S8x512x256 .f32) : Vec Ideal S1x512x256 .f32 :=
  View.ld x3 (Rect.unit ![7, 0, 0] S1x512x256.size inb_S8x512x256_S1x512x256_7_0_0)

/-- The column-permuted adjacency the first step stores. -/
abbrev S0 (x0 : Vec Ideal S1024x1024 .f32) : Vec Ideal S1024x1024 .bf16 := k0_pay9 (F := Ideal) (k0_pay3 x0) k0_pay4
/-- The row-and-column-permuted adjacency the first step stores. -/
abbrev S1 (x0 : Vec Ideal S1024x1024 .f32) : Vec Ideal S1024x1024 .bf16 :=
  k0_pay11 (F := Ideal) (k0_pay3 x0) (iota .tc S1024x1024 32 [1] iota_S1024x1024_d1_w32) k0_pay4 k0_pay5 k0_pay6 1024#32 k0_pay7
/-- The node-input aggregates of all batches, natural row order. -/
abbrev S2 (x0 : Vec Ideal S1024x1024 .f32) (x1 : Vec Ideal S1024x64 .bf16) : Vec Ideal S1024x64 .f32 :=
  k0_pay13 (F := Ideal) (k0_pay12 (k0_pay3 x0) x1)
/-- The node-input aggregates of all batches, permuted row order. -/
abbrev S3 (x0 : Vec Ideal S1024x1024 .f32) (x2 : Vec Ideal S1024x64 .bf16) : Vec Ideal S1024x64 .f32 :=
  k0_pay14 (F := Ideal) (k0_pay10 (k0_pay3 x0) (iota .tc S1024x1024 32 [1] iota_S1024x1024_d1_w32) k0_pay4 k0_pay5 k0_pay6 1024#32 k0_pay7) x2

/-- What a grid step reads, from its blocks and the resident arrays. -/
def stepK (pid : BitVec 32) (x3 : Vec Ideal S8x512x256 .f32) (x4 : Vec Ideal S1x256 .f32) (x5 : Vec Ideal S128x256 .bf16)
    (x6 : Vec Ideal S1x256 .f32) (x7 : Vec Ideal S1x128 .f32) (x8 : Vec Ideal S128x128 .bf16) (x9 : Vec Ideal S1x128 .f32)
    (xs0 xs1 : Vec Ideal S1024x1024 .bf16) (xs2 xs3 : Vec Ideal S1024x64 .f32) : Cert.KSpec.KIn :=
  Cert.KGlue.kin (ld0 x3) (ld1 x3) (ld2 x3) (ld3 x3) (ld4 x3) (ld5 x3) (ld6 x3) (ld7 x3) xs0 xs1
    (k0_pay38 (F := Ideal) pid xs2) (k0_pay39 (F := Ideal) pid xs3) x4 x5 x6 x7 x8 x9

/-- What a grid step writes: slot `s`, flat position `(p, q)`. -/
def stepVal (pid : BitVec 32) (x3 : Vec Ideal S8x512x256 .f32) (x4 : Vec Ideal S1x256 .f32) (x5 : Vec Ideal S128x256 .bf16)
    (x6 : Vec Ideal S1x256 .f32) (x7 : Vec Ideal S1x128 .f32) (x8 : Vec Ideal S128x128 .bf16) (x9 : Vec Ideal S1x128 .f32)
    (xs0 xs1 : Vec Ideal S1024x1024 .bf16) (xs2 xs3 : Vec Ideal S1024x64 .f32) : S8x512x256.Idx → EReal := fun y =>
  Cert.KSpec.outK (stepK pid x3 x4 x5 x6 x7 x8 x9 xs0 xs1 xs2 xs3)
    (⟨(y 0).val, (y 0).isLt⟩ : Fin 8) (⟨(y 1).val, (y 1).isLt⟩ : Fin 512) (⟨(y 2).val, (y 2).isLt⟩ : Fin 256)

end Cert.KStep

end
-- ==== Proof.KOut.lean ====
/-
  A slot's output from the arrays the second layer's arithmetic reads, index by index: with `v249` the wide
  product `[1024, 1024]` (slot `t` in columns `128 t .. 128 t + 127`), `v60` the extracted node-input aggregates
  `[1024, 8]`, the second layer's weights, the slot's hidden rows `vh` and update gate `vu` (flat `[512, 256]`):
    `cPg t r o = tanh ((∑ g, v249 r (128 t + g) * W2h g o + v60 r t * w2x o) + b2 o)`   (rows in permuted order),
    `ccg t p q` = `cPg t p q` for `q < 128`, else `cPg t (512 + p) (q - 128)`   (read back flat),
    `outg t p q = ccg t p q + vu p q * (vh p q - ccg t p q)`.
-/
import proofs.«180865_g44452911513920_cont_8to1_c_104_44_alg».proof.KernelIdeal
import Idealize.ShloMosaic.Lib.ValueIdx
import Idealize.ShloMosaic.PureOps.Ideal

noncomputable section

namespace Cert.KOut

open Idealize.ShloMosaic Idealize.ShloMosaic.ValueIdx Cert.KernelIdeal

variable (t : Fin 8) (vh vu : FVec Ideal S512x256 .f32) (v249 : FVec Ideal S1024x1024 .f32) (v60 : FVec Ideal S1024x8 .f32)
  (W2h : Vec Ideal S128x128 .bf16) (w2x b2 : Vec Ideal S1x128 .f32)

/-- The candidate state, rows in permuted order. -/
def cPg (r : Fin 1024) (o : Fin 128) : EReal :=
  Ideal.tanh (((∑ g : Fin 128, v249 (ix2 r (⟨128 * t.val + g.val, by have := t.isLt; have := g.isLt; omega⟩ : Fin 1024)) * W2h (ix2 g o))
    + v60 (ix2 r t) * w2x (ix2 (0 : Fin 1) o)) + b2 (ix2 (0 : Fin 1) o))

/-- The candidate state read back in the flat view. -/
def ccg (p : Fin 512) (q : Fin 256) : EReal :=
  if h : q.val < 128 then cPg t v249 v60 W2h w2x b2 ⟨p.val, by have := p.isLt; omega⟩ ⟨q.val, h⟩
  else cPg t v249 v60 W2h w2x b2 ⟨512 + p.val, by have := p.isLt; omega⟩ ⟨q.val - 128, by have := q.isLt; omega⟩

/-- The slot's output, flat view. -/
def outg (p : Fin 512) (q : Fin 256) : EReal :=
  ccg t v249 v60 W2h w2x b2 p q + vu (ix2 p q) * (vh (ix2 p q) - ccg t v249 v60 W2h w2x b2 p q)

end Cert.KOut

end
-- ==== Proof.KMat.lean ====
/-
  The kernel's matrix products read at an entry: into a zero accumulator, over the extended reals, a product is the
  plain finite sum over the contracted axis (a change of float format on the way in is the identity).
-/
import proofs.«180865_g44452911513920_cont_8to1_c_104_44_alg».proof.KernelIdeal
import proofs.«180865_g44452911513920_cont_8to1_c_104_44_alg».proof.Proof.Gen.KernelIdeal
import Idealize.ShloMosaic.Lib.ValueIdx
import Idealize.ShloMosaic.PureOps.Ideal.Laws

noncomputable section

namespace Cert.KMat

open Idealize.ShloMosaic Idealize.ShloMosaic.ValueIdx Cert.KernelIdeal

attribute [local instance] Cert.KernelIdeal.Gen.facts

theorem mm_1024_1024_1024_l0 (i : S1024x1024.Idx) (κ : dot_S1024x1024_S1024x1024_S1024x1024_1_0_0_1_n_n.contr.Idx) : (dot_S1024x1024_S1024x1024_S1024x1024_1_0_0_1_n_n.lhsIdx i κ 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm_1024_1024_1024_l1 (i : S1024x1024.Idx) (κ : dot_S1024x1024_S1024x1024_S1024x1024_1_0_0_1_n_n.contr.Idx) : (dot_S1024x1024_S1024x1024_S1024x1024_1_0_0_1_n_n.lhsIdx i κ 1).val = (κ ⟨0, by decide⟩).val :=
  dot_S1024x1024_S1024x1024_S1024x1024_1_0_0_1_n_n.lhsIdx_val_of_single rfl i κ
theorem mm_1024_1024_1024_r0 (i : S1024x1024.Idx) (κ : dot_S1024x1024_S1024x1024_S1024x1024_1_0_0_1_n_n.contr.Idx) : (dot_S1024x1024_S1024x1024_S1024x1024_1_0_0_1_n_n.rhsIdx i κ 0).val = (κ ⟨0, by decide⟩).val :=
  dot_S1024x1024_S1024x1024_S1024x1024_1_0_0_1_n_n.rhsIdx_val_of_single rfl i κ
theorem mm_1024_1024_1024_r1 (i : S1024x1024.Idx) (κ : dot_S1024x1024_S1024x1024_S1024x1024_1_0_0_1_n_n.contr.Idx) : (dot_S1024x1024_S1024x1024_S1024x1024_1_0_0_1_n_n.rhsIdx i κ 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A `[1024, 1024] × [1024, 1024]` matrix product into a zero accumulator, at an entry: the plain sum over the contracted axis. -/
theorem mm_1024_1024_1024 {φ₁ φ₂ : FTy} (l : FVec Ideal S1024x1024 φ₁) (r : FVec Ideal S1024x1024 φ₂) (p : Fin 1024) (q : Fin 1024) :
    matmul dot_S1024x1024_S1024x1024_S1024x1024_1_0_0_1_n_n none l r (constant S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact mm_1024_1024_1024_l0 _ _
    | ⟨1, _⟩ => exact (mm_1024_1024_1024_l1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (mm_1024_1024_1024_r0 _ _).trans hk
    | ⟨1, _⟩ => exact mm_1024_1024_1024_r1 _ _)
  rw [el, er]

theorem mm_1024_1024_64_l0 (i : S1024x64.Idx) (κ : dot_S1024x1024_S1024x64_S1024x64_1_0_0_1_n_n.contr.Idx) : (dot_S1024x1024_S1024x64_S1024x64_1_0_0_1_n_n.lhsIdx i κ 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem mm_1024_1024_64_l1 (i : S1024x64.Idx) (κ : dot_S1024x1024_S1024x64_S1024x64_1_0_0_1_n_n.contr.Idx) : (dot_S1024x1024_S1024x64_S1024x64_1_0_0_1_n_n.lhsIdx i κ 1).val = (κ ⟨0, by decide⟩).val :=
  dot_S1024x1024_S1024x64_S1024x64_1_0_0_1_n_n.lhsIdx_val_of_single rfl i κ
theorem mm_1024_1024_64_r0 (i : S1024x64.Idx) (κ : dot_S1024x1024_S1024x64_S1024x64_1_0_0_1_n_n.contr.Idx) : (dot_S1024x1024_S1024x64_S1024x64_1_0_0_1_n_n.rhsIdx i κ 0).val = (κ ⟨0, by decide⟩).val :=
  dot_S1024x1024_S1024x64_S1024x64_1_0_0_1_n_n.rhsIdx_val_of_single rfl i κ
theorem mm_1024_1024_64_r1 (i : S1024x64.Idx) (κ : dot_S1024x1024_S1024x64_S1024x64_1_0_0_1_n_n.contr.Idx) : (dot_S1024x1024_S1024x64_S1024x64_1_0_0_1_n_n.rhsIdx i κ 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A `[1024, 1024] × [1024, 64]` matrix product into a zero accumulator, at an entry: the plain sum over the contracted axis. -/
theorem mm_1024_1024_64 {φ₁ φ₂ : FTy} (l : FVec Ideal S1024x1024 φ₁) (r : FVec Ideal S1024x64 φ₂) (p : Fin 1024) (q : Fin 64) :
    matmul dot_S1024x1024_S1024x64_S1024x64_1_0_0_1_n_n none l r (constant S1024x64 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p q) ((ValueIdx.contrEquiv1 dot_S1024x1024_S1024x64_S1024x64_1_0_0_1_n_n 1024 rfl rfl).symm k) = ix2 p k := funext fun a => Fin.ext (by
    match a with
    | ⟨0, _⟩ => exact mm_1024_1024_64_l0 _ _
    | ⟨1, _⟩ => exact (mm_1024_1024_64_l1 _ _).trans hk)
  have er : dot_S1024x1024_S1024x64_S1024x64_1_0_0_1_n_n.rhsIdx (ix2 p q) ((ValueIdx.contrEquiv1 dot_S1024x1024_S1024x64_S1024x64_1_0_0_1_n_n 1024 rfl rfl).symm k) = ix2 k q := funext fun a => Fin.ext (by
    match a with
    | ⟨0, _⟩ => exact (mm_1024_1024_64_r0 _ _).trans hk
    | ⟨1, _⟩ => exact mm_1024_1024_64_r1 _ _)
  rw [el, er]

theorem mm_1024_64_8_l0 (i : S1024x8.Idx) (κ : dot_S1024x64_S64x8_S1024x8_1_0_0_1_n_n.contr.Idx) : (dot_S1024x64_S64x8_S1024x8_1_0_0_1_n_n.lhsIdx i κ 0).val = (i 0).val := by
  unfold DotDims.lhsIdx
  rw [dif_neg (show ¬(0 : Fin S1024x64.rank) ∈ dot_S1024x64_S64x8_S1024x8_1_0_0_1_n_n.lhsBatch by decide), dif_pos (show (0 : Fin S1024x64.rank) ∈ dot_S1024x64_S64x8_S1024x8_1_0_0_1_n_n.lhsNonContracting by decide)]
  rfl
theorem mm_1024_64_8_l1 (i : S1024x8.Idx) (κ : dot_S1024x64_S64x8_S1024x8_1_0_0_1_n_n.contr.Idx) : (dot_S1024x64_S64x8_S1024x8_1_0_0_1_n_n.lhsIdx i κ 1).val = (κ ⟨0, by decide⟩).val :=
  dot_S1024x64_S64x8_S1024x8_1_0_0_1_n_n.lhsIdx_val_of_single rfl i κ
theorem mm_1024_64_8_r0 (i : S1024x8.Idx) (κ : dot_S1024x64_S64x8_S1024x8_1_0_0_1_n_n.contr.Idx) : (dot_S1024x64_S64x8_S1024x8_1_0_0_1_n_n.rhsIdx i κ 0).val = (κ ⟨0, by decide⟩).val :=
  dot_S1024x64_S64x8_S1024x8_1_0_0_1_n_n.rhsIdx_val_of_single rfl i κ
theorem mm_1024_64_8_r1 (i : S1024x8.Idx) (κ : dot_S1024x64_S64x8_S1024x8_1_0_0_1_n_n.contr.Idx) : (dot_S1024x64_S64x8_S1024x8_1_0_0_1_n_n.rhsIdx i κ 1).val = (i 1).val := by
  unfold DotDims.rhsIdx
  rw [dif_neg (show ¬(1 : Fin S64x8.rank) ∈ dot_S1024x64_S64x8_S1024x8_1_0_0_1_n_n.rhsBatch by decide), dif_pos (show (1 : Fin S64x8.rank) ∈ dot_S1024x64_S64x8_S1024x8_1_0_0_1_n_n.rhsNonContracting by decide)]
  rfl

/-- A `[1024, 64] × [64, 8]` matrix product into a zero accumulator, at an entry: the plain sum over the contracted axis. -/
theorem mm_1024_64_8 {φ₁ φ₂ : FTy} (l : FVec Ideal S1024x64 φ₁) (r : FVec Ideal S64x8 φ₂) (p : Fin 1024) (q : Fin 8) :
    matmul dot_S1024x64_S64x8_S1024x8_1_0_0_1_n_n none l r (constant S1024x8 .f32 0x00000000#32) (ix2 p q)
      = ∑ k : Fin 64, l (ix2 p k) * r (ix2 k q) := by
  simp only [matmul]
  rw [Ideal.matmul_constant_zero_apply, ← Equiv.sum_comp (ValueIdx.contrEquiv1 dot_S1024x64_S64x8_S1024x8_1_0_0_1_n_n 64 rfl rfl).symm]
  refine Finset.sum_congr rfl fun k _ => ?_
  have hk := ValueIdx.contrEquiv1_symm_val dot_S1024x64_S64x8_S1024x8_1_0_0_1_n_n 64 rfl rfl k
  have el : dot_S1024x64_S64x8_S1024x8_1_0_0_1_n_n.lhsIdx (ix2 p q) ((ValueIdx.contrEquiv1 dot_S1024x64_S64x8_S1024x8_1_0_0_1_n_n 64 rfl rfl).symm k) = ix2 p k := funext fun a => Fin.ext (by
    match a with
    | ⟨0, _⟩ => exact mm_1024_64_8_l0 _ _
    | ⟨1, _⟩ => exact (mm_1024_64_8_l1 _ _).trans hk)
  have er : dot_S1024x64_S64x8_S1024x8_1_0_0_1_n_n.rhsIdx (ix2 p q) ((ValueIdx.contrEquiv1 dot_S1024x64_S64x8_S1024x8_1_0_0_1_n_n 64 rfl rfl).symm k) = ix2 k q := funext fun a => Fin.ext (by
    match a with
    | ⟨0, _⟩ => exact (mm_1024_64_8_r0 _ _).trans hk
    | ⟨1, _⟩ => exact mm_1024_64_8_r1 _ _)
  rw [el, er]

theorem mm_1024_128_256_l0 (i : S1024x256.Idx) (κ : dot_S1024x128_S128x256_S1024x256_1_0_0_1_n_n.contr.Idx) : (dot_S1024x128_S128x256_S1024x256_1_0_0_1_n_n.lhsIdx i κ 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem mm_1024_128_256_l1 (i : S1024x256.Idx) (κ : dot_S1024x128_S128x256_S1024x256_1_0_0_1_n_n.contr.Idx) : (dot_S1024x128_S128x256_S1024x256_1_0_0_1_n_n.lhsIdx i κ 1).val = (κ ⟨0, by decide⟩).val :=
  dot_S1024x128_S128x256_S1024x256_1_0_0_1_n_n.lhsIdx_val_of_single rfl i κ
theorem mm_1024_128_256_r0 (i : S1024x256.Idx) (κ : dot_S1024x128_S128x256_S1024x256_1_0_0_1_n_n.contr.Idx) : (dot_S1024x128_S128x256_S1024x256_1_0_0_1_n_n.rhsIdx i κ 0).val = (κ ⟨0, by decide⟩).val :=
  dot_S1024x128_S128x256_S1024x256_1_0_0_1_n_n.rhsIdx_val_of_single rfl i κ
theorem mm_1024_128_256_r1 (i : S1024x256.Idx) (κ : dot_S1024x128_S128x256_S1024x256_1_0_0_1_n_n.contr.Idx) : (dot_S1024x128_S128x256_S1024x256_1_0_0_1_n_n.rhsIdx i κ 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- A `[1024, 128] × [128, 256]` matrix product into a zero accumulator, at an entry: the plain sum over the contracted axis. -/
theorem mm_1024_128_256 {φ₁ φ₂ : FTy} (l : FVec Ideal S1024x128 φ₁) (r : FVec Ideal S128x256 φ₂) (p : Fin 1024) (q : Fin 256) :
    matmul dot_S1024x128_S128x256_S1024x256_1_0_0_1_n_n none l r (constant S1024x256 .f32 0x00000000#32) (ix2 p q)
      = ∑ k : Fin 128, l (ix2 p k) * r (ix2 k q) := by
  simp only [matmul]
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 p q) ((ValueIdx.contrEquiv1 dot_S1024x128_S128x256_S1024x256_1_0_0_1_n_n 128 rfl rfl).symm k) = ix2 p k := funext fun a => Fin.ext (by
    match a with
    | ⟨0, _⟩ => exact mm_1024_128_256_l0 _ _
    | ⟨1, _⟩ => exact (mm_1024_128_256_l1 _ _).trans hk)
  have er : dot_S1024x128_S128x256_S1024x256_1_0_0_1_n_n.rhsIdx (ix2 p q) ((ValueIdx.contrEquiv1 dot_S1024x128_S128x256_S1024x256_1_0_0_1_n_n 128 rfl rfl).symm k) = ix2 k q := funext fun a => Fin.ext (by
    match a with
    | ⟨0, _⟩ => exact (mm_1024_128_256_r0 _ _).trans hk
    | ⟨1, _⟩ => exact mm_1024_128_256_r1 _ _)
  rw [el, er]

theorem mm_1024_128_128_l0 (i : S1024x128.Idx) (κ : dot_S1024x128_S128x128_S1024x128_1_0_0_1_n_n.contr.Idx) : (dot_S1024x128_S128x128_S1024x128_1_0_0_1_n_n.lhsIdx i κ 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem mm_1024_128_128_l1 (i : S1024x128.Idx) (κ : dot_S1024x128_S128x128_S1024x128_1_0_0_1_n_n.contr.Idx) : (dot_S1024x128_S128x128_S1024x128_1_0_0_1_n_n.lhsIdx i κ 1).val = (κ ⟨0, by decide⟩).val :=
  dot_S1024x128_S128x128_S1024x128_1_0_0_1_n_n.lhsIdx_val_of_single rfl i κ
theorem mm_1024_128_128_r0 (i : S1024x128.Idx) (κ : dot_S1024x128_S128x128_S1024x128_1_0_0_1_n_n.contr.Idx) : (dot_S1024x128_S128x128_S1024x128_1_0_0_1_n_n.rhsIdx i κ 0).val = (κ ⟨0, by decide⟩).val :=
  dot_S1024x128_S128x128_S1024x128_1_0_0_1_n_n.rhsIdx_val_of_single rfl i κ
theorem mm_1024_128_128_r1 (i : S1024x128.Idx) (κ : dot_S1024x128_S128x128_S1024x128_1_0_0_1_n_n.contr.Idx) : (dot_S1024x128_S128x128_S1024x128_1_0_0_1_n_n.rhsIdx i κ 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A `[1024, 128] × [128, 128]` matrix product into a zero accumulator, at an entry: the plain sum over the contracted axis. -/
theorem mm_1024_128_128 {φ₁ φ₂ : FTy} (l : FVec Ideal S1024x128 φ₁) (r : FVec Ideal S128x128 φ₂) (p : Fin 1024) (q : Fin 128) :
    matmul dot_S1024x128_S128x128_S1024x128_1_0_0_1_n_n none l r (constant S1024x128 .f32 0x00000000#32) (ix2 p q)
      = ∑ k : Fin 128, l (ix2 p k) * r (ix2 k q) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact mm_1024_128_128_l0 _ _
    | ⟨1, _⟩ => exact (mm_1024_128_128_l1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (mm_1024_128_128_r0 _ _).trans hk
    | ⟨1, _⟩ => exact mm_1024_128_128_r1 _ _)
  rw [el, er]

end Cert.KMat

end
-- ==== Proof.Gc2Core.lean ====
/-
  The second layer's slot arithmetic, at the ideal instance, read at an entry. Every slot stores
    `c + u (h - c)`,  `c` = the two halves of `tanh (product + aggregate · weight row + bias)` side by side,
  and the slots differ only in where the printed text cuts this into named values. Here: the pieces read at an entry
  (a column broadcast, the slot's product as a plain sum, the sum before the `tanh`) and the common tail, from the sum
  before the `tanh` to the stored value.
-/
import proofs.«180865_g44452911513920_cont_8to1_c_104_44_alg».proof.Proof.Gen.KernelIdeal.Skeleton
import proofs.«180865_g44452911513920_cont_8to1_c_104_44_alg».proof.Proof.KOut
import proofs.«180865_g44452911513920_cont_8to1_c_104_44_alg».proof.Proof.KMat
import Idealize.ShloMosaic.Lib.ValueLayout

noncomputable section

namespace Cert.Gc2

open Cert.KernelIdeal Cert.KernelIdeal.Gen Idealize.ShloMosaic Idealize.ShloMosaic.ValueIdx

variable (vh vu : FVec Ideal S512x256 .f32) (v249 : FVec Ideal S1024x1024 .f32) (v60 : FVec Ideal S1024x8 .f32)
  (W2h : Vec Ideal S128x128 .bf16) (w2x b2 : Vec Ideal S1x128 .f32)

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The second layer before the `tanh`, at an entry -/

/-- The second layer's sum at row `r` (permuted order), unit `o` of slot `t`: the slot's `128` columns of the wide
    product against the hidden-state weights, plus the node-input aggregate times its weight row, plus the bias. -/
def pre (t : Fin 8) (r : Fin 1024) (o : Fin 128) : EReal :=
  ((∑ g : Fin 128, v249 (ix2 r (⟨128 * t.val + g.val, by have := t.isLt; have := g.isLt; omega⟩ : Fin 1024)) * W2h (ix2 g o))
    + v60 (ix2 r t) * w2x (ix2 (0 : Fin 1) o)) + b2 (ix2 (0 : Fin 1) o)

/-- The gated combination read flat: `c + u (h - c)`, with `c` the `tanh` of `Z` at row `p` (lanes below `128`) or
    row `512 + p` (the other lanes). -/
def gate (Z : Fin 1024 → Fin 128 → EReal) (p : Fin 512) (q : Fin 256) : EReal :=
  (if h : q.val < 128 then Ideal.tanh (Z ⟨p.val, by have := p.isLt; omega⟩ ⟨q.val, h⟩)
    else Ideal.tanh (Z ⟨512 + p.val, by have := p.isLt; omega⟩ ⟨q.val - 128, by have := q.isLt; omega⟩))
  + vu (ix2 p q) * (vh (ix2 p q)
    - (if h : q.val < 128 then Ideal.tanh (Z ⟨p.val, by have := p.isLt; omega⟩ ⟨q.val, h⟩)
      else Ideal.tanh (Z ⟨512 + p.val, by have := p.isLt; omega⟩ ⟨q.val - 128, by have := q.isLt; omega⟩)))

/-- A slot's output is the gated combination over the second layer's sum. -/
theorem outg_eq_gate (t : Fin 8) (p : Fin 512) (q : Fin 256) :
    Cert.KOut.outg t vh vu v249 v60 W2h w2x b2 p q = gate vh vu (pre v249 v60 W2h w2x b2 t) p q := rfl

/-- The slot's columns of the wide product, rounded, against the hidden-state weights: the plain sum. -/
theorem mm_slot (t : Fin 8) (off : Nat) (hoff : off = 128 * t.val) (hs : S1024x1024.Slices ![0, off] S1024x128)
    (hb : FTy.bits .bf16 < FTy.bits .f32) (hcW : S128x128.ShapeCasts S128x128) (r : Fin 1024) (o : Fin 128) :
    matmul dot_S1024x128_S128x128_S1024x128_1_0_0_1_n_n none
        (truncf .bf16 (extractStridedSlice S1024x128 ![0, off] v249 hs) hb : FVec Ideal S1024x128 .bf16)
        (shapeCast S128x128 W2h hcW : FVec Ideal S128x128 .bf16) (constant S1024x128 .f32 0x00000000#32) (ix2 r o)
      = ∑ g : Fin 128, v249 (ix2 r (⟨128 * t.val + g.val, by have := t.isLt; have := g.isLt; omega⟩ : Fin 1024))
          * W2h (ix2 g o) := by
  rw [Cert.KMat.mm_1024_128_128]
  refine Finset.sum_congr rfl fun g _ => ?_
  rw [truncf_apply, slice2_axis1_eq, shapeCast_self]
  subst hoff
  rfl

/-- The slot's column of the node-input aggregates. -/
theorem col_slot (t : Fin 8) (offc : Nat) (hoffc : offc = t.val) (hs' : S1024x8.Slices ![0, offc] S1024x1)
    (r : Fin 1024) :
    extractStridedSlice S1024x1 ![0, offc] v60 hs' (ix2 r (0 : Fin 1)) = v60 (ix2 r t) :=
  slice2_axis1_apply offc v60 hs' r 0 t (by rw [hoffc]; rfl)

/-- The sum before the `tanh` from its pieces: a product `M`, a column `col` times a row `wrow`, a row `brow`. -/
theorem pre_apply (M : FVec Ideal S1024x128 .f32) (col : FVec Ideal S1024x1 .f32) (wrow brow : FVec Ideal S1x128 .f32)
    (hbc : S1024x1.Broadcasts S1024x128) (hbr : S1x128.Broadcasts S1024x128) (r : Fin 1024) (o : Fin 128) :
    addf (addf M (mulf (broadcastTo S1024x128 col hbc) (broadcastTo S1024x128 wrow hbr)))
        (broadcastTo S1024x128 brow hbr) (ix2 r o)
      = (M (ix2 r o) + col (ix2 r (0 : Fin 1)) * wrow (ix2 (0 : Fin 1) o)) + brow (ix2 (0 : Fin 1) o) := by
  rw [addf_apply, addf_apply, mulf_apply, broadcastTo_a1_ab_apply, broadcastTo_1b_ab_apply, broadcastTo_1b_ab_apply]

/-! ## From the sum to the stored value -/

/-- The stored value at `(0, p, q)` from the sum `z` before the `tanh`: the two halves of `tanh z` side by side, gated. -/
theorem tail_apply (z : FVec Ideal S1024x128 .f32) (Z : Fin 1024 → Fin 128 → EReal)
    (hz : ∀ r o, z (ix2 r o) = Z r o)
    (h0 : S1024x128.Slices ![0, 0] S512x128) (h512 : S1024x128.Slices ![512, 0] S512x128)
    (hc : Shape.Concatenates [S512x128, S512x128] S512x256 1) (hcast : S512x256.ShapeCasts S1x512x256)
    (p : Fin 512) (q : Fin 256) :
    shapeCast S1x512x256
        (addf (concatenate S512x256 1 [⟨S512x128, extractStridedSlice S512x128 ![0, 0] (tanh z) h0⟩,
            ⟨S512x128, extractStridedSlice S512x128 ![512, 0] (tanh z) h512⟩] hc)
          (mulf vu (subf vh (concatenate S512x256 1 [⟨S512x128, extractStridedSlice S512x128 ![0, 0] (tanh z) h0⟩,
            ⟨S512x128, extractStridedSlice S512x128 ![512, 0] (tanh z) h512⟩] hc))))
        hcast (ix3 (0 : Fin 1) p q)
      = gate vh vu Z p q := by
  have hcc : concatenate S512x256 1 [⟨S512x128, extractStridedSlice S512x128 ![0, 0] (tanh z) h0⟩,
      ⟨S512x128, extractStridedSlice S512x128 ![512, 0] (tanh z) h512⟩] hc (ix2 p q)
        = if h : q.val < 128 then Ideal.tanh (Z ⟨p.val, by have := p.isLt; omega⟩ ⟨q.val, h⟩)
          else Ideal.tanh (Z ⟨512 + p.val, by have := p.isLt; omega⟩ ⟨q.val - 128, by have := q.isLt; omega⟩) := by
    by_cases hq : q.val < 128
    · rw [dif_pos hq]
      refine (concatenate_pair_apply_left (t := S512x256) (s₁ := S512x128) (s₂ := S512x128) 1 _ _ hc (ix2 p q) rfl
        (ix2 p ⟨q.val, hq⟩) (fun d => by match d with | ⟨0, _⟩ => rfl | ⟨1, _⟩ => rfl)).trans ?_
      rw [slice2_axis0_eq]
      show Ideal.tanh (z (ix2 _ _)) = _
      rw [hz]
      refine congrArg (fun k => Ideal.tanh (Z k ⟨q.val, hq⟩)) (Fin.ext ?_)
      show 0 + p.val = p.val
      omega
    · rw [dif_neg hq]
      have hq' : q.val - 128 < 128 := by have := q.isLt; omega
      refine (concatenate_pair_apply_right (t := S512x256) (s₁ := S512x128) (s₂ := S512x128) 1 _ _ hc (ix2 p q) rfl rfl
        (ix2 p ⟨q.val - 128, hq'⟩) (fun d hd => by match d with | ⟨0, _⟩ => rfl | ⟨1, _⟩ => exact absurd rfl hd) ?_).trans ?_
      · show q.val - 128 + 128 = q.val
        omega
      rw [slice2_axis0_eq]
      show Ideal.tanh (z (ix2 _ _)) = _
      rw [hz]
  rw [shapeCast_ab_1ab_apply, addf_apply, mulf_apply, subf_apply, hcc]
  rfl

end Cert.Gc2

end
-- ==== Proof.Gc2Slots.lean ====
/-
  The eight slots' stored payloads of the second layer, at the ideal instance, read at an entry of the stored block:
  each is the slot's output `c + u (h - c)` of the specification of the kernel's arithmetic, whatever the cut of the
  printed text into named values. One proof, over the slot's literal offsets, serves all eight.
-/
import proofs.«180865_g44452911513920_cont_8to1_c_104_44_alg».proof.Proof.Gen.KernelIdeal.Skeleton
import proofs.«180865_g44452911513920_cont_8to1_c_104_44_alg».proof.Proof.KOut
import proofs.«180865_g44452911513920_cont_8to1_c_104_44_alg».proof.Proof.KMat
import proofs.«180865_g44452911513920_cont_8to1_c_104_44_alg».proof.Proof.Gc2Core
import Idealize.ShloMosaic.Lib.ValueLayout

noncomputable section

namespace Cert.Gc2

open Cert.KernelIdeal Cert.KernelIdeal.Gen Idealize.ShloMosaic Idealize.ShloMosaic.ValueIdx

variable (vh vu : FVec Ideal S512x256 .f32) (v249 : FVec Ideal S1024x1024 .f32) (v60 : FVec Ideal S1024x8 .f32)
  (W2h : Vec Ideal S128x128 .bf16) (w2x b2 : Vec Ideal S1x128 .f32)

/-! ## A slot's stored value from the sum before the `tanh` -/

/-- The two halves of `tanh z` (rows `0 … 511` and rows `512 … 1023`) side by side. -/
def halves (z : FVec Ideal S1024x128 .f32) : FVec Ideal S512x256 .f32 :=
  concatenate S512x256 1
    [⟨S512x128, extractStridedSlice S512x128 ![0, 0] (tanh z) slices_S1024x128_o0_0_S512x128⟩,
     ⟨S512x128, extractStridedSlice S512x128 ![512, 0] (tanh z) slices_S1024x128_o512_0_S512x128⟩]
    concatenates_S512x128_S512x128_S512x256_d1

/-- What a slot stores: `c + u (h - c)` with `c = halves z`, as a `[1, 512, 256]` block. -/
def stored (z : FVec Ideal S1024x128 .f32) : FVec Ideal S1x512x256 .f32 :=
  shapeCast S1x512x256 (addf (halves z) (mulf vu (subf vh (halves z)))) shapeCasts_S512x256_S1x512x256

/-- The stored block at `(0, p, q)` is the gated combination over the sum read at its entries. -/
theorem stored_apply (z : FVec Ideal S1024x128 .f32) (Z : Fin 1024 → Fin 128 → EReal)
    (hz : ∀ r o, z (ix2 r o) = Z r o) (p : Fin 512) (q : Fin 256) :
    stored vh vu z (ix3 (0 : Fin 1) p q) = gate vh vu Z p q :=
  tail_apply vh vu z Z hz _ _ _ _ p q

/-- The sum before the `tanh` of the slot that reads columns `off ..` of the wide product and column `offc` of the
    aggregates. -/
def slotSum (off offc : Nat) (hs : S1024x1024.Slices ![0, off] S1024x128) (hs' : S1024x8.Slices ![0, offc] S1024x1) :
    FVec Ideal S1024x128 .f32 :=
  addf (addf
      (matmul dot_S1024x128_S128x128_S1024x128_1_0_0_1_n_n none
        (truncf .bf16 (extractStridedSlice S1024x128 ![0, off] v249 hs) bitsLt_bf16_f32 : FVec Ideal S1024x128 .bf16)
        (shapeCast S128x128 W2h shapeCasts_S128x128_S128x128 : FVec Ideal S128x128 .bf16)
        (constant S1024x128 .f32 0x00000000#32))
      (mulf (broadcastTo S1024x128 (extractStridedSlice S1024x1 ![0, offc] v60 hs') broadcasts_S1024x1_S1024x128)
        (broadcastTo S1024x128 (shapeCast S1x128 w2x shapeCasts_S1x128_S1x128) broadcasts_S1x128_S1024x128)))
    (broadcastTo S1024x128 (shapeCast S1x128 b2 shapeCasts_S1x128_S1x128) broadcasts_S1x128_S1024x128)

/-- That sum at an entry, for slot `t` (`off = 128 t`, `offc = t`). -/
theorem slotSum_apply (t : Fin 8) (off offc : Nat) (hoff : off = 128 * t.val) (hoffc : offc = t.val)
    (hs : S1024x1024.Slices ![0, off] S1024x128) (hs' : S1024x8.Slices ![0, offc] S1024x1)
    (r : Fin 1024) (o : Fin 128) :
    slotSum v249 v60 W2h w2x b2 off offc hs hs' (ix2 r o) = pre v249 v60 W2h w2x b2 t r o := by
  unfold slotSum
  rw [pre_apply, mm_slot v249 W2h t off hoff, col_slot v60 t offc hoffc, shapeCast_self, shapeCast_self]
  rfl

/-- Slot `t`'s stored block is the slot's output. -/
theorem slot_apply (t : Fin 8) (off offc : Nat) (hoff : off = 128 * t.val) (hoffc : offc = t.val)
    (hs : S1024x1024.Slices ![0, off] S1024x128) (hs' : S1024x8.Slices ![0, offc] S1024x1)
    (p : Fin 512) (q : Fin 256) :
    stored vh vu (slotSum v249 v60 W2h w2x b2 off offc hs hs') (ix3 (0 : Fin 1) p q)
      = Cert.KOut.outg t vh vu v249 v60 W2h w2x b2 p q :=
  (stored_apply vh vu _ _ (slotSum_apply v249 v60 W2h w2x b2 t off offc hoff hoffc hs hs') p q).trans
    (outg_eq_gate vh vu v249 v60 W2h w2x b2 t p q).symm

/-! ## The eight slots as the printed text cuts them

Each stored payload unfolds to `stored vh vu (slotSum … off offc …)` with the slot's literal offsets, wherever the printed
text puts the cuts between named values. -/

variable (p : Fin 512) (q : Fin 256)

/-- Slot 1: the arithmetic is one named value, the cast another. -/
theorem s1 : k0_pay83 (k0_pay82 vh v60 vu v249 W2h w2x b2) (ix3 (0 : Fin 1) p q)
    = Cert.KOut.outg 1 vh vu v249 v60 W2h w2x b2 p q :=
  slot_apply vh vu v249 v60 W2h w2x b2 1 128 1 rfl rfl slices_S1024x1024_o0_128_S1024x128 slices_S1024x8_o0_1_S1024x1 p q

/-- Slot 2. -/
theorem s2 : k0_pay84 vh v60 vu v249 W2h w2x b2 (ix3 (0 : Fin 1) p q)
    = Cert.KOut.outg 2 vh vu v249 v60 W2h w2x b2 p q :=
  slot_apply vh vu v249 v60 W2h w2x b2 2 256 2 rfl rfl slices_S1024x1024_o0_256_S1024x128 slices_S1024x8_o0_2_S1024x1 p q

/-- Slot 3: the sum without the bias and the bias row are named values of their own. -/
theorem s3 : k0_pay87 vh vu (k0_pay85 v60 v249 W2h w2x) (k0_pay86 b2) (ix3 (0 : Fin 1) p q)
    = Cert.KOut.outg 3 vh vu v249 v60 W2h w2x b2 p q :=
  slot_apply vh vu v249 v60 W2h w2x b2 3 384 3 rfl rfl slices_S1024x1024_o0_384_S1024x128 slices_S1024x8_o0_3_S1024x1 p q

/-- Slot 4. -/
theorem s4 : k0_pay88 vh v60 vu v249 W2h w2x b2 (ix3 (0 : Fin 1) p q)
    = Cert.KOut.outg 4 vh vu v249 v60 W2h w2x b2 p q :=
  slot_apply vh vu v249 v60 W2h w2x b2 4 512 4 rfl rfl slices_S1024x1024_o0_512_S1024x128 slices_S1024x8_o0_4_S1024x1 p q

/-- Slot 5: the aggregate column, the rounded columns of the wide product and the weights are named values of their own. -/
theorem s5 : k0_pay92 vh vu (k0_pay89 v60) (k0_pay90 v249) (k0_pay91 W2h) w2x b2 (ix3 (0 : Fin 1) p q)
    = Cert.KOut.outg 5 vh vu v249 v60 W2h w2x b2 p q :=
  slot_apply vh vu v249 v60 W2h w2x b2 5 640 5 rfl rfl slices_S1024x1024_o0_640_S1024x128 slices_S1024x8_o0_5_S1024x1 p q

/-- Slot 6: the arithmetic is one named value, the cast another. -/
theorem s6 : k0_pay1 (k0_pay93 vh v60 vu v249 W2h w2x b2) (ix3 (0 : Fin 1) p q)
    = Cert.KOut.outg 6 vh vu v249 v60 W2h w2x b2 p q :=
  slot_apply vh vu v249 v60 W2h w2x b2 6 768 6 rfl rfl slices_S1024x1024_o0_768_S1024x128 slices_S1024x8_o0_6_S1024x1 p q

/-- Slot 7. -/
theorem s7 : k0_pay2 vh v60 vu v249 W2h w2x b2 (ix3 (0 : Fin 1) p q)
    = Cert.KOut.outg 7 vh vu v249 v60 W2h w2x b2 p q :=
  slot_apply vh vu v249 v60 W2h w2x b2 7 896 7 rfl rfl slices_S1024x1024_o0_896_S1024x128 slices_S1024x8_o0_7_S1024x1 p q

/-- Slot 0: the wide product is itself a named value of earlier values (kept folded), and the slot's product and
    aggregate column are named values of their own. -/
theorem s0 (a1 a2 : FVec Ideal S512x256 .f32) (a3 : FVec Ideal S1024x1024 .f32) (a4 : FVec Ideal S1024x8 .f32)
    (a5 a6 a7 a8 a9 a10 a11 a12 a13 a14 a15 a16 : FVec Ideal S512x128 .bf16) (a17 : FVec Ideal S1024x256 .f32)
    (a18 : Vec Ideal S1x256 .f32) (a19 : Vec Ideal S128x256 .bf16) (a20 a21 : Vec Ideal S1x256 .f32)
    (a22 : Vec Ideal S1024x1024 .bf16) :
    k0_pay81 vh vu (k0_pay79 v60) (k0_pay80 a1 a2 a3 a4 a5 a6 a7 a8 a9 a10 a11 a12 a13 a14 a15 a16 a17 a18 a19 a20 a21 a22 W2h) w2x b2 (ix3 (0 : Fin 1) p q)
      = Cert.KOut.outg 0 vh vu (k0_pay78 a1 a2 a3 a4 a5 a6 a7 a8 a9 a10 a11 a12 a13 a14 a15 a16 a17 a18 a19 a20 a21 a22) v60 W2h w2x b2 p q :=
  slot_apply vh vu (k0_pay78 a1 a2 a3 a4 a5 a6 a7 a8 a9 a10 a11 a12 a13 a14 a15 a16 a17 a18 a19 a20 a21 a22) v60 W2h w2x b2 0 0 0 rfl rfl
    slices_S1024x1024_o0_0_S1024x128 slices_S1024x8_o0_0_S1024x1 p q

end Cert.Gc2

end
-- ==== Proof.Gc2Glue.lean ====
/-
  The slot's output computed from the arrays the second layer's arithmetic reads is the step description's output, as
  soon as each array holds, entry by entry, what the description says it holds: the hidden rows, the update gate, the
  slot's columns of the wide product (the aggregation of the reset hidden rows over the nodes), the node-input
  aggregates, and the second layer's weights and bias. Both sides are the same expression: the hypotheses rewrite the
  arrays' entries under the sum and outside it.
-/
import proofs.«180865_g44452911513920_cont_8to1_c_104_44_alg».proof.Proof.KSpec
import proofs.«180865_g44452911513920_cont_8to1_c_104_44_alg».proof.Proof.KOut

noncomputable section

namespace Cert.Gc2

open Idealize.ShloMosaic Idealize.ShloMosaic.ValueIdx Cert.KernelIdeal

variable (K : Cert.KSpec.KIn) (t : Fin 8) (vh vu : FVec Ideal S512x256 .f32) (v249 : FVec Ideal S1024x1024 .f32)
  (v60 : FVec Ideal S1024x8 .f32) (W2h : Vec Ideal S128x128 .bf16) (w2x b2 : Vec Ideal S1x128 .f32)

/-- The candidate state, rows in permuted order: the two spellings agree. -/
theorem cPg_eq_cP
    (hv249 : ∀ (r : Fin 1024) (g : Fin 128),
      v249 (ix2 r ⟨128 * t.val + g.val, by have := t.isLt; have := g.isLt; omega⟩)
        = ∑ j : Fin 1024, K.App r j * Cert.KSpec.stack (Cert.KSpec.rh K t) j g)
    (hv60 : ∀ (r : Fin 1024), v60 (ix2 r t) = K.axcP r t)
    (hW2h : ∀ (g o : Fin 128), W2h (ix2 g o) = K.W2h g o)
    (hw2x : ∀ o : Fin 128, w2x (ix2 (0 : Fin 1) o) = K.w2x o)
    (hb2 : ∀ o : Fin 128, b2 (ix2 (0 : Fin 1) o) = K.b2 o)
    (r : Fin 1024) (o : Fin 128) :
    Cert.KOut.cPg t v249 v60 W2h w2x b2 r o = Cert.KSpec.cP K t r o := by
  unfold Cert.KOut.cPg Cert.KSpec.cP Cert.KSpec.pre2
  rw [hv60, hw2x, hb2]
  refine congrArg (fun s => Ideal.tanh ((s + K.axcP r t * K.w2x o) + K.b2 o)) (Finset.sum_congr rfl fun g _ => ?_)
  rw [hv249, hW2h]

/-- The candidate state read back flat: the two spellings agree. -/
theorem ccg_eq_cc
    (hv249 : ∀ (r : Fin 1024) (g : Fin 128),
      v249 (ix2 r ⟨128 * t.val + g.val, by have := t.isLt; have := g.isLt; omega⟩)
        = ∑ j : Fin 1024, K.App r j * Cert.KSpec.stack (Cert.KSpec.rh K t) j g)
    (hv60 : ∀ (r : Fin 1024), v60 (ix2 r t) = K.axcP r t)
    (hW2h : ∀ (g o : Fin 128), W2h (ix2 g o) = K.W2h g o)
    (hw2x : ∀ o : Fin 128, w2x (ix2 (0 : Fin 1) o) = K.w2x o)
    (hb2 : ∀ o : Fin 128, b2 (ix2 (0 : Fin 1) o) = K.b2 o)
    (p : Fin 512) (q : Fin 256) :
    Cert.KOut.ccg t v249 v60 W2h w2x b2 p q = Cert.KSpec.cc K t p q := by
  unfold Cert.KOut.ccg Cert.KSpec.cc
  by_cases h : q.val < 128
  · rw [dif_pos h, dif_pos h]
    exact cPg_eq_cP K t v249 v60 W2h w2x b2 hv249 hv60 hW2h hw2x hb2 _ _
  · rw [dif_neg h, dif_neg h]
    exact cPg_eq_cP K t v249 v60 W2h w2x b2 hv249 hv60 hW2h hw2x hb2 _ _

/-- The slot's output from the arrays is the step description's output. -/
theorem outg_eq_outK
    (hvh : ∀ (p : Fin 512) (q : Fin 256), vh (ix2 p q) = K.hg t p q)
    (hvu : ∀ (p : Fin 512) (q : Fin 256),
      vu (ix2 p q) = Cert.KSpec.sg K t ⟨512 + p.val, by have := p.isLt; omega⟩ q)
    (hv249 : ∀ (r : Fin 1024) (g : Fin 128),
      v249 (ix2 r ⟨128 * t.val + g.val, by have := t.isLt; have := g.isLt; omega⟩)
        = ∑ j : Fin 1024, K.App r j * Cert.KSpec.stack (Cert.KSpec.rh K t) j g)
    (hv60 : ∀ (r : Fin 1024), v60 (ix2 r t) = K.axcP r t)
    (hW2h : ∀ (g o : Fin 128), W2h (ix2 g o) = K.W2h g o)
    (hw2x : ∀ o : Fin 128, w2x (ix2 (0 : Fin 1) o) = K.w2x o)
    (hb2 : ∀ o : Fin 128, b2 (ix2 (0 : Fin 1) o) = K.b2 o)
    (p : Fin 512) (q : Fin 256) :
    Cert.KOut.outg t vh vu v249 v60 W2h w2x b2 p q = Cert.KSpec.outK K t p q := by
  unfold Cert.KOut.outg Cert.KSpec.outK
  rw [ccg_eq_cc K t v249 v60 W2h w2x b2 hv249 hv60 hW2h hw2x hb2 p q, hvh, hvu]

end Cert.Gc2

end
-- ==== Proof.Gc1Stack.lean ====
/-
  The [1024, 1024] right operand of the step's two wide products, read at an entry.

  Eight [512, 256] arrays `f t` (one per slot) are cut into their lane halves (lanes `0..127` and `128..255`); the
  eight low halves are laid side by side (slot `t` in columns `128 t .. 128 t + 127`) and form rows `0..511`, the eight
  high halves likewise form rows `512..1023`. Entry `(j, 128 t + g)` is therefore `f t (j, g)` for `j < 512` and
  `f t (j - 512, 128 + g)` otherwise: slot `t`'s rows stacked evens-then-odds, `128` lanes wide.
-/
import proofs.«180865_g44452911513920_cont_8to1_c_104_44_alg».proof.Proof.Gen.KernelIdeal.Skeleton
import proofs.«180865_g44452911513920_cont_8to1_c_104_44_alg».proof.Proof.KSpec
import proofs.«180865_g44452911513920_cont_8to1_c_104_44_alg».proof.Proof.KGlue
import Idealize.ShloMosaic.Lib.ValueIdx
import Idealize.ShloMosaic.Lib.ValueLayout
import Idealize.ShloMosaic.Lib.Pipeline.Value

noncomputable section

namespace Cert.Gc1

open Cert.KernelIdeal Cert.KernelIdeal.Gen Idealize.ShloMosaic Idealize.ShloMosaic.ValueIdx Cert.KGlue

variable {α : Type}

/-- Eight [512, 128] blocks side by side: column `128 t + g` lies in block `t`, at its column `g`. -/
theorem cat8_apply (x0 x1 x2 x3 x4 x5 x6 x7 : S512x128.Idx → α) (p : Fin 512) (t : Fin 8) (g : Fin 128) :
    concatenate S512x1024 1 [⟨S512x128, x0⟩, ⟨S512x128, x1⟩, ⟨S512x128, x2⟩, ⟨S512x128, x3⟩, ⟨S512x128, x4⟩, ⟨S512x128, x5⟩, ⟨S512x128, x6⟩, ⟨S512x128, x7⟩]
        concatenates_S512x128_S512x128_S512x128_S512x128_S512x128_S512x128_S512x128_S512x128_S512x1024_d1
        (ix2 p (⟨128 * t.val + g.val, by have := t.isLt; have := g.isLt; omega⟩ : Fin 1024))
      = sel8 x0 x1 x2 x3 x4 x5 x6 x7 t (ix2 p g) := by
  match t with
  | ⟨0, _⟩ =>
    exact concatenate_apply_piece (1 : Fin S512x1024.rank) _ _ _ 0 (by show 0 < 8; omega) S512x128 x0 rfl rfl 0 rfl (ix2 p g)
      (fun b hb => by
        match b with
        | ⟨0, _⟩ => rfl
        | ⟨1, _⟩ => exact absurd rfl hb)
      (by show 0 + g.val = 128 * 0 + g.val; omega)
  | ⟨1, _⟩ =>
    exact concatenate_apply_piece (1 : Fin S512x1024.rank) _ _ _ 1 (by show 1 < 8; omega) S512x128 x1 rfl rfl 128 rfl (ix2 p g)
      (fun b hb => by
        match b with
        | ⟨0, _⟩ => rfl
        | ⟨1, _⟩ => exact absurd rfl hb)
      (by show 128 + g.val = 128 * 1 + g.val; omega)
  | ⟨2, _⟩ =>
    exact concatenate_apply_piece (1 : Fin S512x1024.rank) _ _ _ 2 (by show 2 < 8; omega) S512x128 x2 rfl rfl 256 rfl (ix2 p g)
      (fun b hb => by
        match b with
        | ⟨0, _⟩ => rfl
        | ⟨1, _⟩ => exact absurd rfl hb)
      (by show 256 + g.val = 128 * 2 + g.val; omega)
  | ⟨3, _⟩ =>
    exact concatenate_apply_piece (1 : Fin S512x1024.rank) _ _ _ 3 (by show 3 < 8; omega) S512x128 x3 rfl rfl 384 rfl (ix2 p g)
      (fun b hb => by
        match b with
        | ⟨0, _⟩ => rfl
        | ⟨1, _⟩ => exact absurd rfl hb)
      (by show 384 + g.val = 128 * 3 + g.val; omega)
  | ⟨4, _⟩ =>
    exact concatenate_apply_piece (1 : Fin S512x1024.rank) _ _ _ 4 (by show 4 < 8; omega) S512x128 x4 rfl rfl 512 rfl (ix2 p g)
      (fun b hb => by
        match b with
        | ⟨0, _⟩ => rfl
        | ⟨1, _⟩ => exact absurd rfl hb)
      (by show 512 + g.val = 128 * 4 + g.val; omega)
  | ⟨5, _⟩ =>
    exact concatenate_apply_piece (1 : Fin S512x1024.rank) _ _ _ 5 (by show 5 < 8; omega) S512x128 x5 rfl rfl 640 rfl (ix2 p g)
      (fun b hb => by
        match b with
        | ⟨0, _⟩ => rfl
        | ⟨1, _⟩ => exact absurd rfl hb)
      (by show 640 + g.val = 128 * 5 + g.val; omega)
  | ⟨6, _⟩ =>
    exact concatenate_apply_piece (1 : Fin S512x1024.rank) _ _ _ 6 (by show 6 < 8; omega) S512x128 x6 rfl rfl 768 rfl (ix2 p g)
      (fun b hb => by
        match b with
        | ⟨0, _⟩ => rfl
        | ⟨1, _⟩ => exact absurd rfl hb)
      (by show 768 + g.val = 128 * 6 + g.val; omega)
  | ⟨7, _⟩ =>
    exact concatenate_apply_piece (1 : Fin S512x1024.rank) _ _ _ 7 (by show 7 < 8; omega) S512x128 x7 rfl rfl 896 rfl (ix2 p g)
      (fun b hb => by
        match b with
        | ⟨0, _⟩ => rfl
        | ⟨1, _⟩ => exact absurd rfl hb)
      (by show 896 + g.val = 128 * 7 + g.val; omega)
  | ⟨n + 8, h⟩ => exact absurd h (by omega)

/-- The same lane window cut out of each of eight arrays, then slot `t` chosen: slot `t`'s array at the window's lane. -/
theorem sel8_slice (o : Nat) (h : S512x256.Slices ![0, o] S512x128) (f0 f1 f2 f3 f4 f5 f6 f7 : S512x256.Idx → α) (t : Fin 8)
    (p : Fin 512) (g : Fin 128) (k : Fin 256) (hk : k.val = o + g.val) :
    sel8 (extractStridedSlice S512x128 ![0, o] f0 h) (extractStridedSlice S512x128 ![0, o] f1 h) (extractStridedSlice S512x128 ![0, o] f2 h) (extractStridedSlice S512x128 ![0, o] f3 h) (extractStridedSlice S512x128 ![0, o] f4 h) (extractStridedSlice S512x128 ![0, o] f5 h) (extractStridedSlice S512x128 ![0, o] f6 h) (extractStridedSlice S512x128 ![0, o] f7 h) t (ix2 p g)
      = sel8 f0 f1 f2 f3 f4 f5 f6 f7 t (ix2 p k) := by
  match t with
  | ⟨0, _⟩ => exact slice2_axis1_apply o f0 h p g k hk
  | ⟨1, _⟩ => exact slice2_axis1_apply o f1 h p g k hk
  | ⟨2, _⟩ => exact slice2_axis1_apply o f2 h p g k hk
  | ⟨3, _⟩ => exact slice2_axis1_apply o f3 h p g k hk
  | ⟨4, _⟩ => exact slice2_axis1_apply o f4 h p g k hk
  | ⟨5, _⟩ => exact slice2_axis1_apply o f5 h p g k hk
  | ⟨6, _⟩ => exact slice2_axis1_apply o f6 h p g k hk
  | ⟨7, _⟩ => exact slice2_axis1_apply o f7 h p g k hk
  | ⟨n + 8, h'⟩ => exact absurd h' (by omega)

/-- The stacked operand of eight [512, 256] arrays. -/
def stack8 (f0 f1 f2 f3 f4 f5 f6 f7 : S512x256.Idx → α) : S1024x1024.Idx → α :=
  concatenate S1024x1024 0
    [⟨S512x1024, concatenate S512x1024 1
        [⟨S512x128, extractStridedSlice S512x128 ![0, 0] f0 slices_S512x256_o0_0_S512x128⟩, ⟨S512x128, extractStridedSlice S512x128 ![0, 0] f1 slices_S512x256_o0_0_S512x128⟩, ⟨S512x128, extractStridedSlice S512x128 ![0, 0] f2 slices_S512x256_o0_0_S512x128⟩, ⟨S512x128, extractStridedSlice S512x128 ![0, 0] f3 slices_S512x256_o0_0_S512x128⟩, ⟨S512x128, extractStridedSlice S512x128 ![0, 0] f4 slices_S512x256_o0_0_S512x128⟩, ⟨S512x128, extractStridedSlice S512x128 ![0, 0] f5 slices_S512x256_o0_0_S512x128⟩, ⟨S512x128, extractStridedSlice S512x128 ![0, 0] f6 slices_S512x256_o0_0_S512x128⟩, ⟨S512x128, extractStridedSlice S512x128 ![0, 0] f7 slices_S512x256_o0_0_S512x128⟩]
        concatenates_S512x128_S512x128_S512x128_S512x128_S512x128_S512x128_S512x128_S512x128_S512x1024_d1⟩,
     ⟨S512x1024, concatenate S512x1024 1
        [⟨S512x128, extractStridedSlice S512x128 ![0, 128] f0 slices_S512x256_o0_128_S512x128⟩, ⟨S512x128, extractStridedSlice S512x128 ![0, 128] f1 slices_S512x256_o0_128_S512x128⟩, ⟨S512x128, extractStridedSlice S512x128 ![0, 128] f2 slices_S512x256_o0_128_S512x128⟩, ⟨S512x128, extractStridedSlice S512x128 ![0, 128] f3 slices_S512x256_o0_128_S512x128⟩, ⟨S512x128, extractStridedSlice S512x128 ![0, 128] f4 slices_S512x256_o0_128_S512x128⟩, ⟨S512x128, extractStridedSlice S512x128 ![0, 128] f5 slices_S512x256_o0_128_S512x128⟩, ⟨S512x128, extractStridedSlice S512x128 ![0, 128] f6 slices_S512x256_o0_128_S512x128⟩, ⟨S512x128, extractStridedSlice S512x128 ![0, 128] f7 slices_S512x256_o0_128_S512x128⟩]
        concatenates_S512x128_S512x128_S512x128_S512x128_S512x128_S512x128_S512x128_S512x128_S512x1024_d1⟩]
    concatenates_S512x1024_S512x1024_S1024x1024_d0

/-- The stacked operand at entry `(j, 128 t + g)`. -/
theorem stack8_apply (f0 f1 f2 f3 f4 f5 f6 f7 : S512x256.Idx → α) (j : Fin 1024) (t : Fin 8) (g : Fin 128) :
    stack8 f0 f1 f2 f3 f4 f5 f6 f7 (ix2 j (⟨128 * t.val + g.val, by have := t.isLt; have := g.isLt; omega⟩ : Fin 1024))
      = if h : j.val < 512 then
          sel8 f0 f1 f2 f3 f4 f5 f6 f7 t (ix2 (⟨j.val, h⟩ : Fin 512) (⟨g.val, by have := g.isLt; omega⟩ : Fin 256))
        else
          sel8 f0 f1 f2 f3 f4 f5 f6 f7 t (ix2 (⟨j.val - 512, by have := j.isLt; omega⟩ : Fin 512)
            (⟨128 + g.val, by have := g.isLt; omega⟩ : Fin 256)) := by
  unfold stack8
  by_cases h : j.val < 512
  · rw [dif_pos h]
    refine (concatenate_pair_apply_left (s₁ := S512x1024) (s₂ := S512x1024) (0 : Fin S1024x1024.rank) _ _ _ _ rfl
      (ix2 (⟨j.val, h⟩ : Fin 512) (⟨128 * t.val + g.val, by have := t.isLt; have := g.isLt; omega⟩ : Fin 1024))
      (fun b => by
        match b with
        | ⟨0, _⟩ => rfl
        | ⟨1, _⟩ => rfl)).trans ?_
    rw [cat8_apply]
    exact sel8_slice 0 _ f0 f1 f2 f3 f4 f5 f6 f7 t _ g _ (by show g.val = 0 + g.val; omega)
  · rw [dif_neg h]
    refine (concatenate_pair_apply_right (s₁ := S512x1024) (s₂ := S512x1024) (0 : Fin S1024x1024.rank) _ _ _ _ rfl rfl
      (ix2 (⟨j.val - 512, by have := j.isLt; omega⟩ : Fin 512)
        (⟨128 * t.val + g.val, by have := t.isLt; have := g.isLt; omega⟩ : Fin 1024))
      (fun b hb => by
        match b with
        | ⟨0, _⟩ => exact absurd rfl hb
        | ⟨1, _⟩ => rfl)
      (by show (j.val - 512) + 512 = j.val; omega)).trans ?_
    rw [cat8_apply]
    exact sel8_slice 128 _ f0 f1 f2 f3 f4 f5 f6 f7 t _ g _ rfl

end Cert.Gc1

end
-- ==== Proof.Gc1Ah.lean ====
/-
  The first wide product of a grid step, read at an entry: the column-permuted adjacency times the step's eight
  hidden rows stacked evens-then-odds. Entry `(n, 128 t + g)` is `∑ j, AcP (n, j) * stack (hg t) j g`, where `hg t` is
  slot `t`'s hidden row in its flat [512, 256] view (a change of float format and a cast that drops the leading unit
  axis are the identity on the values).
-/
import proofs.«180865_g44452911513920_cont_8to1_c_104_44_alg».proof.Proof.Gc1Stack
import proofs.«180865_g44452911513920_cont_8to1_c_104_44_alg».proof.Proof.KMat

noncomputable section

namespace Cert.Gc1

open Cert.KernelIdeal Cert.KernelIdeal.Gen Idealize.ShloMosaic Idealize.ShloMosaic.ValueIdx Cert.KGlue

/-- A hidden row as loaded, in its flat view, narrowed: the loaded value. -/
theorem hb_apply (l : Vec Ideal S1x512x256 .f32) (p : Fin 512) (q : Fin 256) :
    k0_pay23 (F := Ideal) l (ix2 p q) = l (ix3 (0 : Fin 1) p q) := by
  show shapeCast S512x256 l shapeCasts_S1x512x256_S512x256 (ix2 p q) = _
  exact shapeCast_1ab_ab_apply l _ p q

/-- A hidden row as loaded, in its flat view: the loaded value. -/
theorem h_apply (l : Vec Ideal S1x512x256 .f32) (p : Fin 512) (q : Fin 256) :
    k0_pay15 (F := Ideal) l (ix2 p q) = l (ix3 (0 : Fin 1) p q) := by
  show shapeCast S512x256 l shapeCasts_S1x512x256_S512x256 (ix2 p q) = _
  exact shapeCast_1ab_ab_apply l _ p q

/-- Slot `t` of the eight narrowed rows. -/
theorem sel8_hb (l0 l1 l2 l3 l4 l5 l6 l7 : Vec Ideal S1x512x256 .f32) (t : Fin 8) (p : Fin 512) (q : Fin 256) :
    sel8 (k0_pay23 (F := Ideal) l0) (k0_pay24 (F := Ideal) l1) (k0_pay25 (F := Ideal) l2) (k0_pay26 (F := Ideal) l3)
        (k0_pay27 (F := Ideal) l4) (k0_pay28 (F := Ideal) l5) (k0_pay29 (F := Ideal) l6) (k0_pay30 (F := Ideal) l7) t (ix2 p q)
      = sel8 l0 l1 l2 l3 l4 l5 l6 l7 t (ix3 (0 : Fin 1) p q) := by
  match t with
  | ⟨0, _⟩ => exact hb_apply l0 p q
  | ⟨1, _⟩ => exact hb_apply l1 p q
  | ⟨2, _⟩ => exact hb_apply l2 p q
  | ⟨3, _⟩ => exact hb_apply l3 p q
  | ⟨4, _⟩ => exact hb_apply l4 p q
  | ⟨5, _⟩ => exact hb_apply l5 p q
  | ⟨6, _⟩ => exact hb_apply l6 p q
  | ⟨7, _⟩ => exact hb_apply l7 p q
  | ⟨n + 8, h⟩ => exact absurd h (by omega)

variable (l0 l1 l2 l3 l4 l5 l6 l7 : Vec Ideal S1x512x256 .f32) (AcP App : Vec Ideal S1024x1024 .bf16)
  (axf : Vec Ideal S1024x64 .f32) (axcPw : FVec Ideal S1024x8 .f32)
  (w1x : Vec Ideal S1x256 .f32) (W1h : Vec Ideal S128x256 .bf16) (b1 : Vec Ideal S1x256 .f32)
  (w2x : Vec Ideal S1x128 .f32) (W2h : Vec Ideal S128x128 .bf16) (b2 : Vec Ideal S1x128 .f32) (pid : BitVec 32)

local notation "P36" => (k0_pay36 (F := Ideal) (k0_pay23 l0) (k0_pay24 l1) (k0_pay25 l2) (k0_pay26 l3) (k0_pay27 l4) (k0_pay28 l5)
  (k0_pay29 l6) (k0_pay30 l7) (k0_pay31 l0) (k0_pay32 l1) (k0_pay33 l2) (k0_pay34 l3) (k0_pay35 l4) AcP)
local notation "P38" => (k0_pay38 (F := Ideal) pid axf)
local notation "P40" => (k0_pay40 (F := Ideal) pid (k0_pay23 l0) (k0_pay24 l1) (k0_pay25 l2) (k0_pay26 l3) (k0_pay27 l4) (k0_pay28 l5)
  (k0_pay29 l6) (k0_pay30 l7) (k0_pay31 l0) (k0_pay32 l1) (k0_pay33 l2) (k0_pay34 l3) (k0_pay35 l4) AcP axf W1h w1x)
local notation "KK" => (Cert.KGlue.kin l0 l1 l2 l3 l4 l5 l6 l7 AcP App P38 axcPw w1x W1h b1 w2x W2h b2)

/-- The first wide product at entry `(n, 128 t + g)`, over the loaded rows. -/
theorem ah_raw (n : Fin 1024) (t : Fin 8) (g : Fin 128) :
    P36 (ix2 n (⟨128 * t.val + g.val, by have := t.isLt; have := g.isLt; omega⟩ : Fin 1024))
      = ∑ j : Fin 1024, (AcP (ix2 n j) : EReal)
          * Cert.KSpec.stack (fun p q => sel8 l0 l1 l2 l3 l4 l5 l6 l7 t (ix3 (0 : Fin 1) p q)) j g := by
  have e : P36 = matmul dot_S1024x1024_S1024x1024_S1024x1024_1_0_0_1_n_n none AcP
      (stack8 (k0_pay23 (F := Ideal) l0) (k0_pay24 (F := Ideal) l1) (k0_pay25 (F := Ideal) l2) (k0_pay26 (F := Ideal) l3)
        (k0_pay27 (F := Ideal) l4) (k0_pay28 (F := Ideal) l5) (k0_pay29 (F := Ideal) l6) (k0_pay30 (F := Ideal) l7))
      (constant (F := Ideal) S1024x1024 .f32 0x00000000#32) := rfl
  rw [e, Cert.KMat.mm_1024_1024_1024]
  refine Finset.sum_congr rfl fun j _ => ?_
  refine congrArg ((AcP (ix2 n j) : EReal) * ·) ?_
  rw [stack8_apply]
  unfold Cert.KSpec.stack
  by_cases h : j.val < 512
  · rw [dif_pos h, dif_pos h]
    exact sel8_hb l0 l1 l2 l3 l4 l5 l6 l7 t _ _
  · rw [dif_neg h, dif_neg h]
    exact sel8_hb l0 l1 l2 l3 l4 l5 l6 l7 t _ _

/-- The first wide product at entry `(n, 128 t + g)`, against the step's description. -/
theorem ah_apply (n : Fin 1024) (t : Fin 8) (g : Fin 128) :
    P36 (ix2 n (⟨128 * t.val + g.val, by have := t.isLt; have := g.isLt; omega⟩ : Fin 1024))
      = ∑ j : Fin 1024, (AcP (ix2 n j) : EReal) * Cert.KSpec.stack ((KK).hg t) j g :=
  ah_raw l0 l1 l2 l3 l4 l5 l6 l7 AcP n t g

end Cert.Gc1

end
-- ==== Proof.Gc1Gate.lean ====
/-
  The pointwise pieces of a slot's gate computation, read at an entry over the extended reals:
    * the pre-activation without bias: a 128-lane window (from column `o1`) of a [1024, 1024] array times the hidden
      weights, plus the slot's column (`oc`) of a [1024, 8] array times the node-input weight row;
    * the gate: the logistic of that plus the bias row;
    * the reset rows: the gate's first 512 rows times the hidden row, lane by lane.
  A change of float format, an identity cast, a row broadcast and a column broadcast are all the identity on the
  values they carry.
-/
import proofs.«180865_g44452911513920_cont_8to1_c_104_44_alg».proof.Proof.Gen.KernelIdeal.Skeleton
import proofs.«180865_g44452911513920_cont_8to1_c_104_44_alg».proof.Proof.KMat
import proofs.«180865_g44452911513920_cont_8to1_c_104_44_alg».proof.Proof.KGlue
import Idealize.ShloMosaic.Lib.ValueIdx
import Idealize.ShloMosaic.Lib.ValueLayout
import Idealize.ShloMosaic.Lib.Pipeline.Value

noncomputable section

namespace Cert.Gc1

open Cert.KernelIdeal Cert.KernelIdeal.Gen Idealize.ShloMosaic Idealize.ShloMosaic.ValueIdx Cert.KGlue

/-- A [1024, 1] column broadcast over 256 lanes reads the column. -/
theorem bcast_col_apply {α : Type} (v : S1024x1.Idx → α) (n : Fin 1024) (o : Fin 256) :
    broadcastTo S1024x256 v broadcasts_S1024x1_S1024x256 (ix2 n o) = v (ix2 n (0 : Fin 1)) := by
  refine broadcastTo_apply v _ (ix2 n o) (ix2 n (0 : Fin 1)) fun ax => ?_
  match ax with
  | ⟨0, _⟩ => rfl
  | ⟨1, _⟩ => rfl

/-- The pre-activation without bias, for the lane window at column `o1` and the slot column `oc`. -/
def preG (o1 oc : Nat) (h1 : S1024x1024.Slices ![0, o1] S1024x128) (hc : S1024x8.Slices ![0, oc] S1024x1)
    (v47 : FVec Ideal S1024x1024 .f32) (v58 : FVec Ideal S1024x8 .f32) (W : Vec Ideal S128x256 .bf16)
    (wx : Vec Ideal S1x256 .f32) : FVec Ideal S1024x256 .f32 :=
  addf
    (matmul dot_S1024x128_S128x256_S1024x256_1_0_0_1_n_n none
      (truncf .bf16 (extractStridedSlice S1024x128 ![0, o1] v47 h1) bitsLt_bf16_f32)
      (shapeCast S128x256 W shapeCasts_S128x256_S128x256 : FVec Ideal S128x256 .bf16)
      (constant (F := Ideal) S1024x256 .f32 0x00000000#32))
    (mulf (broadcastTo S1024x256 (extractStridedSlice S1024x1 ![0, oc] v58 hc) broadcasts_S1024x1_S1024x256)
      (broadcastTo S1024x256 (shapeCast S1x256 wx shapeCasts_S1x256_S1x256) broadcasts_S1x256_S1024x256))

theorem preG_apply (o1 oc : Nat) (h1 : S1024x1024.Slices ![0, o1] S1024x128) (hc : S1024x8.Slices ![0, oc] S1024x1)
    (v47 : FVec Ideal S1024x1024 .f32) (v58 : FVec Ideal S1024x8 .f32) (W : Vec Ideal S128x256 .bf16)
    (wx : Vec Ideal S1x256 .f32) (n : Fin 1024) (o : Fin 256) (c : Fin 8) (hcv : c.val = oc)
    (hb : ∀ g : Fin 128, o1 + g.val < 1024) :
    preG o1 oc h1 hc v47 v58 W wx (ix2 n o)
      = (∑ g : Fin 128, (v47 (ix2 n (⟨o1 + g.val, hb g⟩ : Fin 1024)) : EReal) * (W (ix2 g o) : EReal))
        + (v58 (ix2 n c) : EReal) * (wx (ix2 (0 : Fin 1) o) : EReal) := by
  unfold preG
  rw [addf_apply, mulf_apply, Cert.KMat.mm_1024_128_256, broadcastTo_1b_ab_apply, bcast_col_apply, shapeCast_self,
    shapeCast_self, slice2_axis1_apply oc v58 hc n (0 : Fin 1) c (by show c.val = oc + 0; omega)]
  refine congrArg (· + _) (Finset.sum_congr rfl fun g _ => ?_)
  rw [truncf_apply, slice2_axis1_eq]

/-- The gate: the logistic of a pre-activation plus the bias row. -/
def gateG (x : FVec Ideal S1024x256 .f32) (b : Vec Ideal S1x256 .f32) : FVec Ideal S1024x256 .f32 :=
  logistic (addf x (broadcastTo S1024x256 (shapeCast S1x256 b shapeCasts_S1x256_S1x256) broadcasts_S1x256_S1024x256))

theorem gateG_apply (x : FVec Ideal S1024x256 .f32) (b : Vec Ideal S1x256 .f32) (n : Fin 1024) (o : Fin 256) :
    gateG x b (ix2 n o) = Ideal.logistic ((x (ix2 n o) : EReal) + (b (ix2 (0 : Fin 1) o) : EReal)) := by
  unfold gateG
  show Ideal.logistic (addf x _ (ix2 n o)) = _
  rw [addf_apply, broadcastTo_1b_ab_apply, shapeCast_self]

/-- The reset rows: a gate's first 512 rows times a hidden row, narrowed. -/
def rhG (G : FVec Ideal S1024x256 .f32) (H : FVec Ideal S512x256 .f32) : FVec Ideal S512x256 .bf16 :=
  truncf .bf16 (mulf (extractStridedSlice S512x256 ![0, 0] G slices_S1024x256_o0_0_S512x256) H) bitsLt_bf16_f32

theorem rhG_apply (G : FVec Ideal S1024x256 .f32) (H : FVec Ideal S512x256 .f32) (p : Fin 512) (q : Fin 256) :
    rhG G H (ix2 p q) = (G (ix2 (⟨p.val, by have := p.isLt; omega⟩ : Fin 1024) q) : EReal) * (H (ix2 p q) : EReal) := by
  unfold rhG
  rw [truncf_apply, mulf_apply,
    slice2_axis0_apply 0 G slices_S1024x256_o0_0_S512x256 p q (⟨p.val, by have := p.isLt; omega⟩ : Fin 1024)
      (by show p.val = 0 + p.val; omega)]

/-- A gate's last 512 rows. -/
theorem upd_apply (G : FVec Ideal S1024x256 .f32) (p : Fin 512) (q : Fin 256) :
    extractStridedSlice S512x256 ![512, 0] G slices_S1024x256_o512_0_S512x256 (ix2 p q)
      = G (ix2 (⟨512 + p.val, by have := p.isLt; omega⟩ : Fin 1024) q) :=
  slice2_axis0_eq 512 G slices_S1024x256_o512_0_S512x256 p q

/-- The low lane half of a [512, 256] array. -/
theorem lo_apply {α : Type} (X : S512x256.Idx → α) (j : Fin 512) (g : Fin 128) :
    extractStridedSlice S512x128 ![0, 0] X slices_S512x256_o0_0_S512x128 (ix2 j g)
      = X (ix2 j (⟨g.val, by have := g.isLt; omega⟩ : Fin 256)) :=
  slice2_axis1_apply 0 X slices_S512x256_o0_0_S512x128 j g _ (by show g.val = 0 + g.val; omega)

/-- The high lane half of a [512, 256] array. -/
theorem hi_apply {α : Type} (X : S512x256.Idx → α) (j : Fin 512) (g : Fin 128) :
    extractStridedSlice S512x128 ![0, 128] X slices_S512x256_o0_128_S512x128 (ix2 j g)
      = X (ix2 j (⟨128 + g.val, by have := g.isLt; omega⟩ : Fin 256)) :=
  slice2_axis1_eq 128 X slices_S512x256_o0_128_S512x128 j g

end Cert.Gc1

end
-- ==== Proof.Gc1Sg.lean ====
/-
  The first layer of a grid step, slot by slot, against the step's index-level description: for each of the eight slots
  the gates `sg t n o = logistic ((∑ g, (∑ j, AcP n j * hP j t g) * W1h g o + axc n t * w1x o) + b1 o)`, their last 512 rows
  (the update gate), and the reset hidden rows `rh t p q = sg t p q * hg t p q` with their two lane halves. Every slot is
  the same computation on its own 128-lane window of the first wide product and its own column of the node-input
  aggregates; the window of slot `t` starts at column `128 t`.
-/
import proofs.«180865_g44452911513920_cont_8to1_c_104_44_alg».proof.Proof.Gc1Ah
import proofs.«180865_g44452911513920_cont_8to1_c_104_44_alg».proof.Proof.Gc1Gate

noncomputable section

namespace Cert.Gc1

open Cert.KernelIdeal Cert.KernelIdeal.Gen Idealize.ShloMosaic Idealize.ShloMosaic.ValueIdx Cert.KGlue

variable (l0 l1 l2 l3 l4 l5 l6 l7 : Vec Ideal S1x512x256 .f32) (AcP App : Vec Ideal S1024x1024 .bf16)
  (axf : Vec Ideal S1024x64 .f32) (axcPw : FVec Ideal S1024x8 .f32)
  (w1x : Vec Ideal S1x256 .f32) (W1h : Vec Ideal S128x256 .bf16) (b1 : Vec Ideal S1x256 .f32)
  (w2x : Vec Ideal S1x128 .f32) (W2h : Vec Ideal S128x128 .bf16) (b2 : Vec Ideal S1x128 .f32) (pid : BitVec 32)

local notation "P36" => (k0_pay36 (F := Ideal) (k0_pay23 l0) (k0_pay24 l1) (k0_pay25 l2) (k0_pay26 l3) (k0_pay27 l4) (k0_pay28 l5)
  (k0_pay29 l6) (k0_pay30 l7) (k0_pay31 l0) (k0_pay32 l1) (k0_pay33 l2) (k0_pay34 l3) (k0_pay35 l4) AcP)
local notation "P38" => (k0_pay38 (F := Ideal) pid axf)
local notation "P40" => (k0_pay40 (F := Ideal) pid (k0_pay23 l0) (k0_pay24 l1) (k0_pay25 l2) (k0_pay26 l3) (k0_pay27 l4) (k0_pay28 l5)
  (k0_pay29 l6) (k0_pay30 l7) (k0_pay31 l0) (k0_pay32 l1) (k0_pay33 l2) (k0_pay34 l3) (k0_pay35 l4) AcP axf W1h w1x)
local notation "KK" => (Cert.KGlue.kin l0 l1 l2 l3 l4 l5 l6 l7 AcP App P38 axcPw w1x W1h b1 w2x W2h b2)

/-- The gate of slot `t`, computed from the window at column `o1 = 128 t` and the column `oc = t`. -/
theorem gate_sg (t : Fin 8) (o1 oc : Nat) (ho1 : o1 = 128 * t.val) (hoc : oc = t.val)
    (h1 : S1024x1024.Slices ![0, o1] S1024x128) (hc : S1024x8.Slices ![0, oc] S1024x1) (n : Fin 1024) (o : Fin 256) :
    gateG (preG o1 oc h1 hc P36 P38 W1h w1x) b1 (ix2 n o) = Cert.KSpec.sg KK t n o := by
  subst ho1 hoc
  show _ = Ideal.logistic (((∑ g : Fin 128, (∑ j : Fin 1024, (AcP (ix2 n j) : EReal) * Cert.KSpec.stack ((KK).hg t) j g)
      * (W1h (ix2 g o) : EReal)) + (P38 (ix2 n t) : EReal) * (w1x (ix2 (0 : Fin 1) o) : EReal))
      + (b1 (ix2 (0 : Fin 1) o) : EReal))
  rw [gateG_apply, preG_apply _ _ h1 hc _ _ _ _ n o t rfl (fun g => by have := t.isLt; have := g.isLt; omega)]
  refine congrArg Ideal.logistic (congrArg (· + _) (congrArg (· + _) (Finset.sum_congr rfl fun g _ => ?_)))
  rw [ah_raw]
  rfl

/-! ### Slot 0 -/

/-- Slot 0's gates. -/
theorem sg0_apply (n : Fin 1024) (o : Fin 256) :
    k0_pay41 (F := Ideal) P40 b1 (ix2 n o) = Cert.KSpec.sg KK (0 : Fin 8) n o :=
  gate_sg l0 l1 l2 l3 l4 l5 l6 l7 AcP App axf axcPw w1x W1h b1 w2x W2h b2 pid (0 : Fin 8) 0 0 rfl rfl slices_S1024x1024_o0_0_S1024x128 slices_S1024x8_o0_0_S1024x1 n o

/-- Slot 0's update gate: the gates' last 512 rows. -/
theorem u0_apply (p : Fin 512) (q : Fin 256) :
    k0_pay43 (F := Ideal) P40 b1 (ix2 p q)
      = Cert.KSpec.sg KK (0 : Fin 8) (⟨512 + p.val, by have := p.isLt; omega⟩ : Fin 1024) q :=
  (upd_apply _ p q).trans (sg0_apply l0 l1 l2 l3 l4 l5 l6 l7 AcP App axf axcPw w1x W1h b1 w2x W2h b2 pid _ q)

/-- Slot 0's reset hidden rows, flat view. -/
theorem rh0_apply (p : Fin 512) (q : Fin 256) :
    k0_pay42 (F := Ideal) (k0_pay15 l0) P40 b1 (ix2 p q) = Cert.KSpec.rh KK (0 : Fin 8) p q := by
  refine (rhG_apply (k0_pay41 (F := Ideal) P40 b1) (k0_pay15 (F := Ideal) l0) p q).trans ?_
  rw [sg0_apply l0 l1 l2 l3 l4 l5 l6 l7 AcP App axf axcPw w1x W1h b1 w2x W2h b2 pid,
    show k0_pay15 (F := Ideal) l0 (ix2 p q) = l0 (ix3 (0 : Fin 1) p q) from h_apply l0 p q]
  rfl

/-- Slot 0's reset rows, low lane half. -/
theorem lo0_apply (j : Fin 512) (g : Fin 128) :
    k0_pay44 (F := Ideal) (k0_pay15 l0) P40 b1 (ix2 j g)
      = Cert.KSpec.rh KK (0 : Fin 8) j (⟨g.val, by have := g.isLt; omega⟩ : Fin 256) :=
  (lo_apply _ j g).trans (rh0_apply l0 l1 l2 l3 l4 l5 l6 l7 AcP App axf axcPw w1x W1h b1 w2x W2h b2 pid j _)

/-- Slot 0's reset rows, high lane half. -/
theorem hi0_apply (j : Fin 512) (g : Fin 128) :
    k0_pay45 (F := Ideal) (k0_pay15 l0) P40 b1 (ix2 j g)
      = Cert.KSpec.rh KK (0 : Fin 8) j (⟨128 + g.val, by have := g.isLt; omega⟩ : Fin 256) :=
  (hi_apply _ j g).trans (rh0_apply l0 l1 l2 l3 l4 l5 l6 l7 AcP App axf axcPw w1x W1h b1 w2x W2h b2 pid j _)

/-! ### Slot 1 -/

/-- Slot 1's gates. -/
theorem sg1_apply (n : Fin 1024) (o : Fin 256) :
    k0_pay46 (F := Ideal) P36 P38 W1h w1x b1 (ix2 n o) = Cert.KSpec.sg KK (1 : Fin 8) n o :=
  gate_sg l0 l1 l2 l3 l4 l5 l6 l7 AcP App axf axcPw w1x W1h b1 w2x W2h b2 pid (1 : Fin 8) 128 1 rfl rfl slices_S1024x1024_o0_128_S1024x128 slices_S1024x8_o0_1_S1024x1 n o

/-- Slot 1's update gate: the gates' last 512 rows. -/
theorem u1_apply (p : Fin 512) (q : Fin 256) :
    k0_pay48 (F := Ideal) P36 P38 W1h w1x b1 (ix2 p q)
      = Cert.KSpec.sg KK (1 : Fin 8) (⟨512 + p.val, by have := p.isLt; omega⟩ : Fin 1024) q :=
  (upd_apply _ p q).trans (sg1_apply l0 l1 l2 l3 l4 l5 l6 l7 AcP App axf axcPw w1x W1h b1 w2x W2h b2 pid _ q)

/-- Slot 1's reset hidden rows, flat view. -/
theorem rh1_apply (p : Fin 512) (q : Fin 256) :
    k0_pay47 (F := Ideal) (k0_pay16 l1) P36 P38 W1h w1x b1 (ix2 p q) = Cert.KSpec.rh KK (1 : Fin 8) p q := by
  refine (rhG_apply (k0_pay46 (F := Ideal) P36 P38 W1h w1x b1) (k0_pay16 (F := Ideal) l1) p q).trans ?_
  rw [sg1_apply l0 l1 l2 l3 l4 l5 l6 l7 AcP App axf axcPw w1x W1h b1 w2x W2h b2 pid,
    show k0_pay16 (F := Ideal) l1 (ix2 p q) = l1 (ix3 (0 : Fin 1) p q) from h_apply l1 p q]
  rfl

/-- Slot 1's reset rows, low lane half. -/
theorem lo1_apply (j : Fin 512) (g : Fin 128) :
    k0_pay49 (F := Ideal) (k0_pay16 l1) P36 P38 W1h w1x b1 (ix2 j g)
      = Cert.KSpec.rh KK (1 : Fin 8) j (⟨g.val, by have := g.isLt; omega⟩ : Fin 256) :=
  (lo_apply _ j g).trans (rh1_apply l0 l1 l2 l3 l4 l5 l6 l7 AcP App axf axcPw w1x W1h b1 w2x W2h b2 pid j _)

/-- Slot 1's reset rows, high lane half. -/
theorem hi1_apply (j : Fin 512) (g : Fin 128) :
    k0_pay50 (F := Ideal) (k0_pay16 l1) P36 P38 W1h w1x b1 (ix2 j g)
      = Cert.KSpec.rh KK (1 : Fin 8) j (⟨128 + g.val, by have := g.isLt; omega⟩ : Fin 256) :=
  (hi_apply _ j g).trans (rh1_apply l0 l1 l2 l3 l4 l5 l6 l7 AcP App axf axcPw w1x W1h b1 w2x W2h b2 pid j _)

/-! ### Slot 2 -/

/-- Slot 2's gates. -/
theorem sg2_apply (n : Fin 1024) (o : Fin 256) :
    k0_pay52 (F := Ideal) (k0_pay51 P36 P38 W1h w1x) b1 (ix2 n o) = Cert.KSpec.sg KK (2 : Fin 8) n o :=
  gate_sg l0 l1 l2 l3 l4 l5 l6 l7 AcP App axf axcPw w1x W1h b1 w2x W2h b2 pid (2 : Fin 8) 256 2 rfl rfl slices_S1024x1024_o0_256_S1024x128 slices_S1024x8_o0_2_S1024x1 n o

/-- Slot 2's update gate: the gates' last 512 rows. -/
theorem u2_apply (p : Fin 512) (q : Fin 256) :
    k0_pay54 (F := Ideal) (k0_pay51 P36 P38 W1h w1x) b1 (ix2 p q)
      = Cert.KSpec.sg KK (2 : Fin 8) (⟨512 + p.val, by have := p.isLt; omega⟩ : Fin 1024) q :=
  (upd_apply _ p q).trans (sg2_apply l0 l1 l2 l3 l4 l5 l6 l7 AcP App axf axcPw w1x W1h b1 w2x W2h b2 pid _ q)

/-- Slot 2's reset hidden rows, flat view. -/
theorem rh2_apply (p : Fin 512) (q : Fin 256) :
    k0_pay53 (F := Ideal) (k0_pay17 l2) (k0_pay51 P36 P38 W1h w1x) b1 (ix2 p q) = Cert.KSpec.rh KK (2 : Fin 8) p q := by
  refine (rhG_apply (k0_pay52 (F := Ideal) (k0_pay51 P36 P38 W1h w1x) b1) (k0_pay17 (F := Ideal) l2) p q).trans ?_
  rw [sg2_apply l0 l1 l2 l3 l4 l5 l6 l7 AcP App axf axcPw w1x W1h b1 w2x W2h b2 pid,
    show k0_pay17 (F := Ideal) l2 (ix2 p q) = l2 (ix3 (0 : Fin 1) p q) from h_apply l2 p q]
  rfl

/-- Slot 2's reset rows, low lane half. -/
theorem lo2_apply (j : Fin 512) (g : Fin 128) :
    k0_pay55 (F := Ideal) (k0_pay17 l2) (k0_pay51 P36 P38 W1h w1x) b1 (ix2 j g)
      = Cert.KSpec.rh KK (2 : Fin 8) j (⟨g.val, by have := g.isLt; omega⟩ : Fin 256) :=
  (lo_apply _ j g).trans (rh2_apply l0 l1 l2 l3 l4 l5 l6 l7 AcP App axf axcPw w1x W1h b1 w2x W2h b2 pid j _)

/-- Slot 2's reset rows, high lane half. -/
theorem hi2_apply (j : Fin 512) (g : Fin 128) :
    k0_pay56 (F := Ideal) (k0_pay17 l2) (k0_pay51 P36 P38 W1h w1x) b1 (ix2 j g)
      = Cert.KSpec.rh KK (2 : Fin 8) j (⟨128 + g.val, by have := g.isLt; omega⟩ : Fin 256) :=
  (hi_apply _ j g).trans (rh2_apply l0 l1 l2 l3 l4 l5 l6 l7 AcP App axf axcPw w1x W1h b1 w2x W2h b2 pid j _)

/-! ### Slot 3 -/

/-- Slot 3's gates. -/
theorem sg3_apply (n : Fin 1024) (o : Fin 256) :
    k0_pay57 (F := Ideal) P36 P38 W1h w1x b1 (ix2 n o) = Cert.KSpec.sg KK (3 : Fin 8) n o :=
  gate_sg l0 l1 l2 l3 l4 l5 l6 l7 AcP App axf axcPw w1x W1h b1 w2x W2h b2 pid (3 : Fin 8) 384 3 rfl rfl slices_S1024x1024_o0_384_S1024x128 slices_S1024x8_o0_3_S1024x1 n o

/-- Slot 3's update gate: the gates' last 512 rows. -/
theorem u3_apply (p : Fin 512) (q : Fin 256) :
    k0_pay59 (F := Ideal) P36 P38 W1h w1x b1 (ix2 p q)
      = Cert.KSpec.sg KK (3 : Fin 8) (⟨512 + p.val, by have := p.isLt; omega⟩ : Fin 1024) q :=
  (upd_apply _ p q).trans (sg3_apply l0 l1 l2 l3 l4 l5 l6 l7 AcP App axf axcPw w1x W1h b1 w2x W2h b2 pid _ q)

/-- Slot 3's reset hidden rows, flat view. -/
theorem rh3_apply (p : Fin 512) (q : Fin 256) :
    k0_pay58 (F := Ideal) (k0_pay18 l3) P36 P38 W1h w1x b1 (ix2 p q) = Cert.KSpec.rh KK (3 : Fin 8) p q := by
  refine (rhG_apply (k0_pay57 (F := Ideal) P36 P38 W1h w1x b1) (k0_pay18 (F := Ideal) l3) p q).trans ?_
  rw [sg3_apply l0 l1 l2 l3 l4 l5 l6 l7 AcP App axf axcPw w1x W1h b1 w2x W2h b2 pid,
    show k0_pay18 (F := Ideal) l3 (ix2 p q) = l3 (ix3 (0 : Fin 1) p q) from h_apply l3 p q]
  rfl

/-- Slot 3's reset rows, low lane half. -/
theorem lo3_apply (j : Fin 512) (g : Fin 128) :
    k0_pay60 (F := Ideal) (k0_pay18 l3) P36 P38 W1h w1x b1 (ix2 j g)
      = Cert.KSpec.rh KK (3 : Fin 8) j (⟨g.val, by have := g.isLt; omega⟩ : Fin 256) :=
  (lo_apply _ j g).trans (rh3_apply l0 l1 l2 l3 l4 l5 l6 l7 AcP App axf axcPw w1x W1h b1 w2x W2h b2 pid j _)

/-- Slot 3's reset rows, high lane half. -/
theorem hi3_apply (j : Fin 512) (g : Fin 128) :
    k0_pay61 (F := Ideal) (k0_pay18 l3) P36 P38 W1h w1x b1 (ix2 j g)
      = Cert.KSpec.rh KK (3 : Fin 8) j (⟨128 + g.val, by have := g.isLt; omega⟩ : Fin 256) :=
  (hi_apply _ j g).trans (rh3_apply l0 l1 l2 l3 l4 l5 l6 l7 AcP App axf axcPw w1x W1h b1 w2x W2h b2 pid j _)

/-! ### Slot 4 -/

/-- Slot 4's gates. -/
theorem sg4_apply (n : Fin 1024) (o : Fin 256) :
    k0_pay63 (F := Ideal) (k0_pay62 P36 P38 W1h w1x) b1 (ix2 n o) = Cert.KSpec.sg KK (4 : Fin 8) n o :=
  gate_sg l0 l1 l2 l3 l4 l5 l6 l7 AcP App axf axcPw w1x W1h b1 w2x W2h b2 pid (4 : Fin 8) 512 4 rfl rfl slices_S1024x1024_o0_512_S1024x128 slices_S1024x8_o0_4_S1024x1 n o

/-- Slot 4's update gate: the gates' last 512 rows. -/
theorem u4_apply (p : Fin 512) (q : Fin 256) :
    k0_pay65 (F := Ideal) (k0_pay62 P36 P38 W1h w1x) b1 (ix2 p q)
      = Cert.KSpec.sg KK (4 : Fin 8) (⟨512 + p.val, by have := p.isLt; omega⟩ : Fin 1024) q :=
  (upd_apply _ p q).trans (sg4_apply l0 l1 l2 l3 l4 l5 l6 l7 AcP App axf axcPw w1x W1h b1 w2x W2h b2 pid _ q)

/-- Slot 4's reset hidden rows, flat view. -/
theorem rh4_apply (p : Fin 512) (q : Fin 256) :
    k0_pay64 (F := Ideal) (k0_pay19 l4) (k0_pay62 P36 P38 W1h w1x) b1 (ix2 p q) = Cert.KSpec.rh KK (4 : Fin 8) p q := by
  refine (rhG_apply (k0_pay63 (F := Ideal) (k0_pay62 P36 P38 W1h w1x) b1) (k0_pay19 (F := Ideal) l4) p q).trans ?_
  rw [sg4_apply l0 l1 l2 l3 l4 l5 l6 l7 AcP App axf axcPw w1x W1h b1 w2x W2h b2 pid,
    show k0_pay19 (F := Ideal) l4 (ix2 p q) = l4 (ix3 (0 : Fin 1) p q) from h_apply l4 p q]
  rfl

/-- Slot 4's reset rows, low lane half. -/
theorem lo4_apply (j : Fin 512) (g : Fin 128) :
    k0_pay66 (F := Ideal) (k0_pay19 l4) (k0_pay62 P36 P38 W1h w1x) b1 (ix2 j g)
      = Cert.KSpec.rh KK (4 : Fin 8) j (⟨g.val, by have := g.isLt; omega⟩ : Fin 256) :=
  (lo_apply _ j g).trans (rh4_apply l0 l1 l2 l3 l4 l5 l6 l7 AcP App axf axcPw w1x W1h b1 w2x W2h b2 pid j _)

/-- Slot 4's reset rows, high lane half. -/
theorem hi4_apply (j : Fin 512) (g : Fin 128) :
    k0_pay67 (F := Ideal) (k0_pay19 l4) (k0_pay62 P36 P38 W1h w1x) b1 (ix2 j g)
      = Cert.KSpec.rh KK (4 : Fin 8) j (⟨128 + g.val, by have := g.isLt; omega⟩ : Fin 256) :=
  (hi_apply _ j g).trans (rh4_apply l0 l1 l2 l3 l4 l5 l6 l7 AcP App axf axcPw w1x W1h b1 w2x W2h b2 pid j _)

/-! ### Slot 5 -/

/-- Slot 5's gates. -/
theorem sg5_apply (n : Fin 1024) (o : Fin 256) :
    k0_pay68 (F := Ideal) P36 P38 W1h w1x b1 (ix2 n o) = Cert.KSpec.sg KK (5 : Fin 8) n o :=
  gate_sg l0 l1 l2 l3 l4 l5 l6 l7 AcP App axf axcPw w1x W1h b1 w2x W2h b2 pid (5 : Fin 8) 640 5 rfl rfl slices_S1024x1024_o0_640_S1024x128 slices_S1024x8_o0_5_S1024x1 n o

/-- Slot 5's update gate: the gates' last 512 rows. -/
theorem u5_apply (p : Fin 512) (q : Fin 256) :
    k0_pay70 (F := Ideal) P36 P38 W1h w1x b1 (ix2 p q)
      = Cert.KSpec.sg KK (5 : Fin 8) (⟨512 + p.val, by have := p.isLt; omega⟩ : Fin 1024) q :=
  (upd_apply _ p q).trans (sg5_apply l0 l1 l2 l3 l4 l5 l6 l7 AcP App axf axcPw w1x W1h b1 w2x W2h b2 pid _ q)

/-- Slot 5's reset hidden rows, flat view. -/
theorem rh5_apply (p : Fin 512) (q : Fin 256) :
    k0_pay69 (F := Ideal) (k0_pay20 l5) P36 P38 W1h w1x b1 (ix2 p q) = Cert.KSpec.rh KK (5 : Fin 8) p q := by
  refine (rhG_apply (k0_pay68 (F := Ideal) P36 P38 W1h w1x b1) (k0_pay20 (F := Ideal) l5) p q).trans ?_
  rw [sg5_apply l0 l1 l2 l3 l4 l5 l6 l7 AcP App axf axcPw w1x W1h b1 w2x W2h b2 pid,
    show k0_pay20 (F := Ideal) l5 (ix2 p q) = l5 (ix3 (0 : Fin 1) p q) from h_apply l5 p q]
  rfl

/-- Slot 5's reset rows, low lane half. -/
theorem lo5_apply (j : Fin 512) (g : Fin 128) :
    k0_pay71 (F := Ideal) (k0_pay20 l5) P36 P38 W1h w1x b1 (ix2 j g)
      = Cert.KSpec.rh KK (5 : Fin 8) j (⟨g.val, by have := g.isLt; omega⟩ : Fin 256) :=
  (lo_apply _ j g).trans (rh5_apply l0 l1 l2 l3 l4 l5 l6 l7 AcP App axf axcPw w1x W1h b1 w2x W2h b2 pid j _)

/-- Slot 5's reset rows, high lane half. -/
theorem hi5_apply (j : Fin 512) (g : Fin 128) :
    k0_pay72 (F := Ideal) (k0_pay20 l5) P36 P38 W1h w1x b1 (ix2 j g)
      = Cert.KSpec.rh KK (5 : Fin 8) j (⟨128 + g.val, by have := g.isLt; omega⟩ : Fin 256) :=
  (hi_apply _ j g).trans (rh5_apply l0 l1 l2 l3 l4 l5 l6 l7 AcP App axf axcPw w1x W1h b1 w2x W2h b2 pid j _)

/-! ### Slot 6 -/

/-- Slot 6's gates. -/
theorem sg6_apply (n : Fin 1024) (o : Fin 256) :
    k0_pay74 (F := Ideal) (k0_pay73 P36 P38 W1h w1x) b1 (ix2 n o) = Cert.KSpec.sg KK (6 : Fin 8) n o :=
  gate_sg l0 l1 l2 l3 l4 l5 l6 l7 AcP App axf axcPw w1x W1h b1 w2x W2h b2 pid (6 : Fin 8) 768 6 rfl rfl slices_S1024x1024_o0_768_S1024x128 slices_S1024x8_o0_6_S1024x1 n o

/-- Slot 6's update gate: the gates' last 512 rows. -/
theorem u6_apply (p : Fin 512) (q : Fin 256) :
    k0_pay75 (F := Ideal) (k0_pay73 P36 P38 W1h w1x) b1 (ix2 p q)
      = Cert.KSpec.sg KK (6 : Fin 8) (⟨512 + p.val, by have := p.isLt; omega⟩ : Fin 1024) q :=
  (upd_apply _ p q).trans (sg6_apply l0 l1 l2 l3 l4 l5 l6 l7 AcP App axf axcPw w1x W1h b1 w2x W2h b2 pid _ q)

/-- Slot 6's reset hidden rows, flat view. -/
theorem rh6_apply (p : Fin 512) (q : Fin 256) :
    rhG (k0_pay74 (F := Ideal) (k0_pay73 P36 P38 W1h w1x) b1) (k0_pay21 (F := Ideal) l6) (ix2 p q) = Cert.KSpec.rh KK (6 : Fin 8) p q := by
  refine (rhG_apply (k0_pay74 (F := Ideal) (k0_pay73 P36 P38 W1h w1x) b1) (k0_pay21 (F := Ideal) l6) p q).trans ?_
  rw [sg6_apply l0 l1 l2 l3 l4 l5 l6 l7 AcP App axf axcPw w1x W1h b1 w2x W2h b2 pid,
    show k0_pay21 (F := Ideal) l6 (ix2 p q) = l6 (ix3 (0 : Fin 1) p q) from h_apply l6 p q]
  rfl

/-! ### Slot 7 -/

/-- Slot 7's gates. -/
theorem sg7_apply (n : Fin 1024) (o : Fin 256) :
    k0_pay76 (F := Ideal) P36 P38 W1h w1x b1 (ix2 n o) = Cert.KSpec.sg KK (7 : Fin 8) n o :=
  gate_sg l0 l1 l2 l3 l4 l5 l6 l7 AcP App axf axcPw w1x W1h b1 w2x W2h b2 pid (7 : Fin 8) 896 7 rfl rfl slices_S1024x1024_o0_896_S1024x128 slices_S1024x8_o0_7_S1024x1 n o

/-- Slot 7's update gate: the gates' last 512 rows. -/
theorem u7_apply (p : Fin 512) (q : Fin 256) :
    k0_pay77 (F := Ideal) P36 P38 W1h w1x b1 (ix2 p q)
      = Cert.KSpec.sg KK (7 : Fin 8) (⟨512 + p.val, by have := p.isLt; omega⟩ : Fin 1024) q :=
  (upd_apply _ p q).trans (sg7_apply l0 l1 l2 l3 l4 l5 l6 l7 AcP App axf axcPw w1x W1h b1 w2x W2h b2 pid _ q)

/-- Slot 7's reset hidden rows, flat view. -/
theorem rh7_apply (p : Fin 512) (q : Fin 256) :
    rhG (k0_pay76 (F := Ideal) P36 P38 W1h w1x b1) (k0_pay22 (F := Ideal) l7) (ix2 p q) = Cert.KSpec.rh KK (7 : Fin 8) p q := by
  refine (rhG_apply (k0_pay76 (F := Ideal) P36 P38 W1h w1x b1) (k0_pay22 (F := Ideal) l7) p q).trans ?_
  rw [sg7_apply l0 l1 l2 l3 l4 l5 l6 l7 AcP App axf axcPw w1x W1h b1 w2x W2h b2 pid,
    show k0_pay22 (F := Ideal) l7 (ix2 p q) = l7 (ix3 (0 : Fin 1) p q) from h_apply l7 p q]
  rfl

end Cert.Gc1

end
-- ==== Proof.Gc1Pp.lean ====
/-
  The second wide product of a grid step, read at an entry: the row-and-column-permuted adjacency times the eight
  slots' reset hidden rows stacked evens-then-odds. Entry `(r, 128 t + g)` is `∑ j, App (r, j) * stack (rh t) j g`.
-/
import proofs.«180865_g44452911513920_cont_8to1_c_104_44_alg».proof.Proof.Gc1Sg

noncomputable section

namespace Cert.Gc1

open Cert.KernelIdeal Cert.KernelIdeal.Gen Idealize.ShloMosaic Idealize.ShloMosaic.ValueIdx Cert.KGlue

variable (l0 l1 l2 l3 l4 l5 l6 l7 : Vec Ideal S1x512x256 .f32) (AcP App : Vec Ideal S1024x1024 .bf16)
  (axf : Vec Ideal S1024x64 .f32) (axcPw : FVec Ideal S1024x8 .f32)
  (w1x : Vec Ideal S1x256 .f32) (W1h : Vec Ideal S128x256 .bf16) (b1 : Vec Ideal S1x256 .f32)
  (w2x : Vec Ideal S1x128 .f32) (W2h : Vec Ideal S128x128 .bf16) (b2 : Vec Ideal S1x128 .f32) (pid : BitVec 32)

local notation "P36" => (k0_pay36 (F := Ideal) (k0_pay23 l0) (k0_pay24 l1) (k0_pay25 l2) (k0_pay26 l3) (k0_pay27 l4) (k0_pay28 l5)
  (k0_pay29 l6) (k0_pay30 l7) (k0_pay31 l0) (k0_pay32 l1) (k0_pay33 l2) (k0_pay34 l3) (k0_pay35 l4) AcP)
local notation "P38" => (k0_pay38 (F := Ideal) pid axf)
local notation "P40" => (k0_pay40 (F := Ideal) pid (k0_pay23 l0) (k0_pay24 l1) (k0_pay25 l2) (k0_pay26 l3) (k0_pay27 l4) (k0_pay28 l5)
  (k0_pay29 l6) (k0_pay30 l7) (k0_pay31 l0) (k0_pay32 l1) (k0_pay33 l2) (k0_pay34 l3) (k0_pay35 l4) AcP axf W1h w1x)
local notation "KK" => (Cert.KGlue.kin l0 l1 l2 l3 l4 l5 l6 l7 AcP App P38 axcPw w1x W1h b1 w2x W2h b2)

/-- Slot `t` of the eight reset hidden rows. -/
theorem sel8_rh (t : Fin 8) (p : Fin 512) (q : Fin 256) :
    sel8 (k0_pay42 (F := Ideal) (k0_pay15 l0) P40 b1)
      (k0_pay47 (F := Ideal) (k0_pay16 l1) P36 P38 W1h w1x b1)
      (k0_pay53 (F := Ideal) (k0_pay17 l2) (k0_pay51 P36 P38 W1h w1x) b1)
      (k0_pay58 (F := Ideal) (k0_pay18 l3) P36 P38 W1h w1x b1)
      (k0_pay64 (F := Ideal) (k0_pay19 l4) (k0_pay62 P36 P38 W1h w1x) b1)
      (k0_pay69 (F := Ideal) (k0_pay20 l5) P36 P38 W1h w1x b1)
      (rhG (k0_pay74 (F := Ideal) (k0_pay73 P36 P38 W1h w1x) b1) (k0_pay21 (F := Ideal) l6))
      (rhG (k0_pay76 (F := Ideal) P36 P38 W1h w1x b1) (k0_pay22 (F := Ideal) l7)) t (ix2 p q)
      = Cert.KSpec.rh KK t p q := by
  match t with
  | ⟨0, _⟩ => exact rh0_apply l0 l1 l2 l3 l4 l5 l6 l7 AcP App axf axcPw w1x W1h b1 w2x W2h b2 pid p q
  | ⟨1, _⟩ => exact rh1_apply l0 l1 l2 l3 l4 l5 l6 l7 AcP App axf axcPw w1x W1h b1 w2x W2h b2 pid p q
  | ⟨2, _⟩ => exact rh2_apply l0 l1 l2 l3 l4 l5 l6 l7 AcP App axf axcPw w1x W1h b1 w2x W2h b2 pid p q
  | ⟨3, _⟩ => exact rh3_apply l0 l1 l2 l3 l4 l5 l6 l7 AcP App axf axcPw w1x W1h b1 w2x W2h b2 pid p q
  | ⟨4, _⟩ => exact rh4_apply l0 l1 l2 l3 l4 l5 l6 l7 AcP App axf axcPw w1x W1h b1 w2x W2h b2 pid p q
  | ⟨5, _⟩ => exact rh5_apply l0 l1 l2 l3 l4 l5 l6 l7 AcP App axf axcPw w1x W1h b1 w2x W2h b2 pid p q
  | ⟨6, _⟩ => exact rh6_apply l0 l1 l2 l3 l4 l5 l6 l7 AcP App axf axcPw w1x W1h b1 w2x W2h b2 pid p q
  | ⟨7, _⟩ => exact rh7_apply l0 l1 l2 l3 l4 l5 l6 l7 AcP App axf axcPw w1x W1h b1 w2x W2h b2 pid p q
  | ⟨n + 8, h⟩ => exact absurd h (by omega)

/-- The second wide product at entry `(r, 128 t + g)`. -/
theorem pP_apply (r : Fin 1024) (t : Fin 8) (g : Fin 128) :
    (k0_pay78 (F := Ideal) (k0_pay21 l6) (k0_pay22 l7) P36 P38
  (k0_pay44 (F := Ideal) (k0_pay15 l0) P40 b1) (k0_pay45 (F := Ideal) (k0_pay15 l0) P40 b1)
  (k0_pay49 (F := Ideal) (k0_pay16 l1) P36 P38 W1h w1x b1) (k0_pay50 (F := Ideal) (k0_pay16 l1) P36 P38 W1h w1x b1)
  (k0_pay55 (F := Ideal) (k0_pay17 l2) (k0_pay51 P36 P38 W1h w1x) b1) (k0_pay56 (F := Ideal) (k0_pay17 l2) (k0_pay51 P36 P38 W1h w1x) b1)
  (k0_pay60 (F := Ideal) (k0_pay18 l3) P36 P38 W1h w1x b1) (k0_pay61 (F := Ideal) (k0_pay18 l3) P36 P38 W1h w1x b1)
  (k0_pay66 (F := Ideal) (k0_pay19 l4) (k0_pay62 P36 P38 W1h w1x) b1) (k0_pay67 (F := Ideal) (k0_pay19 l4) (k0_pay62 P36 P38 W1h w1x) b1)
  (k0_pay71 (F := Ideal) (k0_pay20 l5) P36 P38 W1h w1x b1) (k0_pay72 (F := Ideal) (k0_pay20 l5) P36 P38 W1h w1x b1)
  (k0_pay73 P36 P38 W1h w1x) b1 W1h w1x b1 App) (ix2 r (⟨128 * t.val + g.val, by have := t.isLt; have := g.isLt; omega⟩ : Fin 1024))
      = ∑ j : Fin 1024, (App (ix2 r j) : EReal) * Cert.KSpec.stack (Cert.KSpec.rh KK t) j g := by
  have e : (k0_pay78 (F := Ideal) (k0_pay21 l6) (k0_pay22 l7) P36 P38
  (k0_pay44 (F := Ideal) (k0_pay15 l0) P40 b1) (k0_pay45 (F := Ideal) (k0_pay15 l0) P40 b1)
  (k0_pay49 (F := Ideal) (k0_pay16 l1) P36 P38 W1h w1x b1) (k0_pay50 (F := Ideal) (k0_pay16 l1) P36 P38 W1h w1x b1)
  (k0_pay55 (F := Ideal) (k0_pay17 l2) (k0_pay51 P36 P38 W1h w1x) b1) (k0_pay56 (F := Ideal) (k0_pay17 l2) (k0_pay51 P36 P38 W1h w1x) b1)
  (k0_pay60 (F := Ideal) (k0_pay18 l3) P36 P38 W1h w1x b1) (k0_pay61 (F := Ideal) (k0_pay18 l3) P36 P38 W1h w1x b1)
  (k0_pay66 (F := Ideal) (k0_pay19 l4) (k0_pay62 P36 P38 W1h w1x) b1) (k0_pay67 (F := Ideal) (k0_pay19 l4) (k0_pay62 P36 P38 W1h w1x) b1)
  (k0_pay71 (F := Ideal) (k0_pay20 l5) P36 P38 W1h w1x b1) (k0_pay72 (F := Ideal) (k0_pay20 l5) P36 P38 W1h w1x b1)
  (k0_pay73 P36 P38 W1h w1x) b1 W1h w1x b1 App)
      = matmul dot_S1024x1024_S1024x1024_S1024x1024_1_0_0_1_n_n none App
          (stack8 (k0_pay42 (F := Ideal) (k0_pay15 l0) P40 b1)
            (k0_pay47 (F := Ideal) (k0_pay16 l1) P36 P38 W1h w1x b1)
            (k0_pay53 (F := Ideal) (k0_pay17 l2) (k0_pay51 P36 P38 W1h w1x) b1)
            (k0_pay58 (F := Ideal) (k0_pay18 l3) P36 P38 W1h w1x b1)
            (k0_pay64 (F := Ideal) (k0_pay19 l4) (k0_pay62 P36 P38 W1h w1x) b1)
            (k0_pay69 (F := Ideal) (k0_pay20 l5) P36 P38 W1h w1x b1)
            (rhG (k0_pay74 (F := Ideal) (k0_pay73 P36 P38 W1h w1x) b1) (k0_pay21 (F := Ideal) l6))
            (rhG (k0_pay76 (F := Ideal) P36 P38 W1h w1x b1) (k0_pay22 (F := Ideal) l7)))
          (constant (F := Ideal) S1024x1024 .f32 0x00000000#32) := rfl
  rw [e, Cert.KMat.mm_1024_1024_1024]
  refine Finset.sum_congr rfl fun j _ => ?_
  refine congrArg ((App (ix2 r j) : EReal) * ·) ?_
  rw [stack8_apply]
  unfold Cert.KSpec.stack
  by_cases h : j.val < 512
  · rw [dif_pos h, dif_pos h]
    exact sel8_rh l0 l1 l2 l3 l4 l5 l6 l7 AcP App axf axcPw w1x W1h b1 w2x W2h b2 pid t _ _
  · rw [dif_neg h, dif_neg h]
    exact sel8_rh l0 l1 l2 l3 l4 l5 l6 l7 AcP App axf axcPw w1x W1h b1 w2x W2h b2 pid t _ _

end Cert.Gc1

end
-- ==== Proof.KSlots.lean ====
/-
  The eight output stores of a grid step, entry by entry: the value slot `t` stores at `(0, p, q)` is the step
  description's output `outK t p q` of what the step reads. Each store's payload is the second layer's slot arithmetic
  applied to the slot's hidden rows, its update gate, the second wide product and the node-input aggregates; the
  slot arithmetic gives the output from those arrays, and the arrays hold, entry by entry, what the step description says
  (the hidden rows by the cast of the loaded block, the update gate and the wide product by the first layer's lemmas,
  the weights by definition).
-/
import proofs.«180865_g44452911513920_cont_8to1_c_104_44_alg».proof.Proof.KStep
import proofs.«180865_g44452911513920_cont_8to1_c_104_44_alg».proof.Proof.Gc2Slots
import proofs.«180865_g44452911513920_cont_8to1_c_104_44_alg».proof.Proof.Gc2Glue
import proofs.«180865_g44452911513920_cont_8to1_c_104_44_alg».proof.Proof.Gc1Pp
import Idealize.ShloMosaic.Lib.ValueLayout

noncomputable section

namespace Cert.KSlots

open Idealize.ShloMosaic Idealize.ShloMosaic.ValueIdx Cert.KernelIdeal Cert.KernelIdeal.Gen Cert.KStep

/-- The loaded block `[1, 512, 256]` viewed `[512, 256]`: entry `(p, q)` is the block's entry `(0, p, q)`. -/
theorem cast_apply (l : Vec Ideal S1x512x256 .f32) (p : Fin 512) (q : Fin 256) :
    (shapeCast S512x256 l shapeCasts_S1x512x256_S512x256 : FVec Ideal S512x256 .f32) (ix2 p q) = l (ix3 (0 : Fin 1) p q) :=
  shapeCast_1ab_ab_apply l _ p q

/-- Slot 0's store. -/
theorem slot0 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay81 (F := Ideal) (k0_pay15 (ld0 x3)) (k0_pay43 (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay79 (k0_pay39 pid axP)) (k0_pay80 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App W2h) w2x b2) (ix3 (0 : Fin 1) p q)
      = Cert.KSpec.outK (stepK pid x3 w1x W1h b1 w2x W2h b2 AcP App axf axP) (0 : Fin 8) p q := by
  refine (Cert.Gc2.s0 _ _ _ _ _ _ p q _ _ _ _ _ _ _ _ _ _ _ _ _ _ _ _ _ _ _ _ _ _).trans ?_
  exact Cert.Gc2.outg_eq_outK (stepK pid x3 w1x W1h b1 w2x W2h b2 AcP App axf axP) (0 : Fin 8) _ _ _ _ _ _ _
    (fun p q => cast_apply (ld0 x3) p q)
    (fun p q => Cert.Gc1.u0_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (0 : Fin 8) g)
    (fun _ => rfl) (fun _ _ => rfl) (fun _ => rfl) (fun _ => rfl) p q

/-- Slot 1's store. -/
theorem slot1 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay83 (F := Ideal) (k0_pay82 (k0_pay16 (ld1 x3)) (k0_pay39 pid axP) (k0_pay48 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App) W2h w2x b2)) (ix3 (0 : Fin 1) p q)
      = Cert.KSpec.outK (stepK pid x3 w1x W1h b1 w2x W2h b2 AcP App axf axP) (1 : Fin 8) p q := by
  refine (Cert.Gc2.s1 _ _ _ _ _ _ _ p q).trans ?_
  exact Cert.Gc2.outg_eq_outK (stepK pid x3 w1x W1h b1 w2x W2h b2 AcP App axf axP) (1 : Fin 8) _ _ _ _ _ _ _
    (fun p q => cast_apply (ld1 x3) p q)
    (fun p q => Cert.Gc1.u1_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (1 : Fin 8) g)
    (fun _ => rfl) (fun _ _ => rfl) (fun _ => rfl) (fun _ => rfl) p q

/-- Slot 2's store. -/
theorem slot2 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay84 (F := Ideal) (k0_pay17 (ld2 x3)) (k0_pay39 pid axP) (k0_pay54 (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App) W2h w2x b2) (ix3 (0 : Fin 1) p q)
      = Cert.KSpec.outK (stepK pid x3 w1x W1h b1 w2x W2h b2 AcP App axf axP) (2 : Fin 8) p q := by
  refine (Cert.Gc2.s2 _ _ _ _ _ _ _ p q).trans ?_
  exact Cert.Gc2.outg_eq_outK (stepK pid x3 w1x W1h b1 w2x W2h b2 AcP App axf axP) (2 : Fin 8) _ _ _ _ _ _ _
    (fun p q => cast_apply (ld2 x3) p q)
    (fun p q => Cert.Gc1.u2_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (2 : Fin 8) g)
    (fun _ => rfl) (fun _ _ => rfl) (fun _ => rfl) (fun _ => rfl) p q

/-- Slot 3's store. -/
theorem slot3 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay87 (F := Ideal) (k0_pay18 (ld3 x3)) (k0_pay59 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay85 (k0_pay39 pid axP) (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App) W2h w2x) (k0_pay86 b2)) (ix3 (0 : Fin 1) p q)
      = Cert.KSpec.outK (stepK pid x3 w1x W1h b1 w2x W2h b2 AcP App axf axP) (3 : Fin 8) p q := by
  refine (Cert.Gc2.s3 _ _ _ _ _ _ _ p q).trans ?_
  exact Cert.Gc2.outg_eq_outK (stepK pid x3 w1x W1h b1 w2x W2h b2 AcP App axf axP) (3 : Fin 8) _ _ _ _ _ _ _
    (fun p q => cast_apply (ld3 x3) p q)
    (fun p q => Cert.Gc1.u3_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (3 : Fin 8) g)
    (fun _ => rfl) (fun _ _ => rfl) (fun _ => rfl) (fun _ => rfl) p q

/-- Slot 4's store. -/
theorem slot4 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay88 (F := Ideal) (k0_pay19 (ld4 x3)) (k0_pay39 pid axP) (k0_pay65 (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App) W2h w2x b2) (ix3 (0 : Fin 1) p q)
      = Cert.KSpec.outK (stepK pid x3 w1x W1h b1 w2x W2h b2 AcP App axf axP) (4 : Fin 8) p q := by
  refine (Cert.Gc2.s4 _ _ _ _ _ _ _ p q).trans ?_
  exact Cert.Gc2.outg_eq_outK (stepK pid x3 w1x W1h b1 w2x W2h b2 AcP App axf axP) (4 : Fin 8) _ _ _ _ _ _ _
    (fun p q => cast_apply (ld4 x3) p q)
    (fun p q => Cert.Gc1.u4_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (4 : Fin 8) g)
    (fun _ => rfl) (fun _ _ => rfl) (fun _ => rfl) (fun _ => rfl) p q

/-- Slot 5's store. -/
theorem slot5 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay92 (F := Ideal) (k0_pay20 (ld5 x3)) (k0_pay70 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay89 (k0_pay39 pid axP)) (k0_pay90 (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App)) (k0_pay91 W2h) w2x b2) (ix3 (0 : Fin 1) p q)
      = Cert.KSpec.outK (stepK pid x3 w1x W1h b1 w2x W2h b2 AcP App axf axP) (5 : Fin 8) p q := by
  refine (Cert.Gc2.s5 _ _ _ _ _ _ _ p q).trans ?_
  exact Cert.Gc2.outg_eq_outK (stepK pid x3 w1x W1h b1 w2x W2h b2 AcP App axf axP) (5 : Fin 8) _ _ _ _ _ _ _
    (fun p q => cast_apply (ld5 x3) p q)
    (fun p q => Cert.Gc1.u5_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (5 : Fin 8) g)
    (fun _ => rfl) (fun _ _ => rfl) (fun _ => rfl) (fun _ => rfl) p q

/-- Slot 6's store. -/
theorem slot6 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay1 (F := Ideal) (k0_pay93 (k0_pay21 (ld6 x3)) (k0_pay39 pid axP) (k0_pay75 (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App) W2h w2x b2)) (ix3 (0 : Fin 1) p q)
      = Cert.KSpec.outK (stepK pid x3 w1x W1h b1 w2x W2h b2 AcP App axf axP) (6 : Fin 8) p q := by
  refine (Cert.Gc2.s6 _ _ _ _ _ _ _ p q).trans ?_
  exact Cert.Gc2.outg_eq_outK (stepK pid x3 w1x W1h b1 w2x W2h b2 AcP App axf axP) (6 : Fin 8) _ _ _ _ _ _ _
    (fun p q => cast_apply (ld6 x3) p q)
    (fun p q => Cert.Gc1.u6_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (6 : Fin 8) g)
    (fun _ => rfl) (fun _ _ => rfl) (fun _ => rfl) (fun _ => rfl) p q

/-- Slot 7's store. -/
theorem slot7 (pid : BitVec 32) (x3 : Vec Ideal S8x512x256 .f32) (AcP App : Vec Ideal S1024x1024 .bf16) (axf axP : Vec Ideal S1024x64 .f32)
    (w1x : Vec Ideal S1x256 .f32) (W1h : Vec Ideal S128x256 .bf16) (b1 : Vec Ideal S1x256 .f32)
    (w2x : Vec Ideal S1x128 .f32) (W2h : Vec Ideal S128x128 .bf16) (b2 : Vec Ideal S1x128 .f32) (p : Fin 512) (q : Fin 256) :
    (k0_pay2 (F := Ideal) (k0_pay22 (ld7 x3)) (k0_pay39 pid axP) (k0_pay77 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay78 (k0_pay21 (ld6 x3)) (k0_pay22 (ld7 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) (k0_pay44 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay45 (k0_pay15 (ld0 x3)) (k0_pay40 pid (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP axf W1h w1x) b1) (k0_pay49 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay50 (k0_pay16 (ld1 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay55 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay56 (k0_pay17 (ld2 x3)) (k0_pay51 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay60 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay61 (k0_pay18 (ld3 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay66 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay67 (k0_pay19 (ld4 x3)) (k0_pay62 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1) (k0_pay71 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay72 (k0_pay20 (ld5 x3)) (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x b1) (k0_pay73 (k0_pay36 (k0_pay23 (ld0 x3)) (k0_pay24 (ld1 x3)) (k0_pay25 (ld2 x3)) (k0_pay26 (ld3 x3)) (k0_pay27 (ld4 x3)) (k0_pay28 (ld5 x3)) (k0_pay29 (ld6 x3)) (k0_pay30 (ld7 x3)) (k0_pay31 (ld0 x3)) (k0_pay32 (ld1 x3)) (k0_pay33 (ld2 x3)) (k0_pay34 (ld3 x3)) (k0_pay35 (ld4 x3)) AcP) (k0_pay38 pid axf) W1h w1x) b1 W1h w1x b1 App) W2h w2x b2) (ix3 (0 : Fin 1) p q)
      = Cert.KSpec.outK (stepK pid x3 w1x W1h b1 w2x W2h b2 AcP App axf axP) (7 : Fin 8) p q := by
  refine (Cert.Gc2.s7 _ _ _ _ _ _ _ p q).trans ?_
  exact Cert.Gc2.outg_eq_outK (stepK pid x3 w1x W1h b1 w2x W2h b2 AcP App axf axP) (7 : Fin 8) _ _ _ _ _ _ _
    (fun p q => cast_apply (ld7 x3) p q)
    (fun p q => Cert.Gc1.u7_apply (ld0 x3) (ld1 x3) (ld2 x3) (ld3 x3) (ld4 x3) (ld5 x3) (ld6 x3) (ld7 x3) AcP App axf (k0_pay39 (F := Ideal) pid axP) w1x W1h b1 w2x W2h b2 pid p q)
    (fun r g => Cert.Gc1.pP_apply (ld0 x3) (ld1 x3) (ld2 x3) (ld3 x3) (ld4 x3) (ld5 x3) (ld6 x3) (ld7 x3) AcP App axf (k0_pay39 (F := Ideal) pid axP) w1x W1h b1 w2x W2h b2 pid r (7 : Fin 8) g)
    (fun _ => rfl) (fun _ _ => rfl) (fun _ => rfl) (fun _ => rfl) p q

end Cert.KSlots

end
-- ==== Proof.KPieces.lean ====
/-
  What the kernel's body leaves, read back as values. The body's eight stores into the output's staging buffer tile
  it slot by slot; each store's payload at `(0, p, q)` is the step's index-level output (KSlots), so the buffer ends
  holding `stepVal` of the blocks the point loaded and of the four resident arrays — which the first grid point
  computes, stores and reads back within the same body, and every later point finds as the point before left them.
  By induction on the point the carried arrays never change, so every grid point leaves `stepVal` over the same four.
-/
import proofs.«180865_g44452911513920_cont_8to1_c_104_44_alg».proof.Proof.Gen.KernelIdeal.Frame
import proofs.«180865_g44452911513920_cont_8to1_c_104_44_alg».proof.Proof.KStep
import proofs.«180865_g44452911513920_cont_8to1_c_104_44_alg».proof.Proof.KSlots
import Idealize.ShloMosaic.Lib.Pipeline.Value

set_option maxRecDepth 16384

noncomputable section

namespace Cert.KPieces

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KStep Cert.KSlots

theorem hz2 : (![0, 0] : Fin 2 → Nat) = fun _ => 0 := funext fun a => by fin_cases a <;> rfl

theorem exists_ix3 (x : (⟨3, ![1, 512, 256]⟩ : Shape).Idx) : ∃ (p : Fin 512) (q : Fin 256), x = ix3 (0 : Fin 1) p q :=
  ⟨x 1, x 2, funext fun a => Fin.ext (by
    match a with
    | ⟨0, _⟩ => have h : (x 0).val < 1 := (x 0).isLt; show (x 0).val = 0; omega
    | ⟨1, _⟩ => rfl
    | ⟨2, _⟩ => rfl)⟩

/-- A step's output at the position a slot's store covers. -/
theorem stepVal_at (s : Fin 8) (off : Fin 3 → ℕ) (hinb : ∀ a, off a + (![1, 512, 256] : Fin 3 → ℕ) a ≤ S8x512x256.size a)
    (h0 : off 0 = s.val) (h1 : off 1 = 0) (h2 : off 2 = 0) (p : Fin 512) (q : Fin 256)
    (pid : BitVec 32) (x3 : Vec Ideal S8x512x256 .f32) (x4 : Vec Ideal S1x256 .f32) (x5 : Vec Ideal S128x256 .bf16)
    (x6 : Vec Ideal S1x256 .f32) (x7 : Vec Ideal S1x128 .f32) (x8 : Vec Ideal S128x128 .bf16) (x9 : Vec Ideal S1x128 .f32)
    (xs0 xs1 : Vec Ideal S1024x1024 .bf16) (xs2 xs3 : Vec Ideal S1024x64 .f32) :
    stepVal pid x3 x4 x5 x6 x7 x8 x9 xs0 xs1 xs2 xs3 ((Rect.unit (s := S8x512x256) off ![1, 512, 256] hinb).emb (ix3 (0 : Fin 1) p q))
      = Cert.KSpec.outK (stepK pid x3 x4 x5 x6 x7 x8 x9 xs0 xs1 xs2 xs3) s p q := by
  unfold stepVal
  refine congr (congr (congrArg _ (Fin.ext ?_)) (Fin.ext ?_)) (Fin.ext ?_)
  · show off 0 + 1 * (0 : ℕ) = s.val; omega
  · show off 1 + 1 * p.val = p.val; omega
  · show off 2 + 1 * q.val = q.val; omega

set_option maxHeartbeats 4000000 in
/-- Away from the first grid point the body's eight stores leave the step's output, computed from the resident arrays it finds. -/
theorem outB (c : Dev nD) (i : grid0.Coords) (arg1 : Memref sig .tc .vmem S1024x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S8x512x256 .f32) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S8x512x256 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x64 .f32) (harg14 : arg14.IsWhole) (arg15 : Memref sig .tc .vmem S1024x64 .f32) (harg15 : arg15.IsWhole) (hc0 : ¬cond0_0 i)
    (x0 : Vec Ideal S1024x1024 .f32) (x1 : Vec Ideal S1024x64 .bf16) (x2 : Vec Ideal S1024x64 .bf16) (x3 : Vec Ideal S8x512x256 .f32) (x4 : Vec Ideal S1x256 .f32) (x5 : Vec Ideal S128x256 .bf16) (x6 : Vec Ideal S1x256 .f32) (x7 : Vec Ideal S1x128 .f32) (x8 : Vec Ideal S128x128 .bf16) (x9 : Vec Ideal S1x128 .f32) (xs0 : Vec Ideal S1024x1024 .bf16) (xs1 : Vec Ideal S1024x1024 .bf16) (xs2 : Vec Ideal S1024x64 .f32) (xs3 : Vec Ideal S1024x64 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3
      = stepVal (BitVec.ofNat 32 (i 0).val) x3 x4 x5 x6 x7 x8 x9 xs0 xs1 xs2 xs3 := by
  funext y
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3)]
  refine View.canon_apply_of_pieces (stepVal (BitVec.ofNat 32 (i 0).val) x3 x4 x5 x6 x7 x8 x9 xs0 xs1 xs2 xs3) _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 xs1 xs2 xs3 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg13.read_unread, harg14.read_unread, harg15.read_unread,
    View.ld_unit_zero (S := S1024x1024) hz2, View.ld_unit_zero (S := S1024x64) hz2, View.ld_unit_zero (S := S1x256) hz2, View.ld_unit_zero (S := S128x256) hz2, View.ld_unit_zero (S := S1x128) hz2, View.ld_unit_zero (S := S128x128) hz2]
  intro pc hpc x
  simp only [List.mem_cons, List.not_mem_nil, or_false] at hpc
  rcases hpc with rfl | rfl | rfl | rfl | rfl | rfl | rfl | rfl
  · dsimp only
    obtain ⟨p, q, rfl⟩ := exists_ix3 x
    exact (slot7 (BitVec.ofNat 32 (i 0).val) x3 xs0 xs1 xs2 xs3 x4 x5 x6 x7 x8 x9 p q).trans
      (stepVal_at (7 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot6 (BitVec.ofNat 32 (i 0).val) x3 xs0 xs1 xs2 xs3 x4 x5 x6 x7 x8 x9 p q).trans
      (stepVal_at (6 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot5 (BitVec.ofNat 32 (i 0).val) x3 xs0 xs1 xs2 xs3 x4 x5 x6 x7 x8 x9 p q).trans
      (stepVal_at (5 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot4 (BitVec.ofNat 32 (i 0).val) x3 xs0 xs1 xs2 xs3 x4 x5 x6 x7 x8 x9 p q).trans
      (stepVal_at (4 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot3 (BitVec.ofNat 32 (i 0).val) x3 xs0 xs1 xs2 xs3 x4 x5 x6 x7 x8 x9 p q).trans
      (stepVal_at (3 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot2 (BitVec.ofNat 32 (i 0).val) x3 xs0 xs1 xs2 xs3 x4 x5 x6 x7 x8 x9 p q).trans
      (stepVal_at (2 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot1 (BitVec.ofNat 32 (i 0).val) x3 xs0 xs1 xs2 xs3 x4 x5 x6 x7 x8 x9 p q).trans
      (stepVal_at (1 : Fin 8) _ _ rfl rfl rfl p q (BitVec.ofNat 32 (i 0).val) x3 x4 x5 x6 x7 x8 x9 xs0 xs1 xs2 xs3).symm
  · dsimp only
    obtain ⟨p, q, rfl⟩ := exists_ix3 x
    exact (slot0 (BitVec.ofNat 32 (i 0).val) x3 xs0 xs1 xs2 xs3 x4 x5 x6 x7 x8 x9 p q).trans
      (stepVal_at (0 : Fin 8) _ _ rfl rfl rfl p q (BitVec.ofNat 32 (i 0).val) x3 x4 x5 x6 x7 x8 x9 xs0 xs1 xs2 xs3).symm

set_option maxHeartbeats 4000000 in
/-- At the first grid point the body first stores the four resident arrays, reads them back, and leaves the same output over them. -/
theorem outA (c : Dev nD) (i : grid0.Coords) (arg1 : Memref sig .tc .vmem S1024x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S8x512x256 .f32) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S8x512x256 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x64 .f32) (harg14 : arg14.IsWhole) (arg15 : Memref sig .tc .vmem S1024x64 .f32) (harg15 : arg15.IsWhole) (hc0 : cond0_0 i)
    (x0 : Vec Ideal S1024x1024 .f32) (x1 : Vec Ideal S1024x64 .bf16) (x2 : Vec Ideal S1024x64 .bf16) (x3 : Vec Ideal S8x512x256 .f32) (x4 : Vec Ideal S1x256 .f32) (x5 : Vec Ideal S128x256 .bf16) (x6 : Vec Ideal S1x256 .f32) (x7 : Vec Ideal S1x128 .f32) (x8 : Vec Ideal S128x128 .bf16) (x9 : Vec Ideal S1x128 .f32) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = stepVal (BitVec.ofNat 32 (i 0).val) x3 x4 x5 x6 x7 x8 x9 (S0 x0) (S1 x0) (S2 x0 x1) (S3 x0 x2) := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  refine View.canon_apply_of_pieces (stepVal (BitVec.ofNat 32 (i 0).val) x3 x4 x5 x6 x7 x8 x9 (S0 x0) (S1 x0) (S2 x0 x1) (S3 x0 x2)) _ ?_ y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread,
    View.ld_unit_zero (S := S1024x1024) hz2, View.ld_unit_zero (S := S1024x64) hz2, View.ld_unit_zero (S := S1x256) hz2, View.ld_unit_zero (S := S128x256) hz2, View.ld_unit_zero (S := S1x128) hz2, View.ld_unit_zero (S := S128x128) hz2,
    View.readCov_unit_zero (S := S1024x1024) _ hz2, View.readCov_unit_zero (S := S1024x64) _ hz2]
  intro pc hpc x
  simp only [List.mem_cons, List.not_mem_nil, or_false] at hpc
  rcases hpc with rfl | rfl | rfl | rfl | rfl | rfl | rfl | rfl
  · dsimp only
    obtain ⟨p, q, rfl⟩ := exists_ix3 x
    exact (slot7 (BitVec.ofNat 32 (i 0).val) x3 (S0 x0) (S1 x0) (S2 x0 x1) (S3 x0 x2) x4 x5 x6 x7 x8 x9 p q).trans
      (stepVal_at (7 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot6 (BitVec.ofNat 32 (i 0).val) x3 (S0 x0) (S1 x0) (S2 x0 x1) (S3 x0 x2) x4 x5 x6 x7 x8 x9 p q).trans
      (stepVal_at (6 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot5 (BitVec.ofNat 32 (i 0).val) x3 (S0 x0) (S1 x0) (S2 x0 x1) (S3 x0 x2) x4 x5 x6 x7 x8 x9 p q).trans
      (stepVal_at (5 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot4 (BitVec.ofNat 32 (i 0).val) x3 (S0 x0) (S1 x0) (S2 x0 x1) (S3 x0 x2) x4 x5 x6 x7 x8 x9 p q).trans
      (stepVal_at (4 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot3 (BitVec.ofNat 32 (i 0).val) x3 (S0 x0) (S1 x0) (S2 x0 x1) (S3 x0 x2) x4 x5 x6 x7 x8 x9 p q).trans
      (stepVal_at (3 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot2 (BitVec.ofNat 32 (i 0).val) x3 (S0 x0) (S1 x0) (S2 x0 x1) (S3 x0 x2) x4 x5 x6 x7 x8 x9 p q).trans
      (stepVal_at (2 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot1 (BitVec.ofNat 32 (i 0).val) x3 (S0 x0) (S1 x0) (S2 x0 x1) (S3 x0 x2) x4 x5 x6 x7 x8 x9 p q).trans
      (stepVal_at (1 : Fin 8) _ _ rfl rfl rfl p q (BitVec.ofNat 32 (i 0).val) x3 x4 x5 x6 x7 x8 x9 (S0 x0) (S1 x0) (S2 x0 x1) (S3 x0 x2)).symm
  · dsimp only
    obtain ⟨p, q, rfl⟩ := exists_ix3 x
    exact (slot0 (BitVec.ofNat 32 (i 0).val) x3 (S0 x0) (S1 x0) (S2 x0 x1) (S3 x0 x2) x4 x5 x6 x7 x8 x9 p q).trans
      (stepVal_at (0 : Fin 8) _ _ rfl rfl rfl p q (BitVec.ofNat 32 (i 0).val) x3 x4 x5 x6 x7 x8 x9 (S0 x0) (S1 x0) (S2 x0 x1) (S3 x0 x2)).symm

/-! ## The resident arrays: stored at the first grid point, carried unchanged afterwards -/

set_option maxHeartbeats 4000000 in
theorem scrA0 (c : Dev nD) (i : grid0.Coords) (arg1 : Memref sig .tc .vmem S1024x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S8x512x256 .f32) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S8x512x256 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x64 .f32) (harg14 : arg14.IsWhole) (arg15 : Memref sig .tc .vmem S1024x64 .f32) (harg15 : arg15.IsWhole) (hc0 : cond0_0 i)
    (x0 : Vec Ideal S1024x1024 .f32) (x1 : Vec Ideal S1024x64 .bf16) (x2 : Vec Ideal S1024x64 .bf16) (x3 : Vec Ideal S8x512x256 .f32) (x4 : Vec Ideal S1x256 .f32) (x5 : Vec Ideal S128x256 .bf16) (x6 : Vec Ideal S1x256 .f32) (x7 : Vec Ideal S1x128 .f32) (x8 : Vec Ideal S128x128 .bf16) (x9 : Vec Ideal S1x128 .f32) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = S0 x0 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread,
    View.ld_unit_zero (S := S1024x1024) hz2, View.ld_unit_zero (S := S1024x64) hz2]

set_option maxHeartbeats 4000000 in
theorem scrA1 (c : Dev nD) (i : grid0.Coords) (arg1 : Memref sig .tc .vmem S1024x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S8x512x256 .f32) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S8x512x256 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x64 .f32) (harg14 : arg14.IsWhole) (arg15 : Memref sig .tc .vmem S1024x64 .f32) (harg15 : arg15.IsWhole) (hc0 : cond0_0 i)
    (x0 : Vec Ideal S1024x1024 .f32) (x1 : Vec Ideal S1024x64 .bf16) (x2 : Vec Ideal S1024x64 .bf16) (x3 : Vec Ideal S8x512x256 .f32) (x4 : Vec Ideal S1x256 .f32) (x5 : Vec Ideal S128x256 .bf16) (x6 : Vec Ideal S1x256 .f32) (x7 : Vec Ideal S1x128 .f32) (x8 : Vec Ideal S128x128 .bf16) (x9 : Vec Ideal S1x128 .f32) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = S1 x0 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread,
    View.ld_unit_zero (S := S1024x1024) hz2, View.ld_unit_zero (S := S1024x64) hz2]

set_option maxHeartbeats 4000000 in
theorem scrA2 (c : Dev nD) (i : grid0.Coords) (arg1 : Memref sig .tc .vmem S1024x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S8x512x256 .f32) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S8x512x256 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x64 .f32) (harg14 : arg14.IsWhole) (arg15 : Memref sig .tc .vmem S1024x64 .f32) (harg15 : arg15.IsWhole) (hc0 : cond0_0 i)
    (x0 : Vec Ideal S1024x1024 .f32) (x1 : Vec Ideal S1024x64 .bf16) (x2 : Vec Ideal S1024x64 .bf16) (x3 : Vec Ideal S8x512x256 .f32) (x4 : Vec Ideal S1x256 .f32) (x5 : Vec Ideal S128x256 .bf16) (x6 : Vec Ideal S1x256 .f32) (x7 : Vec Ideal S1x128 .f32) (x8 : Vec Ideal S128x128 .bf16) (x9 : Vec Ideal S1x128 .f32) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = S2 x0 x1 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread,
    View.ld_unit_zero (S := S1024x1024) hz2, View.ld_unit_zero (S := S1024x64) hz2]

set_option maxHeartbeats 4000000 in
theorem scrA3 (c : Dev nD) (i : grid0.Coords) (arg1 : Memref sig .tc .vmem S1024x1024 .f32) (harg1 : arg1.IsWhole) (arg2 : Memref sig .tc .vmem S1024x64 .bf16) (harg2 : arg2.IsWhole) (arg3 : Memref sig .tc .vmem S1024x64 .bf16) (harg3 : arg3.IsWhole) (arg4 : Memref sig .tc .vmem S8x512x256 .f32) (harg4 : arg4.IsWhole) (arg5 : Memref sig .tc .vmem S1x256 .f32) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x128 .f32) (harg10 : arg10.IsWhole) (arg11 : Memref sig .tc .vmem S8x512x256 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x64 .f32) (harg14 : arg14.IsWhole) (arg15 : Memref sig .tc .vmem S1024x64 .f32) (harg15 : arg15.IsWhole) (hc0 : cond0_0 i)
    (x0 : Vec Ideal S1024x1024 .f32) (x1 : Vec Ideal S1024x64 .bf16) (x2 : Vec Ideal S1024x64 .bf16) (x3 : Vec Ideal S8x512x256 .f32) (x4 : Vec Ideal S1x256 .f32) (x5 : Vec Ideal S128x256 .bf16) (x6 : Vec Ideal S1x256 .f32) (x7 : Vec Ideal S1x128 .f32) (x8 : Vec Ideal S128x128 .bf16) (x9 : Vec Ideal S1x128 .f32) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = S3 x0 x2 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread,
    View.ld_unit_zero (S := S1024x1024) hz2, View.ld_unit_zero (S := S1024x64) hz2]

section Points

variable (m : (ℓ : Loc nD τ sig) → Buf (Elt Ideal) ℓ) (c : Dev nD)

/-- The first grid point. -/
abbrev tz : Fin cfg0.N := ⟨0, by rw [show cfg0.N = 8 from N_0]; norm_num⟩

/-- The four resident arrays, from the blocks the first grid point reads. -/
abbrev R0 : Vec Ideal S1024x1024 .bf16 := S0 (iblk m c 0 tz)
abbrev R1 : Vec Ideal S1024x1024 .bf16 := S1 (iblk m c 0 tz)
abbrev R2 : Vec Ideal S1024x64 .f32 := S2 (iblk m c 0 tz) (iblk m c 1 tz)
abbrev R3 : Vec Ideal S1024x64 .f32 := S3 (iblk m c 0 tz) (iblk m c 2 tz)

set_option maxHeartbeats 4000000 in
/-- A grid point that stores the resident arrays leaves them computed from its own blocks. -/
theorem scr_A (t : Fin cfg0.N) (h0 : t.val % 8 = 0) :
    (outsAt0 m c t.val t.isLt).2
      = (S0 (iblk m c 0 t), S1 (iblk m c 0 t), S2 (iblk m c 0 t) (iblk m c 1 t), S3 (iblk m c 0 t) (iblk m c 2 t)) := by
  rw [outsAt0_A m c t h0]
  dsimp only
  rw [scrA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t),
    scrA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t),
    scrA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t),
    scrA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]

/-- After every grid point the carried scratch holds the four resident arrays. -/
theorem scr_const : ∀ (n : ℕ) (hn : n < cfg0.N), (outsAt0 m c n hn).2 = (R0 m c, R1 m c, R2 m c, R3 m c)
  | 0, hn => scr_A m c tz rfl
  | n + 1, hn => by
    have hN : cfg0.N = 8 := N_0
    have hB : ¬(⟨n + 1, hn⟩ : Fin cfg0.N).val % 8 = 0 := by dsimp only; omega
    rw [outsAt0_B m c ⟨n + 1, hn⟩ hB]
    unfold sout0_B_0 sout0_B_1 sout0_B_2 sout0_B_3
    exact scr_const n (Nat.lt_of_succ_lt hn)

set_option maxHeartbeats 4000000 in
/-- What grid point `t` leaves in the output's staging buffer: the step's output over the resident arrays. -/
theorem point_out (t : Fin cfg0.N) :
    (outsAt0 m c t.val t.isLt).1
      = stepVal (BitVec.ofNat 32 ((grid0.coords t) 0).val) (iblk m c 3 t) (iblk m c 4 t) (iblk m c 5 t) (iblk m c 6 t)
          (iblk m c 7 t) (iblk m c 8 t) (iblk m c 9 t) (R0 m c) (R1 m c) (R2 m c) (R3 m c) := by
  have hN : cfg0.N = 8 := N_0
  by_cases h0 : t.val % 8 = 0
  · have ht : t = tz := Fin.ext (by have := t.isLt; show t.val = 0; omega)
    subst ht
    rw [outsAt0_A m c tz h0]
    dsimp only
    exact outA c (grid0.coords tz) (ms0_0 tz) (hs0_0 tz) (ms0_1 tz) (hs0_1 tz) (ms0_2 tz) (hs0_2 tz) (ms0_3 tz) (hs0_3 tz) (ms0_4 tz) (hs0_4 tz) (ms0_5 tz) (hs0_5 tz) (ms0_6 tz) (hs0_6 tz) (ms0_7 tz) (hs0_7 tz) (ms0_8 tz) (hs0_8 tz) (ms0_9 tz) (hs0_9 tz) (ms0_10 tz) (hs0_10 tz) scM0_0 (Memref.isWhole_whole _) scM0_1 (Memref.isWhole_whole _) scM0_2 (Memref.isWhole_whole _) scM0_3 (Memref.isWhole_whole _) ((hcond0_0 tz).mpr h0) (iblk m c 0 tz) (iblk m c 1 tz) (iblk m c 2 tz) (iblk m c 3 tz) (iblk m c 4 tz) (iblk m c 5 tz) (iblk m c 6 tz) (iblk m c 7 tz) (iblk m c 8 tz) (iblk m c 9 tz)
  · rw [outsAt0_B m c t h0]
    dsimp only
    have hs := scr_const m c (t.val - 1) (Nat.lt_of_le_of_lt (Nat.sub_le _ _) t.isLt)
    refine (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).trans ?_
    rw [show (outsAt0 m c (t.val - 1) (Nat.lt_of_le_of_lt (Nat.sub_le _ _) t.isLt)).2.1 = R0 m c from congrArg (·.1) hs,
      show (outsAt0 m c (t.val - 1) (Nat.lt_of_le_of_lt (Nat.sub_le _ _) t.isLt)).2.2.1 = R1 m c from congrArg (·.2.1) hs,
      show (outsAt0 m c (t.val - 1) (Nat.lt_of_le_of_lt (Nat.sub_le _ _) t.isLt)).2.2.2.1 = R2 m c from congrArg (·.2.2.1) hs,
      show (outsAt0 m c (t.val - 1) (Nat.lt_of_le_of_lt (Nat.sub_le _ _) t.isLt)).2.2.2.2 = R3 m c from congrArg (·.2.2.2) hs]

end Points

end Cert.KPieces
end
-- ==== Proof.LawPerm.lean ====
/-
  The evens-then-odds node order and the convolution split into its node-input column and its hidden columns.

  `Spec.perm` is a bijection of the 1024 nodes, so a sum over positions of a function of `perm j` is the sum over
  nodes. A flat [512, 256] view of a batch's hidden row (row p holds nodes 2p and 2p + 1, 128 lanes each), stacked
  evens-then-odds, reads at position j, lane g the hidden unit g of node `perm j`. With these two facts the
  specification's convolution (129 columns: the node input, then the 128 hidden units) is the sum over the hidden
  columns, aggregated in the permuted order, plus the node-input column, plus the bias. Only commutativity and
  associativity of the extended reals' addition are used.
-/
import proofs.«180865_g44452911513920_cont_8to1_c_104_44_alg».proof.Proof.Spec
import proofs.«180865_g44452911513920_cont_8to1_c_104_44_alg».proof.Proof.KSpec

noncomputable section

namespace Cert.Law

open Idealize.ShloMosaic Cert.Spec Cert.KSpec

/-- The node order is injective … -/
theorem perm_injective : Function.Injective Cert.Spec.perm := by
  intro i j h
  have hv := congrArg Fin.val h
  have hi := i.isLt; have hj := j.isLt
  unfold Cert.Spec.perm at hv
  apply Fin.ext
  split at hv <;> split at hv <;> dsimp only at hv <;> omega

/-- … hence a bijection of the nodes. -/
def permEquiv : Fin 1024 ≃ Fin 1024 :=
  Equiv.ofBijective Cert.Spec.perm (Finite.injective_iff_bijective.mp perm_injective)

theorem permEquiv_apply (j : Fin 1024) : permEquiv j = Cert.Spec.perm j := rfl

/-- A sum over positions of a function of the node at the position is the sum over nodes. -/
theorem sum_perm (f : Fin 1024 → EReal) : ∑ j : Fin 1024, f (Cert.Spec.perm j) = ∑ k : Fin 1024, f k :=
  Equiv.sum_comp permEquiv f

/-- The flat view of a hidden row, stacked evens-then-odds, at position j and lane g is unit g of node `perm j`. -/
theorem stack_flat (hh : Fin 131072 → EReal) (j : Fin 1024) (g : Fin 128) :
    stack (fun p q => hh ⟨256 * p.val + q.val, by have := p.isLt; have := q.isLt; omega⟩) j g
      = hh ⟨(Cert.Spec.perm j).val * 128 + g.val, by have := (Cert.Spec.perm j).isLt; have := g.isLt; omega⟩ := by
  have hj := j.isLt; have hg := g.isLt
  unfold stack
  by_cases h : j.val < 512
  · rw [dif_pos h]
    have e : (Cert.Spec.perm j).val = 2 * j.val := by unfold Cert.Spec.perm; rw [dif_pos h]
    exact congrArg hh (Fin.ext (by show 256 * j.val + g.val = (Cert.Spec.perm j).val * 128 + g.val; omega))
  · rw [dif_neg h]
    have e : (Cert.Spec.perm j).val = 2 * (j.val - 512) + 1 := by unfold Cert.Spec.perm; rw [dif_neg h]
    exact congrArg hh (Fin.ext (by
      show 256 * (j.val - 512) + (128 + g.val) = (Cert.Spec.perm j).val * 128 + g.val; omega))

variable (a : Cert.Spec.Args)

/-- Column 0 of a layer's input is the node input … -/
theorem cat_zero (hh : Fin 64 → Fin 131072 → EReal) (b : Fin 64) (k : Fin 1024) :
    cat a hh b k 0 = a.x b k := if_pos rfl

/-- … and column 1 + g is unit g of the hidden state. -/
theorem cat_succ (hh : Fin 64 → Fin 131072 → EReal) (b : Fin 64) (k : Fin 1024) (g : Fin 128) :
    cat a hh b k g.succ = hh b ⟨k.val * 128 + g.val, by have := k.isLt; have := g.isLt; omega⟩ := by
  unfold cat
  rw [if_neg (by show ¬ g.val + 1 = 0; omega)]
  exact congrArg (hh b) (Fin.ext (by show k.val * 128 + (g.val + 1 - 1) = k.val * 128 + g.val; omega))

/-- The convolution, split: the hidden columns aggregated in the permuted order over the stacked flat view, plus the
    node-input column, plus the bias. -/
theorem conv_split {O : Nat} (hh : Fin 64 → Fin 131072 → EReal) (W : Fin 129 → Fin O → EReal) (bias : Fin O → EReal)
    (b : Fin 64) (n : Fin 1024) (o : Fin O) :
    conv a hh W bias b n o
      = ((∑ g : Fin 128, (∑ j : Fin 1024, a.A n (Cert.Spec.perm j)
              * stack (fun p q => hh b ⟨256 * p.val + q.val, by have := p.isLt; have := q.isLt; omega⟩) j g)
            * W g.succ o)
          + (∑ k : Fin 1024, a.A n k * a.x b k) * W 0 o) + bias o := by
  unfold conv
  rw [Fin.sum_univ_succ]
  simp only [cat_zero, cat_succ]
  rw [add_comm ((∑ k : Fin 1024, a.A n k * a.x b k) * W 0 o)]
  congr 2
  refine Finset.sum_congr rfl fun g _ => ?_
  congr 1
  rw [← sum_perm (fun k => a.A n k * hh b ⟨k.val * 128 + g.val, by have := k.isLt; have := g.isLt; omega⟩)]
  refine Finset.sum_congr rfl fun j _ => ?_
  rw [stack_flat (hh b) j g]

end Cert.Law

end
-- ==== Proof.Law.lean ====
/-
  The fused step's formula is the specification.

  One grid step handles the eight batches 8 * pid + t. Instantiated at the argument arrays (`kin`), what the step
  computes for slot t at row p, lane q of the flat view is the specification's new hidden state at batch
  8 * pid + t, flat position 256 * p + q. The two layers are the specification's convolutions by the split of
  LawPerm (at node n for the first layer, at node `perm r` for the second, whose rows come in the permuted order);
  the flat positions of the gates and of the candidate are index arithmetic; and the last step,
  c + u * (h - c) = u * h + (1 - u) * c, holds because the three values are real numbers: the logistic and the tanh
  of any extended real are real, and the hidden state is real by hypothesis. This is the only place finiteness
  is used, and only of the hidden state.
-/
import proofs.«180865_g44452911513920_cont_8to1_c_104_44_alg».proof.Proof.Spec
import proofs.«180865_g44452911513920_cont_8to1_c_104_44_alg».proof.Proof.KSpec
import proofs.«180865_g44452911513920_cont_8to1_c_104_44_alg».proof.Proof.LawPerm

noncomputable section

namespace Cert.Law

open Idealize.ShloMosaic Cert.Spec Cert.KSpec

/-- The batch of slot t of step pid. -/
abbrev bat (pid t : Fin 8) : Fin 64 := ⟨8 * pid.val + t.val, by have := pid.isLt; have := t.isLt; omega⟩

/-- The flat position of row p, lane q. -/
abbrev flat (p : Fin 512) (q : Fin 256) : Fin 131072 := ⟨256 * p.val + q.val, by have := p.isLt; have := q.isLt; omega⟩

/-- What step pid reads, from the argument arrays. -/
def kin (a : Cert.Spec.Args) (pid : Fin 8) : Cert.KSpec.KIn where
  hg t p q := a.h ⟨8 * pid.val + t.val, by have := pid.isLt; have := t.isLt; omega⟩
    ⟨256 * p.val + q.val, by have := p.isLt; have := q.isLt; omega⟩
  AcP n j := a.A n (Cert.Spec.perm j)
  App r j := a.A (Cert.Spec.perm r) (Cert.Spec.perm j)
  axc n t := ∑ k : Fin 1024, a.A n k * a.x ⟨8 * pid.val + t.val, by have := pid.isLt; have := t.isLt; omega⟩ k
  axcP r t := ∑ k : Fin 1024, a.A (Cert.Spec.perm r) (Cert.Spec.perm k)
    * a.x ⟨8 * pid.val + t.val, by have := pid.isLt; have := t.isLt; omega⟩ (Cert.Spec.perm k)
  w1x o := a.W1 0 o
  W1h g o := a.W1 ⟨g.val + 1, by have := g.isLt; omega⟩ o
  b1 := a.b1
  w2x o := a.W2 0 o
  W2h g o := a.W2 ⟨g.val + 1, by have := g.isLt; omega⟩ o
  b2 := a.b2

variable (a : Cert.Spec.Args) (pid : Fin 8)

/-- The reset hidden state of the specification. -/
abbrev rhS : Fin 64 → Fin 131072 → EReal := fun b j => Cert.Spec.r a b j * a.h b j

/-- The first layer's pre-activation is the specification's convolution of the hidden state. -/
theorem pre1_eq (t : Fin 8) (n : Fin 1024) (o : Fin 256) :
    pre1 (kin a pid) t n o = conv a a.h a.W1 a.b1 (bat pid t) n o := by
  rw [conv_split]
  rfl

/-- The gates are the specification's. -/
theorem sg_eq (t : Fin 8) (n : Fin 1024) (o : Fin 256) :
    sg (kin a pid) t n o = Cert.Spec.s a (bat pid t) n o := by
  unfold sg Cert.Spec.s
  rw [pre1_eq]

/-- The reset hidden rows are the flat view of the specification's reset hidden state. -/
theorem rh_eq (t : Fin 8) :
    rh (kin a pid) t = fun p q => rhS a (bat pid t) ⟨256 * p.val + q.val, by have := p.isLt; have := q.isLt; omega⟩ := by
  funext p q
  have hp := p.isLt; have hq := q.isLt
  unfold rh
  rw [sg_eq]
  show Cert.Spec.s a (bat pid t) ⟨p.val, by omega⟩ q * a.h (bat pid t) (flat p q)
    = Cert.Spec.r a (bat pid t) (flat p q) * a.h (bat pid t) (flat p q)
  congr 1
  unfold Cert.Spec.r
  exact congrArg₂ (Cert.Spec.s a (bat pid t))
    (Fin.ext (by show p.val = (256 * p.val + q.val) / 256; omega))
    (Fin.ext (by show q.val = (256 * p.val + q.val) % 256; omega))

/-- The second layer's pre-activation at permuted row r is the specification's convolution of the reset hidden state
    at node `perm r`. -/
theorem pre2_eq (t : Fin 8) (r : Fin 1024) (o : Fin 128) :
    pre2 (kin a pid) t r o = conv a (rhS a) a.W2 a.b2 (bat pid t) (Cert.Spec.perm r) o := by
  rw [conv_split]
  unfold pre2
  rw [rh_eq]
  show ((∑ g : Fin 128, (∑ j : Fin 1024, a.A (Cert.Spec.perm r) (Cert.Spec.perm j)
          * stack (fun p q => rhS a (bat pid t) ⟨256 * p.val + q.val, by have := p.isLt; have := q.isLt; omega⟩) j g)
        * a.W2 ⟨g.val + 1, by have := g.isLt; omega⟩ o)
      + (∑ k : Fin 1024, a.A (Cert.Spec.perm r) (Cert.Spec.perm k) * a.x (bat pid t) (Cert.Spec.perm k)) * a.W2 0 o)
      + a.b2 o = _
  rw [sum_perm (fun k => a.A (Cert.Spec.perm r) k * a.x (bat pid t) k)]
  rfl

/-- The candidate read back in the flat view is the specification's. -/
theorem cc_eq (t : Fin 8) (p : Fin 512) (q : Fin 256) :
    cc (kin a pid) t p q = Cert.Spec.c a (bat pid t) (flat p q) := by
  have hp := p.isLt; have hq := q.isLt
  unfold cc cP Cert.Spec.c
  by_cases h : q.val < 128
  · rw [dif_pos h, pre2_eq]
    have e : (Cert.Spec.perm ⟨p.val, by omega⟩).val = 2 * p.val := by
      unfold Cert.Spec.perm; rw [dif_pos (show p.val < 512 from hp)]
    exact congrArg Ideal.tanh (congrArg₂ (conv a (rhS a) a.W2 a.b2 (bat pid t))
      (Fin.ext (by show (Cert.Spec.perm ⟨p.val, by omega⟩).val = (256 * p.val + q.val) / 128; omega))
      (Fin.ext (by show q.val = (256 * p.val + q.val) % 128; omega)))
  · rw [dif_neg h, pre2_eq]
    have e : (Cert.Spec.perm ⟨512 + p.val, by omega⟩).val = 2 * (512 + p.val - 512) + 1 := by
      unfold Cert.Spec.perm; rw [dif_neg (show ¬ 512 + p.val < 512 by omega)]
    exact congrArg Ideal.tanh (congrArg₂ (conv a (rhS a) a.W2 a.b2 (bat pid t))
      (Fin.ext (by show (Cert.Spec.perm ⟨512 + p.val, by omega⟩).val = (256 * p.val + q.val) / 128; omega))
      (Fin.ext (by show q.val - 128 = (256 * p.val + q.val) % 128; omega)))

/-- The update gate at row 512 + p, lane q is the specification's at the flat position. -/
theorem u_eq (t : Fin 8) (p : Fin 512) (q : Fin 256) :
    sg (kin a pid) t ⟨512 + p.val, by have := p.isLt; omega⟩ q = Cert.Spec.u a (bat pid t) (flat p q) := by
  have hp := p.isLt; have hq := q.isLt
  rw [sg_eq]
  unfold Cert.Spec.u
  exact congrArg₂ (Cert.Spec.s a (bat pid t))
    (Fin.ext (by show 512 + p.val = 512 + (256 * p.val + q.val) / 256; omega))
    (Fin.ext (by show q.val = (256 * p.val + q.val) % 256; omega))

/-- The logistic of any extended real is a real number. -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The tanh of any extended real is a real number. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- For real u, h, c: c + u * (h - c) = u * h + (1 - u) * c. -/
theorem gate_identity (u h c : ℝ) :
    (c : EReal) + (u : EReal) * ((h : EReal) - (c : EReal)) = (u : EReal) * (h : EReal) + (1 - (u : EReal)) * (c : EReal) := by
  rw [← EReal.coe_one, ← EReal.coe_sub, ← EReal.coe_sub, ← EReal.coe_mul, ← EReal.coe_mul, ← EReal.coe_mul,
    ← EReal.coe_add, ← EReal.coe_add]
  congr 1
  ring

/-- The step's output is the specification's new hidden state, when the hidden state's entries are real numbers. -/
theorem outK_eq_G (hh : ∀ b j, ∃ r : ℝ, a.h b j = (r : EReal)) (t : Fin 8) (p : Fin 512) (q : Fin 256) :
    outK (kin a pid) t p q
      = Cert.Spec.G a ⟨8 * pid.val + t.val, by have := pid.isLt; have := t.isLt; omega⟩
          ⟨256 * p.val + q.val, by have := p.isLt; have := q.isLt; omega⟩ := by
  show outK (kin a pid) t p q = Cert.Spec.G a (bat pid t) (flat p q)
  unfold outK Cert.Spec.G
  rw [cc_eq, u_eq]
  show Cert.Spec.c a (bat pid t) (flat p q)
      + Cert.Spec.u a (bat pid t) (flat p q) * (a.h (bat pid t) (flat p q) - Cert.Spec.c a (bat pid t) (flat p q))
    = Cert.Spec.u a (bat pid t) (flat p q) * a.h (bat pid t) (flat p q)
      + (1 - Cert.Spec.u a (bat pid t) (flat p q)) * Cert.Spec.c a (bat pid t) (flat p q)
  obtain ⟨ur, hu⟩ : ∃ ur : ℝ, Cert.Spec.u a (bat pid t) (flat p q) = (ur : EReal) := logistic_real _
  obtain ⟨cr, hc⟩ : ∃ cr : ℝ, Cert.Spec.c a (bat pid t) (flat p q) = (cr : EReal) := tanh_real _
  obtain ⟨hr, hh'⟩ := hh (bat pid t) (flat p q)
  rw [hu, hc, hh']
  exact gate_identity ur hr cr

end Cert.Law

end
-- ==== Proof.Step0OneHot.lean ====
/-
  The integer part of the kernel's first grid step: the two 0/1 permutation matrices built from integer iotas, and the
  one-hot batch-selection matrix of every step, read at an index.

  The kernel orders the nodes evens first, then odds: position `j < 512` holds node `2 j`, position `512 + j'` holds node
  `2 j' + 1` (`Cert.Spec.perm`). It computes that node as `2 j - 1023 * floor (2 j / 1024)` in signed 32-bit words, the
  floor division spelt with the truncating quotient, the remainder and a select. For `j < 1024` the dividend `2 j` is
  nonnegative and below `2 ^ 31`, so nothing wraps, the select keeps the truncating quotient, and that quotient is `0` for
  `j < 512` and `1` otherwise. A comparison bit widened to a word and converted to a float is `1` or `0`.
-/
import proofs.«180865_g44452911513920_cont_8to1_c_104_44_alg».proof.Proof.Gen.KernelIdeal.Skeleton
import proofs.«180865_g44452911513920_cont_8to1_c_104_44_alg».proof.Proof.Spec
import Idealize.ShloMosaic.Lib.ValueIdx
import Idealize.ShloMosaic.Lib.Affine
import Idealize.ShloMosaic.Lib.Pipeline.Value
import Idealize.ShloMosaic.PureOps.Ideal.Laws

noncomputable section

namespace Cert.Step0

open Cert.KernelIdeal Cert.KernelIdeal.Gen Idealize.ShloMosaic Idealize.ShloMosaic.ValueIdx

/-! ## Words: the floor division by 1024 and the evens-then-odds position, lane by lane -/

/-- A lane's floor division by 1024 as the kernel spells it: the truncating quotient, lowered by one when the signs of
    dividend and divisor differ and the remainder is not zero. -/
def fdiv (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 1024#32 0#32)) (Scalar.extui (Scalar.cmpi .slt 1024#32 0#32))))
      (IntOp.cmpi .ne (IntOp.remsi .vector x 1024#32) 0#32))
    (IntOp.subi (IntOp.divsi .vector x 1024#32) 1#32)
    (IntOp.divsi .vector x 1024#32)

/-- The node a position holds, as a word: `2 c - 1023 * floor (2 c / 1024)`. -/
def permWord (c : BitVec 32) : BitVec 32 :=
  IntOp.subi (IntOp.muli 2#32 c) (IntOp.muli 1023#32 (fdiv (IntOp.muli 2#32 c)))

theorem two_mul_toNat (j : Nat) (hj : j < 1024) : (IntOp.muli 2#32 (BitVec.ofNat 32 j)).toNat = 2 * j := by
  rw [IntOp.muli, BitVec.toNat_mul, BitVec.toNat_ofNat, BitVec.toNat_ofNat]
  omega

/-- The truncating quotient of a nonnegative lane by 1024. -/
theorem divsi_toNat (x : BitVec 32) (hx : 2 * x.toNat < 2 ^ 32) :
    (IntOp.divsi .vector x 1024#32).toNat = x.toNat / 1024 := by
  have hm : x.msb = false := by rw [BitVec.msb_eq_false_iff_two_mul_lt]; exact hx
  have hk : (1024#32 : BitVec 32).msb = false := by decide
  rw [IntOp.divsi, if_neg (IntOp.not_corner_of_pos (by decide)), BitVec.sdiv_eq, hm, hk]
  show (x / 1024#32).toNat = _
  rw [BitVec.toNat_udiv]
  rfl

/-- On a nonnegative lane the correction never applies: the floor division is the truncating quotient. -/
theorem fdiv_eq (x : BitVec 32) (hx : 2 * x.toNat < 2 ^ 32) : fdiv x = IntOp.divsi .vector x 1024#32 := by
  unfold fdiv
  rw [Scalar.select, if_neg]
  intro h
  change _ = 1#1 at h
  rw [IntOp.andi_eq_one, IntOp.cmpi_ne, IntOp.cmpi_ne] at h
  obtain ⟨h1, h2⟩ := h
  apply h1
  have hx0 : x.toNat ≠ 0 := by
    intro h0
    apply h2
    have : x = 0#32 := BitVec.eq_of_toNat_eq (by rw [h0]; rfl)
    subst this
    decide
  have hi : x.toInt = x.toNat := BitVec.toInt_eq_toNat_of_lt hx
  have hs : IntOp.cmpi .sgt x 0#32 = 1#1 := by
    rw [IntOp.cmpi_sgt, hi, show (0#32 : BitVec 32).toInt = 0 from by decide]
    omega
  have hl : IntOp.cmpi .slt x 0#32 = 0#1 := by
    apply eq_zero_of_ne_one
    rw [IntOp.cmpi_slt, hi, show (0#32 : BitVec 32).toInt = 0 from by decide]
    omega
  rw [hs, hl]
  decide

theorem fdiv_toNat (j : Nat) (hj : j < 1024) :
    (fdiv (IntOp.muli 2#32 (BitVec.ofNat 32 j))).toNat = 2 * j / 1024 := by
  have h2 := two_mul_toNat j hj
  rw [fdiv_eq _ (by rw [h2]; omega), divsi_toNat _ (by rw [h2]; omega), h2]

/-- The word of position `j` is the node `Spec.perm j`. -/
theorem permWord_ofNat (j : Fin 1024) : permWord (BitVec.ofNat 32 j.val) = BitVec.ofNat 32 (Cert.Spec.perm j).val := by
  have hj := j.isLt
  have h2 := two_mul_toNat j.val hj
  have hf := fdiv_toNat j.val hj
  apply BitVec.eq_of_toNat_eq
  unfold permWord
  rw [IntOp.subi, BitVec.toNat_sub, h2, BitVec.toNat_ofNat]
  show (2 ^ 32 - (1023#32 * fdiv (IntOp.muli 2#32 (BitVec.ofNat 32 j.val))).toNat + 2 * j.val) % 2 ^ 32 = _
  rw [BitVec.toNat_mul, hf, BitVec.toNat_ofNat]
  unfold Cert.Spec.perm
  by_cases hlt : j.val < 512
  · have hq : 2 * j.val / 1024 = 0 := by omega
    rw [dif_pos hlt, hq]
    show (2 ^ 32 - 1023 % 2 ^ 32 * 0 % 2 ^ 32 + 2 * j.val) % 2 ^ 32 = (2 * j.val) % 2 ^ 32
    omega
  · have hq : 2 * j.val / 1024 = 1 := by omega
    rw [dif_neg hlt, hq]
    show (2 ^ 32 - 1023 % 2 ^ 32 * 1 % 2 ^ 32 + 2 * j.val) % 2 ^ 32 = (2 * (j.val - 512) + 1) % 2 ^ 32
    omega

/-! ## The 0/1 matrices at an index -/

theorem ofNat_inj_lt {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

/-- A widened comparison bit converted to a float: `1` when the two words agree, else `0`. -/
theorem onehot_cast (a b : BitVec 32) :
    ((((IntOp.cmpi .eq a b).setWidth 32).toInt : ℝ) : EReal) = if a = b then 1 else 0 := by
  by_cases h : a = b
  · rw [if_pos h, IntOp.cmpi_eq.mpr h, show ((1#1 : BitVec 1).setWidth 32).toInt = 1 from by decide, Int.cast_one, EReal.coe_one]
  · rw [if_neg h, eq_zero_of_ne_one (mt IntOp.cmpi_eq.mp h), show ((0#1 : BitVec 1).setWidth 32).toInt = 0 from by decide,
      Int.cast_zero, EReal.coe_zero]

/-- The column-selection matrix `P`: entry `(k, j)` is `1` exactly when `k` is the node position `j` holds. -/
theorem pay4_apply (k j : Fin 1024) :
    k0_pay4 (F := Ideal) (ix2 k j) = if k = Cert.Spec.perm j then 1 else 0 := by
  have e : k0_pay4 (F := Ideal) (ix2 k j)
      = ((((IntOp.cmpi .eq (iota .tc S1024x1024 32 [0] iota_S1024x1024_d0_w32 (ix2 k j))
          (permWord (iota .tc S1024x1024 32 [1] iota_S1024x1024_d1_w32 (ix2 k j)))).setWidth 32).toInt : ℝ) : EReal) := rfl
  rw [e, iota_single_apply, iota_single_apply]
  show ((((IntOp.cmpi .eq (BitVec.ofNat 32 k.val) (permWord (BitVec.ofNat 32 j.val))).setWidth 32).toInt : ℝ) : EReal) = _
  rw [permWord_ofNat, onehot_cast]
  have hk := k.isLt
  have hp := (Cert.Spec.perm j).isLt
  refine if_congr ?_ rfl rfl
  rw [ofNat_inj_lt (by omega) (by omega)]
  exact Fin.val_inj

/-- The row-selection matrix (the transpose of `P`), lane by lane: entry `(r, k)` compares the column number `k`
    with the word of the row number `r`. -/
def Pt : FVec Ideal S1024x1024 .bf16 := fun i =>
  ((((IntOp.cmpi .eq (iota .tc S1024x1024 32 [1] iota_S1024x1024_d1_w32 i)
      (permWord (iota .tc S1024x1024 32 [0] iota_S1024x1024_d0_w32 i))).setWidth 32).toInt : ℝ) : EReal)

/-- Entry `(r, k)` of the row-selection matrix is `1` exactly when `k` is the node position `r` holds. -/
theorem Pt_apply (r k : Fin 1024) : Pt (ix2 r k) = if k = Cert.Spec.perm r then 1 else 0 := by
  unfold Pt
  rw [iota_single_apply, iota_single_apply]
  show ((((IntOp.cmpi .eq (BitVec.ofNat 32 k.val) (permWord (BitVec.ofNat 32 r.val))).setWidth 32).toInt : ℝ) : EReal) = _
  rw [permWord_ofNat, onehot_cast]
  have hk := k.isLt
  have hp := (Cert.Spec.perm r).isLt
  refine if_congr ?_ rfl rfl
  rw [ofNat_inj_lt (by omega) (by omega)]
  exact Fin.val_inj

/-- The batch-selection matrix of grid step `p`: entry `(i, t)` is `1` exactly when `i = 8 p + t`. -/
theorem pay37_apply (p : Fin 8) (i : Fin 64) (t : Fin 8) :
    k0_pay37 (F := Ideal) (BitVec.ofNat 32 p.val) (ix2 i t) = if i.val = 8 * p.val + t.val then 1 else 0 := by
  have e : k0_pay37 (F := Ideal) (BitVec.ofNat 32 p.val) (ix2 i t)
      = ((((IntOp.cmpi .eq (iota .tc S64x8 32 [0] iota_S64x8_d0_w32 (ix2 i t))
          (IntOp.addi (Scalar.addi (Scalar.muli (BitVec.ofNat 32 p.val) 8#32) 0#32)
            (iota .tc S64x8 32 [1] iota_S64x8_d1_w32 (ix2 i t)))).setWidth 32).toInt : ℝ) : EReal) := rfl
  rw [e, iota_single_apply, iota_single_apply]
  show ((((IntOp.cmpi .eq (BitVec.ofNat 32 i.val)
    (IntOp.addi (Scalar.addi (Scalar.muli (BitVec.ofNat 32 p.val) 8#32) 0#32) (BitVec.ofNat 32 t.val))).setWidth 32).toInt : ℝ) : EReal) = _
  have hp := p.isLt
  have ht := t.isLt
  have hi := i.isLt
  have hw : IntOp.addi (Scalar.addi (Scalar.muli (BitVec.ofNat 32 p.val) 8#32) 0#32) (BitVec.ofNat 32 t.val)
      = BitVec.ofNat 32 (8 * p.val + t.val) := by
    apply BitVec.eq_of_toNat_eq
    show ((BitVec.ofNat 32 p.val * 8#32 + 0#32) + BitVec.ofNat 32 t.val).toNat = _
    simp only [BitVec.toNat_add, BitVec.toNat_mul, BitVec.toNat_ofNat]
    omega
  rw [hw, onehot_cast]
  refine if_congr ?_ rfl rfl
  rw [ofNat_inj_lt (by omega) (by omega)]

end Cert.Step0

end
-- ==== Proof.Step0MatMul.lean ====
/-
  A matrix product into the zero accumulator, read at an index over the extended reals: the plain finite sum over the
  one contracted axis, `∑ k, L (n, k) * R (k, j)`, for the three product shapes the first grid step and the batch
  extraction use ([1024,1024]·[1024,1024], [1024,1024]·[1024,64], [1024,64]·[64,8]). The contraction index of each
  product is re-indexed by its one coordinate.
-/
import proofs.«180865_g44452911513920_cont_8to1_c_104_44_alg».proof.Proof.Gen.KernelIdeal.Skeleton
import Idealize.ShloMosaic.Lib.ValueIdx
import Idealize.ShloMosaic.PureOps.Ideal.Laws

noncomputable section

namespace Cert.Step0

open Cert.KernelIdeal Cert.KernelIdeal.Gen Idealize.ShloMosaic Idealize.ShloMosaic.ValueIdx

theorem mm_sq_apply_lhs0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem mm_sq_apply_lhs1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mm_sq_apply_rhs0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mm_sq_apply_rhs1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The [1024,1024]·[1024,1024] product at `(n, j)`. -/
theorem mm_sq_apply (L : FVec Ideal S1024x1024 .bf16) (R : FVec Ideal S1024x1024 .bf16) (n : Fin 1024) (j : Fin 1024) :
    matmul dot_S1024x1024_S1024x1024_S1024x1024_1_0_0_1_n_n none L R (constant (F := Ideal) S1024x1024 .f32 0x00000000#32) (ix2 n j)
      = ∑ k : Fin 1024, L (ix2 n k) * R (ix2 k j) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 n j) ((contrEquiv1 dot_S1024x1024_S1024x1024_S1024x1024_1_0_0_1_n_n 1024 rfl rfl).symm k) = ix2 n k :=
    funext fun a => Fin.ext (by
      match a with
      | ⟨0, _⟩ => exact mm_sq_apply_lhs0 _ _
      | ⟨1, _⟩ => exact (mm_sq_apply_lhs1 _ _).trans hk)
  have er : dot_S1024x1024_S1024x1024_S1024x1024_1_0_0_1_n_n.rhsIdx (ix2 n j) ((contrEquiv1 dot_S1024x1024_S1024x1024_S1024x1024_1_0_0_1_n_n 1024 rfl rfl).symm k) = ix2 k j :=
    funext fun a => Fin.ext (by
      match a with
      | ⟨0, _⟩ => exact (mm_sq_apply_rhs0 _ _).trans hk
      | ⟨1, _⟩ => exact mm_sq_apply_rhs1 _ _)
  rw [el, er]

theorem mm_wide_apply_lhs0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem mm_wide_apply_lhs1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem mm_wide_apply_rhs0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem mm_wide_apply_rhs1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The [1024,1024]·[1024,64] product at `(n, b)`. -/
theorem mm_wide_apply (L : FVec Ideal S1024x1024 .bf16) (R : FVec Ideal S1024x64 .bf16) (n : Fin 1024) (j : Fin 64) :
    matmul dot_S1024x1024_S1024x64_S1024x64_1_0_0_1_n_n none L R (constant (F := Ideal) S1024x64 .f32 0x00000000#32) (ix2 n j)
      = ∑ k : Fin 1024, L (ix2 n k) * R (ix2 k j) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 n j) ((contrEquiv1 dot_S1024x1024_S1024x64_S1024x64_1_0_0_1_n_n 1024 rfl rfl).symm k) = ix2 n k :=
    funext fun a => Fin.ext (by
      match a with
      | ⟨0, _⟩ => exact mm_wide_apply_lhs0 _ _
      | ⟨1, _⟩ => exact (mm_wide_apply_lhs1 _ _).trans hk)
  have er : dot_S1024x1024_S1024x64_S1024x64_1_0_0_1_n_n.rhsIdx (ix2 n j) ((contrEquiv1 dot_S1024x1024_S1024x64_S1024x64_1_0_0_1_n_n 1024 rfl rfl).symm k) = ix2 k j :=
    funext fun a => Fin.ext (by
      match a with
      | ⟨0, _⟩ => exact (mm_wide_apply_rhs0 _ _).trans hk
      | ⟨1, _⟩ => exact mm_wide_apply_rhs1 _ _)
  rw [el, er]

theorem mm_pick_apply_lhs0 (i : S1024x8.Idx) (q : dot_S1024x64_S64x8_S1024x8_1_0_0_1_n_n.contr.Idx) : (dot_S1024x64_S64x8_S1024x8_1_0_0_1_n_n.lhsIdx i q 0).val = (i 0).val := by
  unfold DotDims.lhsIdx
  rw [dif_neg (show ¬(0 : Fin S1024x64.rank) ∈ dot_S1024x64_S64x8_S1024x8_1_0_0_1_n_n.lhsBatch by decide),
    dif_pos (show (0 : Fin S1024x64.rank) ∈ dot_S1024x64_S64x8_S1024x8_1_0_0_1_n_n.lhsNonContracting by decide)]
  rfl
theorem mm_pick_apply_lhs1 (i : S1024x8.Idx) (q : dot_S1024x64_S64x8_S1024x8_1_0_0_1_n_n.contr.Idx) : (dot_S1024x64_S64x8_S1024x8_1_0_0_1_n_n.lhsIdx i q 1).val = (q ⟨0, by decide⟩).val :=
  dot_S1024x64_S64x8_S1024x8_1_0_0_1_n_n.lhsIdx_val_of_single rfl i q
theorem mm_pick_apply_rhs0 (i : S1024x8.Idx) (q : dot_S1024x64_S64x8_S1024x8_1_0_0_1_n_n.contr.Idx) : (dot_S1024x64_S64x8_S1024x8_1_0_0_1_n_n.rhsIdx i q 0).val = (q ⟨0, by decide⟩).val :=
  dot_S1024x64_S64x8_S1024x8_1_0_0_1_n_n.rhsIdx_val_of_single rfl i q
theorem mm_pick_apply_rhs1 (i : S1024x8.Idx) (q : dot_S1024x64_S64x8_S1024x8_1_0_0_1_n_n.contr.Idx) : (dot_S1024x64_S64x8_S1024x8_1_0_0_1_n_n.rhsIdx i q 1).val = (i 1).val := by
  unfold DotDims.rhsIdx
  rw [dif_neg (show ¬(1 : Fin S64x8.rank) ∈ dot_S1024x64_S64x8_S1024x8_1_0_0_1_n_n.rhsBatch by decide),
    dif_pos (show (1 : Fin S64x8.rank) ∈ dot_S1024x64_S64x8_S1024x8_1_0_0_1_n_n.rhsNonContracting by decide)]
  rfl

/-- The [1024,64]·[64,8] product at `(n, t)`. -/
theorem mm_pick_apply (L : FVec Ideal S1024x64 .f32) (R : FVec Ideal S64x8 .f32) (n : Fin 1024) (j : Fin 8) :
    matmul dot_S1024x64_S64x8_S1024x8_1_0_0_1_n_n none L R (constant (F := Ideal) S1024x8 .f32 0x00000000#32) (ix2 n j)
      = ∑ k : Fin 64, L (ix2 n k) * R (ix2 k j) := by
  simp only [matmul]
  rw [Ideal.matmul_constant_zero_apply, ← Equiv.sum_comp (contrEquiv1 dot_S1024x64_S64x8_S1024x8_1_0_0_1_n_n 64 rfl rfl).symm]
  refine Finset.sum_congr rfl fun k _ => ?_
  have hk := contrEquiv1_symm_val dot_S1024x64_S64x8_S1024x8_1_0_0_1_n_n 64 rfl rfl k
  have el : dot_S1024x64_S64x8_S1024x8_1_0_0_1_n_n.lhsIdx (ix2 n j) ((contrEquiv1 dot_S1024x64_S64x8_S1024x8_1_0_0_1_n_n 64 rfl rfl).symm k) = ix2 n k :=
    funext fun a => Fin.ext (by
      match a with
      | ⟨0, _⟩ => exact mm_pick_apply_lhs0 _ _
      | ⟨1, _⟩ => exact (mm_pick_apply_lhs1 _ _).trans hk)
  have er : dot_S1024x64_S64x8_S1024x8_1_0_0_1_n_n.rhsIdx (ix2 n j) ((contrEquiv1 dot_S1024x64_S64x8_S1024x8_1_0_0_1_n_n 64 rfl rfl).symm k) = ix2 k j :=
    funext fun a => Fin.ext (by
      match a with
      | ⟨0, _⟩ => exact (mm_pick_apply_rhs0 _ _).trans hk
      | ⟨1, _⟩ => exact mm_pick_apply_rhs1 _ _)
  rw [el, er]

end Cert.Step0

end
-- ==== Proof.Step0Scratch.lean ====
/-
  The four arrays the kernel's first grid step stores, read at an index over the extended reals, with `A` the
  [1024,1024] adjacency block and `π = Cert.Spec.perm` the evens-then-odds node order:
    * `A · P`        at `(n, j)` is `A (n, π j)`        (the columns of `A` in the kernel's order);
    * `Pt · (A · P)` at `(r, j)` is `A (π r, π j)`      (rows and columns in the kernel's order);
    * `A · x`        at `(n, b)` is `∑ k, A (n, k) * x (k, b)`;
    * `(Pt · A · P) · x'` at `(r, b)` is `∑ k, A (π r, π k) * x' (k, b)`.
  `P` and `Pt` hold a single `1` in each column, respectively row, and `x * 1 = x`, `x * 0 = 0` for every extended
  real, so the sum against such a column or row collapses to one term; no finiteness is needed. The last section reads
  the extraction of eight batch columns by the one-hot matrix of a grid step the same way.
-/
import proofs.«180865_g44452911513920_cont_8to1_c_104_44_alg».proof.Proof.Step0OneHot
import proofs.«180865_g44452911513920_cont_8to1_c_104_44_alg».proof.Proof.Step0MatMul

noncomputable section

namespace Cert.Step0

open Cert.KernelIdeal Cert.KernelIdeal.Gen Idealize.ShloMosaic Idealize.ShloMosaic.ValueIdx

/-! ## The stored arrays -/

/-- `A · P` before the identity cast: the columns of `A` in the kernel's order. -/
theorem pay8_apply (A : Vec Ideal S1024x1024 .f32) (n j : Fin 1024) :
    k0_pay8 (F := Ideal) (k0_pay3 A) k0_pay4 (ix2 n j) = A (ix2 n (Cert.Spec.perm j)) := by
  have e : k0_pay8 (F := Ideal) (k0_pay3 A) k0_pay4 (ix2 n j)
      = matmul dot_S1024x1024_S1024x1024_S1024x1024_1_0_0_1_n_n none (k0_pay3 (F := Ideal) A) (k0_pay4 (F := Ideal))
          (constant (F := Ideal) S1024x1024 .f32 0x00000000#32) (ix2 n j) := rfl
  rw [e, mm_sq_apply, Finset.sum_eq_single (Cert.Spec.perm j)]
  · rw [pay4_apply, if_pos rfl, mul_one]
    rfl
  · intro k _ hk
    rw [pay4_apply, if_neg hk, mul_zero]
  · intro h
    exact absurd (Finset.mem_univ _) h

/-- The stored `A · P`. -/
theorem AcP_apply (A : Vec Ideal S1024x1024 .f32) (n j : Fin 1024) :
    k0_pay9 (F := Ideal) (k0_pay3 A) k0_pay4 (ix2 n j) = A (ix2 n (Cert.Spec.perm j)) := by
  unfold k0_pay9
  rw [shapeCast_self]
  exact pay8_apply A n j

/-- `Pt · (A · P)`: rows and columns of `A` in the kernel's order. -/
theorem pay10_apply (A : Vec Ideal S1024x1024 .f32) (r j : Fin 1024) :
    k0_pay10 (F := Ideal) (k0_pay3 A) (iota .tc S1024x1024 32 [1] iota_S1024x1024_d1_w32) k0_pay4 k0_pay5 k0_pay6 1024#32
        k0_pay7 (ix2 r j) = A (ix2 (Cert.Spec.perm r) (Cert.Spec.perm j)) := by
  have e : k0_pay10 (F := Ideal) (k0_pay3 A) (iota .tc S1024x1024 32 [1] iota_S1024x1024_d1_w32) k0_pay4 k0_pay5 k0_pay6
        1024#32 k0_pay7 (ix2 r j)
      = matmul dot_S1024x1024_S1024x1024_S1024x1024_1_0_0_1_n_n none Pt (k0_pay8 (F := Ideal) (k0_pay3 A) k0_pay4)
          (constant (F := Ideal) S1024x1024 .f32 0x00000000#32) (ix2 r j) := rfl
  rw [e, mm_sq_apply, Finset.sum_eq_single (Cert.Spec.perm r)]
  · rw [Pt_apply, if_pos rfl, one_mul, pay8_apply]
  · intro k _ hk
    rw [Pt_apply, if_neg hk, zero_mul]
  · intro h
    exact absurd (Finset.mem_univ _) h

/-- The stored `Pt · (A · P)`. -/
theorem App_apply (A : Vec Ideal S1024x1024 .f32) (r j : Fin 1024) :
    k0_pay11 (F := Ideal) (k0_pay3 A) (iota .tc S1024x1024 32 [1] iota_S1024x1024_d1_w32) k0_pay4 k0_pay5 k0_pay6 1024#32
        k0_pay7 (ix2 r j) = A (ix2 (Cert.Spec.perm r) (Cert.Spec.perm j)) := by
  unfold k0_pay11
  rw [shapeCast_self]
  exact pay10_apply A r j

/-- A [1024,1024]·[1024,64] product stored through identity casts, at `(r, b)`. -/
theorem pay14_apply (v : FVec Ideal S1024x1024 .bf16) (x : Vec Ideal S1024x64 .bf16) (r : Fin 1024) (b : Fin 64) :
    k0_pay14 (F := Ideal) v x (ix2 r b) = ∑ k : Fin 1024, (v (ix2 r k) : EReal) * (x (ix2 k b) : EReal) := by
  have e : k0_pay14 (F := Ideal) v x
      = shapeCast S1024x64 (matmul dot_S1024x1024_S1024x64_S1024x64_1_0_0_1_n_n none v
          (shapeCast S1024x64 x shapeCasts_S1024x64_S1024x64) (constant (F := Ideal) S1024x64 .f32 0x00000000#32))
          shapeCasts_S1024x64_S1024x64 := rfl
  rw [e, shapeCast_self, shapeCast_self, mm_wide_apply]

/-- The stored `A · x`. -/
theorem axf_apply (A : Vec Ideal S1024x1024 .f32) (xTn : Vec Ideal S1024x64 .bf16) (n : Fin 1024) (b : Fin 64) :
    k0_pay13 (F := Ideal) (k0_pay12 (k0_pay3 A) xTn) (ix2 n b)
      = ∑ k : Fin 1024, (A (ix2 n k) : EReal) * (xTn (ix2 k b) : EReal) := by
  have e : k0_pay13 (F := Ideal) (k0_pay12 (k0_pay3 A) xTn)
      = shapeCast S1024x64 (matmul dot_S1024x1024_S1024x64_S1024x64_1_0_0_1_n_n none (k0_pay3 (F := Ideal) A)
          (shapeCast S1024x64 xTn shapeCasts_S1024x64_S1024x64) (constant (F := Ideal) S1024x64 .f32 0x00000000#32))
          shapeCasts_S1024x64_S1024x64 := rfl
  rw [e, shapeCast_self, shapeCast_self, mm_wide_apply]
  rfl

/-- The stored `(Pt · A · P) · x'`. -/
theorem axP_apply (A : Vec Ideal S1024x1024 .f32) (xTP : Vec Ideal S1024x64 .bf16) (r : Fin 1024) (b : Fin 64) :
    k0_pay14 (F := Ideal) (k0_pay10 (k0_pay3 A) (iota .tc S1024x1024 32 [1] iota_S1024x1024_d1_w32) k0_pay4 k0_pay5 k0_pay6
        1024#32 k0_pay7) xTP (ix2 r b)
      = ∑ k : Fin 1024, (A (ix2 (Cert.Spec.perm r) (Cert.Spec.perm k)) : EReal) * (xTP (ix2 k b) : EReal) := by
  rw [pay14_apply]
  refine Finset.sum_congr rfl fun k _ => ?_
  rw [pay10_apply]

/-! ## Eight batch columns extracted by a grid step's one-hot matrix -/

/-- `v · M` at `(n, t)` is column `8 p + t` of `v`. -/
theorem pay38_apply (p : Fin 8) (v : Vec Ideal S1024x64 .f32) (n : Fin 1024) (t : Fin 8) :
    k0_pay38 (F := Ideal) (BitVec.ofNat 32 p.val) v (ix2 n t)
      = v (ix2 n (⟨8 * p.val + t.val, by have := p.isLt; have := t.isLt; omega⟩ : Fin 64)) := by
  have e : k0_pay38 (F := Ideal) (BitVec.ofNat 32 p.val) v (ix2 n t)
      = matmul dot_S1024x64_S64x8_S1024x8_1_0_0_1_n_n none v (k0_pay37 (F := Ideal) (BitVec.ofNat 32 p.val))
          (constant (F := Ideal) S1024x8 .f32 0x00000000#32) (ix2 n t) := rfl
  rw [e, mm_pick_apply,
    Finset.sum_eq_single (⟨8 * p.val + t.val, by have := p.isLt; have := t.isLt; omega⟩ : Fin 64)]
  · rw [pay37_apply, if_pos rfl, mul_one]
  · intro i _ hi
    rw [pay37_apply, if_neg (fun h => hi (Fin.ext h)), mul_zero]
  · intro h
    exact absurd (Finset.mem_univ _) h

/-- The same for the second extracted array. -/
theorem pay39_apply (p : Fin 8) (v : Vec Ideal S1024x64 .f32) (n : Fin 1024) (t : Fin 8) :
    k0_pay39 (F := Ideal) (BitVec.ofNat 32 p.val) v (ix2 n t)
      = v (ix2 n (⟨8 * p.val + t.val, by have := p.isLt; have := t.isLt; omega⟩ : Fin 64)) :=
  pay38_apply p v n t

end Cert.Step0

end
-- ==== Proof.HostA.lean ====
/-
  The operands of the kernel launch that the host builds by RESHAPING or SLICING one argument array, read at an index
  (at the ideal instance, where rounding to bf16 is the identity):
    * the hidden state `[64, 131072]` viewed `[64, 512, 256]`: entry `(b, p, q)` is the state at `(b, 256 p + q)`;
    * row `0` and rows `1 … 128` of each layer's weight matrix `[129, O]`;
    * each layer's bias `[O]` viewed as one row `[1, O]`.
-/
import proofs.«180865_g44452911513920_cont_8to1_c_104_44_alg».proof.Proof.Gen.KernelIdeal.Frame.Runs
import proofs.«180865_g44452911513920_cont_8to1_c_104_44_alg».proof.Proof.Spec
import Idealize.ShloMosaic.Lib.ValueLayout

noncomputable section

namespace Cert.HostPre

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## The hidden state, viewed `[64, 512, 256]` -/

/-- The reshaped hidden state at `(b, p, q)` is the hidden state at flat position `256 p + q` of batch `b`. -/
theorem v11_apply (b : Fin 64) (p : Fin 512) (q : Fin 256) :
    (V m c main_call0_v11 : S64x512x256.Idx → EReal) (ix3 b p q)
      = (m ((c : Thread nD τ).loc main_arg1) : S64x131072.Idx → EReal)
          (ix2 b ⟨p.val * 256 + q.val, by have := p.isLt; have := q.isLt; omega⟩) := by
  have e : (V m c main_call0_v11 : S64x512x256.Idx → EReal)
      = shapeCast S64x512x256 (m ((c : Thread nD τ).loc main_arg1) : S64x131072.Idx → EReal)
          shapeCasts_S64x131072_S64x512x256 := by
    show StableHlo.after hostOps0 (fun b => m (c, b)) (Proc.devRef .tc main_call0_v11) = _
    after_results; rfl
  refine (congrFun e _).trans (shapeCast_apply (s := S64x131072) (t := S64x512x256) _ _ _ _ ?_)
  rw [Shape.rowMajor_val_two, Shape.rowMajor_val_three]
  show b.val * 131072 + (p.val * 256 + q.val) = (b.val * 512 + p.val) * 256 + q.val
  omega

/-! ## The first layer's weights `[129, 256]` and bias `[256]` -/

/-- Row `0` of the first layer's weights. -/
theorem v21_apply (o : Fin 256) :
    (V m c main_call0_v21 : S1x256.Idx → EReal) (ix2 (0 : Fin 1) o)
      = (m ((c : Thread nD τ).loc main_arg3) : S129x256.Idx → EReal) (ix2 (0 : Fin 129) o) := by
  have e : (V m c main_call0_v21 : S1x256.Idx → EReal)
      = extractStridedSlice S1x256 ![0, 0] (m ((c : Thread nD τ).loc main_arg3) : S129x256.Idx → EReal)
          slices_S129x256_S1x256_0_0 := by
    show StableHlo.after hostOps0 (fun b => m (c, b)) (Proc.devRef .tc main_call0_v21) = _
    after_results; rfl
  exact (congrFun e _).trans (slice2_axis0_apply 0 _ _ 0 o 0 rfl)

/-- Rows `1 … 128` of the first layer's weights: row `g` of the slice is row `g + 1` of the matrix. -/
theorem v23_apply (g : Fin 128) (o : Fin 256) :
    (V m c main_call0_v23 : S128x256.Idx → EReal) (ix2 g o)
      = (m ((c : Thread nD τ).loc main_arg3) : S129x256.Idx → EReal)
          (ix2 ⟨g.val + 1, by have := g.isLt; omega⟩ o) := by
  have e : (V m c main_call0_v23 : S128x256.Idx → EReal)
      = (truncf (F := Ideal) .bf16 (extractStridedSlice S128x256 ![1, 0]
          (m ((c : Thread nD τ).loc main_arg3) : FVec Ideal S129x256 .f32) slices_S129x256_S128x256_1_0)
          bitsLt_bf16_f32 : FVec Ideal S128x256 .bf16) := by
    show StableHlo.after hostOps0 (fun b => m (c, b)) (Proc.devRef .tc main_call0_v23) = _
    after_results; rfl
  refine (congrFun e _).trans ?_
  rw [truncf_apply]
  exact slice2_axis0_apply 1 _ _ g o ⟨g.val + 1, by have := g.isLt; omega⟩ (Nat.add_comm _ _)

/-- The first layer's bias as one row. -/
theorem v27_apply (o : Fin 256) :
    (V m c main_call0_v27 : S1x256.Idx → EReal) (ix2 (0 : Fin 1) o)
      = (m ((c : Thread nD τ).loc main_arg4) : S256.Idx → EReal) (ix1 o) := by
  have e : (V m c main_call0_v27 : S1x256.Idx → EReal)
      = shapeCast S1x256 (m ((c : Thread nD τ).loc main_arg4) : S256.Idx → EReal) shapeCasts_S256_S1x256 := by
    show StableHlo.after hostOps0 (fun b => m (c, b)) (Proc.devRef .tc main_call0_v27) = _
    after_results; rfl
  exact (congrFun e _).trans (shapeCast_a_1a_apply _ _ 0 o)

/-! ## The second layer's weights `[129, 128]` and bias `[128]` -/

/-- Row `0` of the second layer's weights. -/
theorem v24_apply (o : Fin 128) :
    (V m c main_call0_v24 : S1x128.Idx → EReal) (ix2 (0 : Fin 1) o)
      = (m ((c : Thread nD τ).loc main_arg5) : S129x128.Idx → EReal) (ix2 (0 : Fin 129) o) := by
  have e : (V m c main_call0_v24 : S1x128.Idx → EReal)
      = extractStridedSlice S1x128 ![0, 0] (m ((c : Thread nD τ).loc main_arg5) : S129x128.Idx → EReal)
          slices_S129x128_S1x128_0_0 := by
    show StableHlo.after hostOps0 (fun b => m (c, b)) (Proc.devRef .tc main_call0_v24) = _
    after_results; rfl
  exact (congrFun e _).trans (slice2_axis0_apply 0 _ _ 0 o 0 rfl)

/-- Rows `1 … 128` of the second layer's weights: row `g` of the slice is row `g + 1` of the matrix. -/
theorem v26_apply (g : Fin 128) (o : Fin 128) :
    (V m c main_call0_v26 : S128x128.Idx → EReal) (ix2 g o)
      = (m ((c : Thread nD τ).loc main_arg5) : S129x128.Idx → EReal)
          (ix2 ⟨g.val + 1, by have := g.isLt; omega⟩ o) := by
  have e : (V m c main_call0_v26 : S128x128.Idx → EReal)
      = (truncf (F := Ideal) .bf16 (extractStridedSlice S128x128 ![1, 0]
          (m ((c : Thread nD τ).loc main_arg5) : FVec Ideal S129x128 .f32) slices_S129x128_S128x128_1_0)
          bitsLt_bf16_f32 : FVec Ideal S128x128 .bf16) := by
    show StableHlo.after hostOps0 (fun b => m (c, b)) (Proc.devRef .tc main_call0_v26) = _
    after_results; rfl
  refine (congrFun e _).trans ?_
  rw [truncf_apply]
  exact slice2_axis0_apply 1 _ _ g o ⟨g.val + 1, by have := g.isLt; omega⟩ (Nat.add_comm _ _)

/-- The second layer's bias as one row. -/
theorem v28_apply (o : Fin 128) :
    (V m c main_call0_v28 : S1x128.Idx → EReal) (ix2 (0 : Fin 1) o)
      = (m ((c : Thread nD τ).loc main_arg6) : S128.Idx → EReal) (ix1 o) := by
  have e : (V m c main_call0_v28 : S1x128.Idx → EReal)
      = shapeCast S1x128 (m ((c : Thread nD τ).loc main_arg6) : S128.Idx → EReal) shapeCasts_S128_S1x128 := by
    show StableHlo.after hostOps0 (fun b => m (c, b)) (Proc.devRef .tc main_call0_v28) = _
    after_results; rfl
  exact (congrFun e _).trans (shapeCast_a_1a_apply _ _ 0 o)

end Cert.HostPre

end
-- ==== Proof.HostB.lean ====
/-
  The node inputs as the kernel launch finds them: the host transposes the inputs `[64, 1024]` to `[1024, 64]`
  (rounding to bf16 is the identity at the ideal instance), so entry `(k, b)` is the input of node `k` in batch `b`.
-/
import proofs.«180865_g44452911513920_cont_8to1_c_104_44_alg».proof.Proof.Gen.KernelIdeal.Frame.Runs
import proofs.«180865_g44452911513920_cont_8to1_c_104_44_alg».proof.Proof.Spec
import Idealize.ShloMosaic.Lib.ValueLayout

noncomputable section

namespace Cert.HostPre

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The transposed inputs at `(k, b)` are the inputs at `(b, k)`. -/
theorem v13_apply (k : Fin 1024) (b : Fin 64) :
    (V m c main_call0_v13 : S1024x64.Idx → EReal) (ix2 k b)
      = (m ((c : Thread nD τ).loc main_arg0) : S64x1024.Idx → EReal) (ix2 b k) := by
  have e : (V m c main_call0_v13 : S1024x64.Idx → EReal)
      = (truncf (F := Ideal) .bf16 (transpose S1024x64 [1, 0]
          (m ((c : Thread nD τ).loc main_arg0) : FVec Ideal S64x1024 .f32) transposes_S64x1024_S1024x64_1_0)
          bitsLt_bf16_f32 : FVec Ideal S1024x64 .bf16) := by
    show StableHlo.after hostOps0 (fun b => m (c, b)) (Proc.devRef .tc main_call0_v13) = _
    after_results; rfl
  refine (congrFun e _).trans ?_
  rw [truncf_apply]
  exact transpose_ix2_apply _ _ k b

end Cert.HostPre

end
-- ==== Proof.HostC.lean ====
/-
  The inputs as the kernel launch finds them. The host builds the node order "evens, then odds" as a vector of 32-bit
  words (`0 + 2 i` for `i < 512`, followed by `1 + 2 i`), wraps negative entries by `+ 1024` (none is negative), and
  gathers the rows of the transposed inputs `[1024, 64]` in that order: position `j` holds the inputs of node
  `Spec.perm j`.
-/
import proofs.«180865_g44452911513920_cont_8to1_c_104_44_alg».proof.Proof.Gen.KernelIdeal.Frame.Runs
import proofs.«180865_g44452911513920_cont_8to1_c_104_44_alg».proof.Proof.Spec
import Idealize.ShloMosaic.Lib.ValueLayout

noncomputable section

namespace Cert.HostPre

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## A gather of whole rows, read at an index -/

section Gather
variable {α : Type} {w : Nat}

/-- The host's gather takes whole rows of a `[1024, 64]` array: result entry `(j, b)` is the operand at row
    `idx[j, 0]` (read signed and clamped into `[0, 1023]`) and column `b`. -/
theorem gather_rows_apply (x : S1024x64.Idx → α) (idx : IVec S1024x1 w) (j : Fin 1024) (b : Fin 64) :
    Host.gather gather_S1024x64_S1024x1_S1024x64_1_0_n_n_0_1_164 x idx (ix2 j b)
      = x (ix2 ⟨min (idx (ix2 j (0 : Fin 1))).toInt.toNat 1023, by omega⟩ b) := by
  unfold Host.gather
  refine congrArg x (funext fun a => Fin.ext ?_)
  match a with
  | ⟨0, _⟩ =>
    show GatherDims.start gather_S1024x64_S1024x1_S1024x64_1_0_n_n_0_1_164 (ix2 j b) idx 0
        + GatherDims.batchCoord gather_S1024x64_S1024x1_S1024x64_1_0_n_n_0_1_164 (ix2 j b) 0
        + GatherDims.offCoord gather_S1024x64_S1024x1_S1024x64_1_0_n_n_0_1_164 (ix2 j b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x64_S1024x1_S1024x64_1_0_n_n_0_1_164.startIndexMap from
      List.mem_singleton.mpr rfl)]
    have hsi : gather_S1024x64_S1024x1_S1024x64_1_0_n_n_0_1_164.siIdx (ix2 j b)
        ⟨List.idxOf (0 : Fin 2) gather_S1024x64_S1024x1_S1024x64_1_0_n_n_0_1_164.startIndexMap,
          List.idxOf_lt_length_iff.2 (List.mem_singleton.mpr rfl)⟩ = ix2 j (0 : Fin 1) := by
      funext d; refine Fin.ext ?_
      match d with
      | ⟨0, _⟩ => rfl
      | ⟨1, _⟩ => rfl
    rw [hsi]
    rfl
  | ⟨1, _⟩ =>
    show GatherDims.start gather_S1024x64_S1024x1_S1024x64_1_0_n_n_0_1_164 (ix2 j b) idx 1
        + GatherDims.batchCoord gather_S1024x64_S1024x1_S1024x64_1_0_n_n_0_1_164 (ix2 j b) 1
        + GatherDims.offCoord gather_S1024x64_S1024x1_S1024x64_1_0_n_n_0_1_164 (ix2 j b) 1 = b.val
    rw [GatherDims.batchCoord_eq_zero _ _ _ List.not_mem_nil]
    unfold GatherDims.start
    rw [dif_neg (show (1 : Fin 2) ∉ gather_S1024x64_S1024x1_S1024x64_1_0_n_n_0_1_164.startIndexMap from by decide)]
    unfold GatherDims.offCoord
    rw [dif_pos (show (1 : Fin 2) ∈ gather_S1024x64_S1024x1_S1024x64_1_0_n_n_0_1_164.sKept from by decide)]
    simp only [Nat.zero_add, Nat.add_zero]
    rfl

end Gather

/-! ## The node order as a vector of 32-bit words -/

/-- The words `a + 2 i` for `i < 512`. -/
def strided (h : S_.BroadcastsInDim S512 (![] : Fin 0 → Fin S512.rank)) (a : BitVec 32) : IVec S512 32 :=
  addi (broadcastInDim S512 ![] h (constantI S_ 32 a))
    (muli (broadcastInDim S512 ![] h (constantI S_ 32 2#32)) (iotaInDim S512 32 0))

/-- Lane `i` of `strided a` is `a + 2 i`. -/
theorem strided_apply (h : S_.BroadcastsInDim S512 (![] : Fin 0 → Fin S512.rank)) (a : BitVec 32) (i : Fin 512) :
    strided h a (ix1 i) = a + 2#32 * BitVec.ofNat 32 i.val := rfl

/-- The evens followed by the odds. -/
def permVec (h : S_.BroadcastsInDim S512 (![] : Fin 0 → Fin S512.rank))
    (hc : Shape.Concatenates [S512, S512] S1024 0) : IVec S1024 32 :=
  concatenate S1024 0 [⟨S512, strided h 0#32⟩, ⟨S512, strided h 1#32⟩] hc

/-- Lane `j` of the evens-then-odds vector is the node at position `j`, as a word. -/
theorem permVec_apply (h : S_.BroadcastsInDim S512 (![] : Fin 0 → Fin S512.rank))
    (hc : Shape.Concatenates [S512, S512] S1024 0) (j : Fin 1024) :
    permVec h hc (ix1 j) = BitVec.ofNat 32 (Cert.Spec.perm j).val := by
  unfold permVec
  by_cases hj : j.val < 512
  · refine (concatenate_pair_apply_left (t := S1024) (s₁ := S512) (s₂ := S512) 0 _ _ hc (ix1 j) rfl
      (ix1 ⟨j.val, hj⟩) (fun d => by match d with | ⟨0, _⟩ => rfl)).trans ?_
    rw [strided_apply]
    have hp : (Cert.Spec.perm j).val = 2 * j.val := by unfold Cert.Spec.perm; rw [dif_pos hj]
    rw [hp]
    apply BitVec.eq_of_toNat_eq
    simp only [BitVec.toNat_add, BitVec.toNat_mul, BitVec.toNat_ofNat]
    omega
  · have hj' : j.val - 512 < 512 := by have := j.isLt; omega
    refine (concatenate_pair_apply_right (t := S1024) (s₁ := S512) (s₂ := S512) 0 _ _ hc (ix1 j) rfl rfl
      (ix1 ⟨j.val - 512, hj'⟩) (fun d hd => by match d with | ⟨0, _⟩ => exact absurd rfl hd) ?_).trans ?_
    · show j.val - 512 + 512 = j.val
      omega
    rw [strided_apply]
    have hp : (Cert.Spec.perm j).val = 2 * (j.val - 512) + 1 := by unfold Cert.Spec.perm; rw [dif_neg hj]
    rw [hp]
    apply BitVec.eq_of_toNat_eq
    simp only [BitVec.toNat_add, BitVec.toNat_mul, BitVec.toNat_ofNat]
    omega

/-- A word below `1024` read as a signed integer is itself. -/
theorem toInt_ofNat_small (n : Nat) (hn : n < 1024) : (BitVec.ofNat 32 n).toInt = (n : Int) := by
  rw [BitVec.toInt_eq_toNat_cond]
  simp only [BitVec.toNat_ofNat]
  have : n % 2 ^ 32 = n := Nat.mod_eq_of_lt (by omega)
  rw [this]
  split
  · rfl
  · omega

/-- The vector after the host's wrap of negative entries (`x < 0 ? x + 1024 : x`). -/
def permWrapped (h : S_.BroadcastsInDim S512 (![] : Fin 0 → Fin S512.rank))
    (hc : Shape.Concatenates [S512, S512] S1024 0)
    (h' : S_.BroadcastsInDim S1024 (![] : Fin 0 → Fin S1024.rank)) : IVec S1024 32 :=
  select (cmpi .slt (permVec h hc) (broadcastInDim S1024 ![] h' (constantI S_ 32 0#32)))
    (addi (permVec h hc) (broadcastInDim S1024 ![] h' (constantI S_ 32 1024#32))) (permVec h hc)

/-- No entry is negative, so the wrap changes nothing. -/
theorem permWrapped_apply (h : S_.BroadcastsInDim S512 (![] : Fin 0 → Fin S512.rank))
    (hc : Shape.Concatenates [S512, S512] S1024 0)
    (h' : S_.BroadcastsInDim S1024 (![] : Fin 0 → Fin S1024.rank)) (j : Fin 1024) :
    permWrapped h hc h' (ix1 j) = BitVec.ofNat 32 (Cert.Spec.perm j).val := by
  show Scalar.select (IntOp.cmpi .slt (permVec h hc (ix1 j)) 0#32)
      (IntOp.addi (permVec h hc (ix1 j)) 1024#32) (permVec h hc (ix1 j)) = _
  rw [permVec_apply]
  have hz : IntOp.cmpi .slt (BitVec.ofNat 32 (Cert.Spec.perm j).val) 0#32 = 0#1 := by
    apply eq_zero_of_ne_one
    rw [IntOp.cmpi_slt, toInt_ofNat_small _ (Cert.Spec.perm j).isLt]
    show ¬ ((Cert.Spec.perm j).val : Int) < 0
    omega
  rw [hz, select_zero]

/-! ## The gathered inputs -/

section Gather
variable {α : Type}

/-- When the start index of row `j` is the word of a row `k`, the gather reads row `k`. -/
theorem gather_rows_of_idx (x : S1024x64.Idx → α) (idx : IVec S1024x1 32) (j : Fin 1024) (b : Fin 64) (k : Fin 1024)
    (hk : idx (ix2 j (0 : Fin 1)) = BitVec.ofNat 32 k.val) :
    Host.gather gather_S1024x64_S1024x1_S1024x64_1_0_n_n_0_1_164 x idx (ix2 j b) = x (ix2 k b) := by
  rw [gather_rows_apply]
  refine congrArg (fun r => x (ix2 r b)) (Fin.ext ?_)
  show min (idx (ix2 j (0 : Fin 1))).toInt.toNat 1023 = k.val
  rw [hk, toInt_ofNat_small _ k.isLt]
  have := k.isLt
  omega

end Gather

/-- What the host has written into the gathered-inputs array when the kernel is launched: the gather, by the wrapped
    node order (as one column), of the transposed inputs. -/
theorem v20_eq :
    (V m c main_call0_v20 : S1024x64.Idx → EReal)
      = Host.gather gather_S1024x64_S1024x1_S1024x64_1_0_n_n_0_1_164
          (truncf (F := Ideal) .bf16 (transpose S1024x64 [1, 0]
            (m ((c : Thread nD τ).loc main_arg0) : FVec Ideal S64x1024 .f32) transposes_S64x1024_S1024x64_1_0)
            bitsLt_bf16_f32 : FVec Ideal S1024x64 .bf16)
          (broadcastInDim S1024x1 ![0] bcast_S1024_S1024x1_0
            (permWrapped bcast_S_S512 concatenates_S512_S512_S1024_d0 bcast_S_S1024)) := by
  show StableHlo.after hostOps0 (fun b => m (c, b)) (Proc.devRef .tc main_call0_v20) = _
  after_results_simp
  rfl

/-- The inputs as the kernel launch finds them: position `j` holds the inputs of node `perm j` (the evens, then
    the odds), one column per batch. -/
theorem v20_apply (j : Fin 1024) (b : Fin 64) :
    (V m c main_call0_v20 : S1024x64.Idx → EReal) (ix2 j b)
      = (m ((c : Thread nD τ).loc main_arg0) : S64x1024.Idx → EReal) (ix2 b (Cert.Spec.perm j)) := by
  have hidx : broadcastInDim S1024x1 ![0] bcast_S1024_S1024x1_0
      (permWrapped bcast_S_S512 concatenates_S512_S512_S1024_d0 bcast_S_S1024) (ix2 j (0 : Fin 1))
        = BitVec.ofNat 32 (Cert.Spec.perm j).val :=
    (broadcastInDim_apply (s := S1024) (t := S1024x1) ![0] _ _ (ix2 j (0 : Fin 1)) (ix1 j)
      (fun a => by match a with | ⟨0, _⟩ => rfl)).trans (permWrapped_apply _ _ _ j)
  refine (congrFun (v20_eq m c) _).trans ((gather_rows_of_idx _ _ j b (Cert.Spec.perm j) hidx).trans ?_)
  rw [truncf_apply]
  exact transpose_ix2_apply _ _ (Cert.Spec.perm j) b

end Cert.HostPre

end
-- ==== Proof.Bridge.lean ====
/-
  From a grid step's blocks to the argument arrays.

  At grid point t the step's blocks are read off the arrays the launch finds: the hidden block is rows 8 t .. 8 t + 7
  of the hidden state viewed [64, 512, 256]; every other window is its whole array at every point. The host operations
  before the launch made those arrays from the arguments (the reshaped hidden state, the transposed node inputs in
  natural and in permuted row order, the weights split into their first row and the rest, the biases as rows), and the
  first step's resident arrays are the permuted adjacencies and the node-input aggregates. Field by field this makes the
  step's inputs the instantiation `Law.kin` of the argument arrays at step t.
-/
import proofs.«180865_g44452911513920_cont_8to1_c_104_44_alg».proof.Proof.Gen.KernelIdeal.Frame.Runs
import proofs.«180865_g44452911513920_cont_8to1_c_104_44_alg».proof.Proof.KStep
import proofs.«180865_g44452911513920_cont_8to1_c_104_44_alg».proof.Proof.Law
import proofs.«180865_g44452911513920_cont_8to1_c_104_44_alg».proof.Proof.Step0Scratch
import proofs.«180865_g44452911513920_cont_8to1_c_104_44_alg».proof.Proof.HostA
import proofs.«180865_g44452911513920_cont_8to1_c_104_44_alg».proof.Proof.HostB
import proofs.«180865_g44452911513920_cont_8to1_c_104_44_alg».proof.Proof.HostC
import Idealize.ShloMosaic.Lib.Pipeline.Value

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## Where each window's block sits -/

theorem idx3 : ∀ t : Fin cfg0.N, win0_3.index t (0 : Fin 3) = t.val ∧ win0_3.index t (1 : Fin 3) = 0
    ∧ win0_3.index t (2 : Fin 3) = 0 :=
  (by decide +kernel : ∀ t : Fin grid0.N, _)

/-- The hidden block at point t, at (s, p, q), is the reshaped hidden state at (8 t + s, p, q). -/
theorem blk3_apply (t : Fin cfg0.N) (s : Fin 8) (p : Fin 512) (q : Fin 256) (hts : 8 * t.val + s.val < 64) :
    (iblk m c 3 t : S8x512x256.Idx → EReal) (ix3 s p q)
      = (V m c main_call0_v11 : S64x512x256.Idx → EReal) (ix3 (⟨8 * t.val + s.val, hts⟩ : Fin 64) p q) := by
  obtain ⟨e0, e1, e2⟩ := idx3 t
  show (V m c main_call0_v11 : S64x512x256.Idx → EReal) (((cfg0.win 3).blk t).view.emb (ix3 s p q)) = _
  refine congrArg (V m c main_call0_v11 : S64x512x256.Idx → EReal) (funext fun a => Fin.ext ?_)
  match a with
  | ⟨0, _⟩ => show win0_3.index t (0 : Fin 3) * 8 + 1 * s.val = 8 * t.val + s.val; rw [e0]; omega
  | ⟨1, _⟩ => show win0_3.index t (1 : Fin 3) * 512 + 1 * p.val = p.val; rw [e1]; omega
  | ⟨2, _⟩ => show win0_3.index t (2 : Fin 3) * 256 + 1 * q.val = q.val; rw [e2]; omega

theorem idxW : ∀ t : Fin cfg0.N,
    (win0_0.index t (0 : Fin 2) = 0 ∧ win0_0.index t (1 : Fin 2) = 0) ∧
    (win0_1.index t (0 : Fin 2) = 0 ∧ win0_1.index t (1 : Fin 2) = 0) ∧
    (win0_2.index t (0 : Fin 2) = 0 ∧ win0_2.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) ∧
    (win0_9.index t (0 : Fin 2) = 0 ∧ win0_9.index t (1 : Fin 2) = 0) :=
  (by decide +kernel : ∀ t : Fin grid0.N, _)

/-- Window 0's block at every point is its whole array. -/
theorem blk0_apply (t : Fin cfg0.N) (i : Fin 1024) (j : Fin 1024) :
    (iblk m c 0 t : S1024x1024.Idx → EReal) (ix2 i j) = (V m c main_arg2 : S1024x1024.Idx → EReal) (ix2 i j) := by
  obtain ⟨e0, e1⟩ := (idxW t).1
  show (V m c main_arg2 : S1024x1024.Idx → EReal) (((cfg0.win 0).blk t).view.emb (ix2 i j)) = _
  refine congrArg (V m c main_arg2 : S1024x1024.Idx → EReal) (funext fun a => Fin.ext ?_)
  match a with
  | ⟨0, _⟩ => show win0_0.index t (0 : Fin 2) * 1024 + 1 * i.val = i.val; rw [e0]; omega
  | ⟨1, _⟩ => show win0_0.index t (1 : Fin 2) * 1024 + 1 * j.val = j.val; rw [e1]; omega

/-- Window 1's block at every point is its whole array. -/
theorem blk1_apply (t : Fin cfg0.N) (i : Fin 1024) (j : Fin 64) :
    (iblk m c 1 t : S1024x64.Idx → EReal) (ix2 i j) = (V m c main_call0_v13 : S1024x64.Idx → EReal) (ix2 i j) := by
  obtain ⟨e0, e1⟩ := (idxW t).2.1
  show (V m c main_call0_v13 : S1024x64.Idx → EReal) (((cfg0.win 1).blk t).view.emb (ix2 i j)) = _
  refine congrArg (V m c main_call0_v13 : S1024x64.Idx → EReal) (funext fun a => Fin.ext ?_)
  match a with
  | ⟨0, _⟩ => show win0_1.index t (0 : Fin 2) * 1024 + 1 * i.val = i.val; rw [e0]; omega
  | ⟨1, _⟩ => show win0_1.index t (1 : Fin 2) * 64 + 1 * j.val = j.val; rw [e1]; omega

/-- Window 2's block at every point is its whole array. -/
theorem blk2_apply (t : Fin cfg0.N) (i : Fin 1024) (j : Fin 64) :
    (iblk m c 2 t : S1024x64.Idx → EReal) (ix2 i j) = (V m c main_call0_v20 : S1024x64.Idx → EReal) (ix2 i j) := by
  obtain ⟨e0, e1⟩ := (idxW t).2.2.1
  show (V m c main_call0_v20 : S1024x64.Idx → EReal) (((cfg0.win 2).blk t).view.emb (ix2 i j)) = _
  refine congrArg (V m c main_call0_v20 : S1024x64.Idx → EReal) (funext fun a => Fin.ext ?_)
  match a with
  | ⟨0, _⟩ => show win0_2.index t (0 : Fin 2) * 1024 + 1 * i.val = i.val; rw [e0]; omega
  | ⟨1, _⟩ => show win0_2.index t (1 : Fin 2) * 64 + 1 * j.val = j.val; rw [e1]; omega

/-- Window 4's block at every point is its whole array. -/
theorem blk4_apply (t : Fin cfg0.N) (i : Fin 1) (j : Fin 256) :
    (iblk m c 4 t : S1x256.Idx → EReal) (ix2 i j) = (V m c main_call0_v21 : S1x256.Idx → EReal) (ix2 i j) := by
  obtain ⟨e0, e1⟩ := (idxW t).2.2.2.1
  show (V m c main_call0_v21 : S1x256.Idx → EReal) (((cfg0.win 4).blk t).view.emb (ix2 i j)) = _
  refine congrArg (V m c main_call0_v21 : S1x256.Idx → EReal) (funext fun a => Fin.ext ?_)
  match a with
  | ⟨0, _⟩ => show win0_4.index t (0 : Fin 2) * 1 + 1 * i.val = i.val; rw [e0]; omega
  | ⟨1, _⟩ => show win0_4.index t (1 : Fin 2) * 256 + 1 * j.val = j.val; rw [e1]; omega

/-- Window 5's block at every point is its whole array. -/
theorem blk5_apply (t : Fin cfg0.N) (i : Fin 128) (j : Fin 256) :
    (iblk m c 5 t : S128x256.Idx → EReal) (ix2 i j) = (V m c main_call0_v23 : S128x256.Idx → EReal) (ix2 i j) := by
  obtain ⟨e0, e1⟩ := (idxW t).2.2.2.2.1
  show (V m c main_call0_v23 : S128x256.Idx → EReal) (((cfg0.win 5).blk t).view.emb (ix2 i j)) = _
  refine congrArg (V m c main_call0_v23 : S128x256.Idx → EReal) (funext fun a => Fin.ext ?_)
  match a with
  | ⟨0, _⟩ => show win0_5.index t (0 : Fin 2) * 128 + 1 * i.val = i.val; rw [e0]; omega
  | ⟨1, _⟩ => show win0_5.index t (1 : Fin 2) * 256 + 1 * j.val = j.val; rw [e1]; omega

/-- Window 6's block at every point is its whole array. -/
theorem blk6_apply (t : Fin cfg0.N) (i : Fin 1) (j : Fin 256) :
    (iblk m c 6 t : S1x256.Idx → EReal) (ix2 i j) = (V m c main_call0_v27 : S1x256.Idx → EReal) (ix2 i j) := by
  obtain ⟨e0, e1⟩ := (idxW t).2.2.2.2.2.1
  show (V m c main_call0_v27 : S1x256.Idx → EReal) (((cfg0.win 6).blk t).view.emb (ix2 i j)) = _
  refine congrArg (V m c main_call0_v27 : S1x256.Idx → EReal) (funext fun a => Fin.ext ?_)
  match a with
  | ⟨0, _⟩ => show win0_6.index t (0 : Fin 2) * 1 + 1 * i.val = i.val; rw [e0]; omega
  | ⟨1, _⟩ => show win0_6.index t (1 : Fin 2) * 256 + 1 * j.val = j.val; rw [e1]; omega

/-- Window 7's block at every point is its whole array. -/
theorem blk7_apply (t : Fin cfg0.N) (i : Fin 1) (j : Fin 128) :
    (iblk m c 7 t : S1x128.Idx → EReal) (ix2 i j) = (V m c main_call0_v24 : S1x128.Idx → EReal) (ix2 i j) := by
  obtain ⟨e0, e1⟩ := (idxW t).2.2.2.2.2.2.1
  show (V m c main_call0_v24 : S1x128.Idx → EReal) (((cfg0.win 7).blk t).view.emb (ix2 i j)) = _
  refine congrArg (V m c main_call0_v24 : S1x128.Idx → EReal) (funext fun a => Fin.ext ?_)
  match a with
  | ⟨0, _⟩ => show win0_7.index t (0 : Fin 2) * 1 + 1 * i.val = i.val; rw [e0]; omega
  | ⟨1, _⟩ => show win0_7.index t (1 : Fin 2) * 128 + 1 * j.val = j.val; rw [e1]; omega

/-- Window 8's block at every point is its whole array. -/
theorem blk8_apply (t : Fin cfg0.N) (i : Fin 128) (j : Fin 128) :
    (iblk m c 8 t : S128x128.Idx → EReal) (ix2 i j) = (V m c main_call0_v26 : S128x128.Idx → EReal) (ix2 i j) := by
  obtain ⟨e0, e1⟩ := (idxW t).2.2.2.2.2.2.2.1
  show (V m c main_call0_v26 : S128x128.Idx → EReal) (((cfg0.win 8).blk t).view.emb (ix2 i j)) = _
  refine congrArg (V m c main_call0_v26 : S128x128.Idx → EReal) (funext fun a => Fin.ext ?_)
  match a with
  | ⟨0, _⟩ => show win0_8.index t (0 : Fin 2) * 128 + 1 * i.val = i.val; rw [e0]; omega
  | ⟨1, _⟩ => show win0_8.index t (1 : Fin 2) * 128 + 1 * j.val = j.val; rw [e1]; omega

/-- Window 9's block at every point is its whole array. -/
theorem blk9_apply (t : Fin cfg0.N) (i : Fin 1) (j : Fin 128) :
    (iblk m c 9 t : S1x128.Idx → EReal) (ix2 i j) = (V m c main_call0_v28 : S1x128.Idx → EReal) (ix2 i j) := by
  obtain ⟨e0, e1⟩ := (idxW t).2.2.2.2.2.2.2.2
  show (V m c main_call0_v28 : S1x128.Idx → EReal) (((cfg0.win 9).blk t).view.emb (ix2 i j)) = _
  refine congrArg (V m c main_call0_v28 : S1x128.Idx → EReal) (funext fun a => Fin.ext ?_)
  match a with
  | ⟨0, _⟩ => show win0_9.index t (0 : Fin 2) * 1 + 1 * i.val = i.val; rw [e0]; omega
  | ⟨1, _⟩ => show win0_9.index t (1 : Fin 2) * 128 + 1 * j.val = j.val; rw [e1]; omega

/-! ## The statement's shape (types only) -/

theorem pid_eq : ∀ t : Fin cfg0.N, ((grid0.coords t) 0).val = t.val :=
  (by decide +kernel : ∀ t : Fin grid0.N, _)

/-- The argument arrays by coordinates. -/
abbrev argsM : Cert.Spec.Args := Cert.Spec.argsOf
  (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

/-- The first grid point. -/
abbrev t0 : Fin cfg0.N := ⟨0, by rw [show cfg0.N = 8 from N_0]; norm_num⟩

/-- The step's inputs from its blocks. -/
abbrev stepIn (t : Fin cfg0.N) : Cert.KSpec.KIn :=
  Cert.KStep.stepK (BitVec.ofNat 32 ((grid0.coords t) 0).val) (iblk m c 3 t) (iblk m c 4 t) (iblk m c 5 t) (iblk m c 6 t)
    (iblk m c 7 t) (iblk m c 8 t) (iblk m c 9 t)
    (Cert.KStep.S0 (iblk m c 0 t0)) (Cert.KStep.S1 (iblk m c 0 t0)) (Cert.KStep.S2 (iblk m c 0 t0) (iblk m c 1 t0))
    (Cert.KStep.S3 (iblk m c 0 t0) (iblk m c 2 t0))

/-! ## The fields -/

/-- The eight loads pick the slot's rows of the hidden block. -/
theorem ld_sel (x3 : Vec Ideal S8x512x256 .f32) (s : Fin 8) (p : Fin 512) (q : Fin 256) :
    Cert.KGlue.sel8 (Cert.KStep.ld0 x3) (Cert.KStep.ld1 x3) (Cert.KStep.ld2 x3) (Cert.KStep.ld3 x3) (Cert.KStep.ld4 x3)
        (Cert.KStep.ld5 x3) (Cert.KStep.ld6 x3) (Cert.KStep.ld7 x3) s (ix3 (0 : Fin 1) p q)
      = x3 (ix3 s p q) := by
  match s with
  | ⟨0, _⟩ =>
    exact congrArg x3 (funext fun a => Fin.ext (by
      match a with
      | ⟨0, _⟩ => show 0 + 1 * 0 = 0; rfl
      | ⟨1, _⟩ => show 0 + 1 * p.val = p.val; omega
      | ⟨2, _⟩ => show 0 + 1 * q.val = q.val; omega))
  | ⟨1, _⟩ =>
    exact congrArg x3 (funext fun a => Fin.ext (by
      match a with
      | ⟨0, _⟩ => show 1 + 1 * 0 = 1; rfl
      | ⟨1, _⟩ => show 0 + 1 * p.val = p.val; omega
      | ⟨2, _⟩ => show 0 + 1 * q.val = q.val; omega))
  | ⟨2, _⟩ =>
    exact congrArg x3 (funext fun a => Fin.ext (by
      match a with
      | ⟨0, _⟩ => show 2 + 1 * 0 = 2; rfl
      | ⟨1, _⟩ => show 0 + 1 * p.val = p.val; omega
      | ⟨2, _⟩ => show 0 + 1 * q.val = q.val; omega))
  | ⟨3, _⟩ =>
    exact congrArg x3 (funext fun a => Fin.ext (by
      match a with
      | ⟨0, _⟩ => show 3 + 1 * 0 = 3; rfl
      | ⟨1, _⟩ => show 0 + 1 * p.val = p.val; omega
      | ⟨2, _⟩ => show 0 + 1 * q.val = q.val; omega))
  | ⟨4, _⟩ =>
    exact congrArg x3 (funext fun a => Fin.ext (by
      match a with
      | ⟨0, _⟩ => show 4 + 1 * 0 = 4; rfl
      | ⟨1, _⟩ => show 0 + 1 * p.val = p.val; omega
      | ⟨2, _⟩ => show 0 + 1 * q.val = q.val; omega))
  | ⟨5, _⟩ =>
    exact congrArg x3 (funext fun a => Fin.ext (by
      match a with
      | ⟨0, _⟩ => show 5 + 1 * 0 = 5; rfl
      | ⟨1, _⟩ => show 0 + 1 * p.val = p.val; omega
      | ⟨2, _⟩ => show 0 + 1 * q.val = q.val; omega))
  | ⟨6, _⟩ =>
    exact congrArg x3 (funext fun a => Fin.ext (by
      match a with
      | ⟨0, _⟩ => show 6 + 1 * 0 = 6; rfl
      | ⟨1, _⟩ => show 0 + 1 * p.val = p.val; omega
      | ⟨2, _⟩ => show 0 + 1 * q.val = q.val; omega))
  | ⟨7, _⟩ =>
    exact congrArg x3 (funext fun a => Fin.ext (by
      match a with
      | ⟨0, _⟩ => show 7 + 1 * 0 = 7; rfl
      | ⟨1, _⟩ => show 0 + 1 * p.val = p.val; omega
      | ⟨2, _⟩ => show 0 + 1 * q.val = q.val; omega))
  | ⟨n + 8, h⟩ => exact absurd h (by omega)

variable (t : Fin cfg0.N)

/-- The step's number as a `Fin 8`. -/
abbrev pidOf : Fin 8 := ⟨t.val, lt_of_lt_of_eq t.isLt (N_0 : cfg0.N = 8)⟩

theorem hg_eq (s : Fin 8) (p : Fin 512) (q : Fin 256) :
    (stepIn m c t).hg s p q = (Cert.Law.kin (argsM m c) (pidOf t)).hg s p q := by
  have ht : t.val < 8 := (pidOf t).isLt
  have hts : 8 * t.val + s.val < 64 := by have := s.isLt; omega
  refine (ld_sel (iblk m c 3 t) s p q).trans ((blk3_apply m c t s p q hts).trans
    ((Cert.HostPre.v11_apply m c ⟨8 * t.val + s.val, hts⟩ p q).trans ?_))
  exact congrArg (m ((c : Thread nD τ).loc main_arg1)) (funext fun a => Fin.ext (by
    match a with
    | ⟨0, _⟩ => rfl
    | ⟨1, _⟩ => show p.val * 256 + q.val = 256 * p.val + q.val; omega))

theorem AcP_eq (n j : Fin 1024) :
    (stepIn m c t).AcP n j = (Cert.Law.kin (argsM m c) (pidOf t)).AcP n j :=
  (Cert.Step0.AcP_apply (iblk m c 0 (t0)) n j).trans ((blk0_apply m c t0 n (Cert.Spec.perm j)).trans
    (congrFun (V_main_arg2 m c) (ix2 n (Cert.Spec.perm j))))

theorem App_eq (r j : Fin 1024) :
    (stepIn m c t).App r j = (Cert.Law.kin (argsM m c) (pidOf t)).App r j :=
  (Cert.Step0.App_apply (iblk m c 0 (t0)) r j).trans ((blk0_apply m c t0 (Cert.Spec.perm r) (Cert.Spec.perm j)).trans
    (congrFun (V_main_arg2 m c) (ix2 (Cert.Spec.perm r) (Cert.Spec.perm j))))

theorem axc_eq (n : Fin 1024) (s : Fin 8) :
    (stepIn m c t).axc n s = (Cert.Law.kin (argsM m c) (pidOf t)).axc n s := by
  have hpid := pid_eq t
  show k0_pay38 (F := Ideal) (BitVec.ofNat 32 ((grid0.coords t) 0).val)
      (Cert.KStep.S2 (iblk m c 0 t0) (iblk m c 1 t0)) (ix2 n s) = _
  rw [hpid]
  refine (Cert.Step0.pay38_apply (pidOf t) (Cert.KStep.S2 (iblk m c 0 t0) (iblk m c 1 t0)) n s).trans
    ((Cert.Step0.axf_apply (iblk m c 0 t0) (iblk m c 1 t0) n _).trans ?_)
  change _ = ∑ k : Fin 1024, (argsM m c).A n k
    * (argsM m c).x ⟨8 * (pidOf t).val + s.val, by have := (pidOf t).isLt; have := s.isLt; omega⟩ k
  refine Finset.sum_congr rfl fun k _ => ?_
  rw [blk0_apply, blk1_apply, Cert.HostPre.v13_apply, congrFun (V_main_arg2 m c) (ix2 n k)]
  rfl

theorem axcP_eq (r : Fin 1024) (s : Fin 8) :
    (stepIn m c t).axcP r s = (Cert.Law.kin (argsM m c) (pidOf t)).axcP r s := by
  have hpid := pid_eq t
  show k0_pay39 (F := Ideal) (BitVec.ofNat 32 ((grid0.coords t) 0).val)
      (Cert.KStep.S3 (iblk m c 0 t0) (iblk m c 2 t0)) (ix2 r s) = _
  rw [hpid]
  refine (Cert.Step0.pay39_apply (pidOf t) (Cert.KStep.S3 (iblk m c 0 t0) (iblk m c 2 t0)) r s).trans
    ((Cert.Step0.axP_apply (iblk m c 0 t0) (iblk m c 2 t0) r _).trans ?_)
  change _ = ∑ k : Fin 1024, (argsM m c).A (Cert.Spec.perm r) (Cert.Spec.perm k)
    * (argsM m c).x ⟨8 * (pidOf t).val + s.val, by have := (pidOf t).isLt; have := s.isLt; omega⟩ (Cert.Spec.perm k)
  refine Finset.sum_congr rfl fun k _ => ?_
  rw [blk0_apply, blk2_apply, Cert.HostPre.v20_apply,
    congrFun (V_main_arg2 m c) (ix2 (Cert.Spec.perm r) (Cert.Spec.perm k))]
  rfl

theorem w1x_eq (o : Fin 256) : (stepIn m c t).w1x o = (Cert.Law.kin (argsM m c) (pidOf t)).w1x o :=
  (blk4_apply m c t 0 o).trans (Cert.HostPre.v21_apply m c o)

theorem W1h_eq (g : Fin 128) (o : Fin 256) : (stepIn m c t).W1h g o = (Cert.Law.kin (argsM m c) (pidOf t)).W1h g o :=
  (blk5_apply m c t g o).trans (Cert.HostPre.v23_apply m c g o)

theorem b1_eq (o : Fin 256) : (stepIn m c t).b1 o = (Cert.Law.kin (argsM m c) (pidOf t)).b1 o :=
  (blk6_apply m c t 0 o).trans (Cert.HostPre.v27_apply m c o)

theorem w2x_eq (o : Fin 128) : (stepIn m c t).w2x o = (Cert.Law.kin (argsM m c) (pidOf t)).w2x o :=
  (blk7_apply m c t 0 o).trans (Cert.HostPre.v24_apply m c o)

theorem W2h_eq (g : Fin 128) (o : Fin 128) : (stepIn m c t).W2h g o = (Cert.Law.kin (argsM m c) (pidOf t)).W2h g o :=
  (blk8_apply m c t g o).trans (Cert.HostPre.v26_apply m c g o)

theorem b2_eq (o : Fin 128) : (stepIn m c t).b2 o = (Cert.Law.kin (argsM m c) (pidOf t)).b2 o :=
  (blk9_apply m c t 0 o).trans (Cert.HostPre.v28_apply m c o)

/-! ## The step -/

/-- Two step inputs with equal fields are equal. -/
theorem kin_ext (k k' : Cert.KSpec.KIn) (h1 : k.hg = k'.hg) (h2 : k.AcP = k'.AcP) (h3 : k.App = k'.App)
    (h4 : k.axc = k'.axc) (h5 : k.axcP = k'.axcP) (h6 : k.w1x = k'.w1x) (h7 : k.W1h = k'.W1h) (h8 : k.b1 = k'.b1)
    (h9 : k.w2x = k'.w2x) (h10 : k.W2h = k'.W2h) (h11 : k.b2 = k'.b2) : k = k' := by
  cases k; cases k'
  simp only [Cert.KSpec.KIn.mk.injEq]
  exact ⟨h1, h2, h3, h4, h5, h6, h7, h8, h9, h10, h11⟩

/-- What grid point t reads, from its blocks and the first point's resident arrays, is the instantiation of the
    argument arrays at step t. -/
theorem stepK_eq :
    Cert.KStep.stepK (BitVec.ofNat 32 ((grid0.coords t) 0).val) (iblk m c 3 t) (iblk m c 4 t) (iblk m c 5 t) (iblk m c 6 t)
      (iblk m c 7 t) (iblk m c 8 t) (iblk m c 9 t)
      (Cert.KStep.S0 (iblk m c 0 t0)) (Cert.KStep.S1 (iblk m c 0 t0)) (Cert.KStep.S2 (iblk m c 0 t0) (iblk m c 1 t0))
      (Cert.KStep.S3 (iblk m c 0 t0) (iblk m c 2 t0))
      = Cert.Law.kin (argsM m c) ⟨t.val, lt_of_lt_of_eq t.isLt (N_0 : cfg0.N = 8)⟩ :=
  kin_ext _ _ (funext fun s => funext fun p => funext fun q => hg_eq m c t s p q)
    (funext fun n => funext fun j => AcP_eq m c t n j) (funext fun r => funext fun j => App_eq m c t r j)
    (funext fun n => funext fun s => axc_eq m c t n s) (funext fun r => funext fun s => axcP_eq m c t r s)
    (funext fun o => w1x_eq m c t o) (funext fun g => funext fun o => W1h_eq m c t g o) (funext fun o => b1_eq m c t o)
    (funext fun o => w2x_eq m c t o) (funext fun g => funext fun o => W2h_eq m c t g o) (funext fun o => b2_eq m c t o)

/-- What grid point t writes for slot s at (p, q) is the specification's new hidden state at batch 8 t + s, flat
    position 256 p + q, when the hidden state's entries are real numbers. -/
theorem stepVal_eq_G (hh : ∀ b j, ∃ r : ℝ, (argsM m c).h b j = (r : EReal)) (s : Fin 8) (p : Fin 512) (q : Fin 256) :
    Cert.KStep.stepVal (BitVec.ofNat 32 ((grid0.coords t) 0).val) (iblk m c 3 t) (iblk m c 4 t) (iblk m c 5 t) (iblk m c 6 t)
      (iblk m c 7 t) (iblk m c 8 t) (iblk m c 9 t)
      (Cert.KStep.S0 (iblk m c 0 t0)) (Cert.KStep.S1 (iblk m c 0 t0)) (Cert.KStep.S2 (iblk m c 0 t0) (iblk m c 1 t0))
      (Cert.KStep.S3 (iblk m c 0 t0) (iblk m c 2 t0)) (ix3 s p q)
      = Cert.Spec.G (argsM m c)
          ⟨8 * t.val + s.val, by
            have ht : t.val < 8 := lt_of_lt_of_eq t.isLt (N_0 : cfg0.N = 8)
            have := s.isLt; omega⟩
          ⟨256 * p.val + q.val, by have := p.isLt; have := q.isLt; omega⟩ :=
  (congrArg (fun k => Cert.KSpec.outK k s p q) (stepK_eq m c t)).trans
    (Cert.Law.outK_eq_G (argsM m c) (pidOf t) hh s p q)

end Cert.Bridge

end
-- ==== Proof.LawPre.lean ====
/-
  Finiteness from the precondition: when `finite_inputs` of the seven argument arrays is all ones, every entry of
  every array is a real number.

  The predicate is the conjunction, over the arrays, of `all (|x| < +∞)`: each conjunct is a reduction by `and` of
  the comparisons `|x i| < +∞` from the constant 1, so it is 1 only if every comparison is 1, and `|x| < +∞` fails
  at both infinities of the extended reals (`|⊥| = |⊤| = ⊤`).
-/
import proofs.«180865_g44452911513920_cont_8to1_c_104_44_alg».proof.Defs
import proofs.«180865_g44452911513920_cont_8to1_c_104_44_alg».proof.Proof.Gen.Pre_finite_inputs
import proofs.«180865_g44452911513920_cont_8to1_c_104_44_alg».proof.Proof.Spec
import Idealize.ShloMosaic.Lib.ReduceAll
import Idealize.ShloMosaic.Lib.IdealHost
import Idealize.ShloMosaic.Lib.ValueIdx

noncomputable section

namespace Cert.Law

open Idealize.ShloMosaic Idealize.ShloMosaic.ValueIdx Idealize.SL.Sem

/-- The scalar shape has one index. -/
instance : Subsingleton Cert.Pre_finite_inputs.S_.Idx := ⟨fun a b => funext fun d => d.elim0⟩

/-- An extended real whose absolute value compares below `+∞` is a real number. -/
theorem real_of_abs_lt_inf (x : Ideal .f32)
    (h : FloatOps.cmpf (F := Ideal) .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One conjunct of the predicate: `all (|x| < +∞)` being 1 makes every entry of `x` real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, (x i : EReal) = (r : EReal) := by
  have hi := Host.reduce_andi_all _ _ hr hu ix0 e i
  rw [cmpf_apply, broadcastInDim_scalar_apply] at hi
  exact real_of_abs_lt_inf (x i) hi

open Cert.Pre_finite_inputs in
/-- The predicate all ones makes every entry of each of the seven arrays real. -/
theorem fn_real (x0 : FVec Ideal S64x1024 .f32) (x1 : FVec Ideal S64x131072 .f32) (x2 : FVec Ideal S1024x1024 .f32)
    (x3 : FVec Ideal S129x256 .f32) (x4 : FVec Ideal S256 .f32) (x5 : FVec Ideal S129x128 .f32) (x6 : FVec Ideal S128 .f32)
    (h : Cert.Pre_finite_inputs.fn (F := Ideal) x0 x1 x2 x3 x4 x5 x6 = fun _ => 1#1) :
    (∀ i, ∃ r : ℝ, (x0 i : EReal) = (r : EReal)) ∧ (∀ i, ∃ r : ℝ, (x1 i : EReal) = (r : EReal))
      ∧ (∀ i, ∃ r : ℝ, (x2 i : EReal) = (r : EReal)) ∧ (∀ i, ∃ r : ℝ, (x3 i : EReal) = (r : EReal))
      ∧ (∀ i, ∃ r : ℝ, (x4 i : EReal) = (r : EReal)) ∧ (∀ i, ∃ r : ℝ, (x5 i : EReal) = (r : EReal))
      ∧ (∀ i, ∃ r : ℝ, (x6 i : EReal) = (r : EReal)) := by
  have h0 := congrFun h ix0
  dsimp only [Cert.Pre_finite_inputs.fn, Cert.Pre_finite_inputs.fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨all_real x0 _ _ _ e0, all_real x1 _ _ _ e1, all_real x2 _ _ _ e2, all_real x3 _ _ _ e3,
    all_real x4 _ _ _ e4, all_real x5 _ _ _ e5, all_real x6 _ _ _ e6⟩

/-- Under the precondition, on every device, every entry of each argument array of the idealized kernel is a real
    number. -/
theorem pre_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, ((m ((c.tc : Thread Cert.KernelIdeal.nD Cert.KernelIdeal.τ).loc Cert.KernelIdeal.main_arg0)) i : EReal) = (r : EReal))
      ∧ (∀ i, ∃ r : ℝ, ((m ((c.tc : Thread Cert.KernelIdeal.nD Cert.KernelIdeal.τ).loc Cert.KernelIdeal.main_arg1)) i : EReal) = (r : EReal))
      ∧ (∀ i, ∃ r : ℝ, ((m ((c.tc : Thread Cert.KernelIdeal.nD Cert.KernelIdeal.τ).loc Cert.KernelIdeal.main_arg2)) i : EReal) = (r : EReal))
      ∧ (∀ i, ∃ r : ℝ, ((m ((c.tc : Thread Cert.KernelIdeal.nD Cert.KernelIdeal.τ).loc Cert.KernelIdeal.main_arg3)) i : EReal) = (r : EReal))
      ∧ (∀ i, ∃ r : ℝ, ((m ((c.tc : Thread Cert.KernelIdeal.nD Cert.KernelIdeal.τ).loc Cert.KernelIdeal.main_arg4)) i : EReal) = (r : EReal))
      ∧ (∀ i, ∃ r : ℝ, ((m ((c.tc : Thread Cert.KernelIdeal.nD Cert.KernelIdeal.τ).loc Cert.KernelIdeal.main_arg5)) i : EReal) = (r : EReal))
      ∧ (∀ i, ∃ r : ℝ, ((m ((c.tc : Thread Cert.KernelIdeal.nD Cert.KernelIdeal.τ).loc Cert.KernelIdeal.main_arg6)) i : EReal) = (r : EReal)) :=
  fn_real _ _ _ _ _ _ _ (h c)

/-- In the form the law takes it: under the precondition the hidden state read by coordinates is real. -/
theorem pre_h_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (b : Fin 64) (j : Fin 131072) :
    ∃ r : ℝ, (Cert.Spec.argsOf
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))).h b j = (r : EReal) :=
  (pre_real m h c).2.1 (ix2 b j)

end Cert.Law

end
-- ==== Proof.KValue.lean ====
/-
  The kernel program's result IS the specification: the launch's output array at `(b, p, q)` is what grid point
  `b / 8` left for slot `b % 8` — the step's output over the resident arrays —, which is the new hidden state
  `G b (256 p + q)`; the reshape after the launch reads it at `(b, j)` with `p = j / 256`, `q = j % 256`.
-/
import proofs.«180865_g44452911513920_cont_8to1_c_104_44_alg».proof.Proof.KRun
import proofs.«180865_g44452911513920_cont_8to1_c_104_44_alg».proof.Proof.KPieces
import proofs.«180865_g44452911513920_cont_8to1_c_104_44_alg».proof.Proof.Bridge
import proofs.«180865_g44452911513920_cont_8to1_c_104_44_alg».proof.Proof.LawPre
import Idealize.ShloMosaic.Lib.Pipeline.Value

noncomputable section

namespace Cert.KValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The argument arrays by coordinates. -/
abbrev args : Cert.Spec.Args := Cert.Spec.argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The launch's output array is the new hidden state, in the flat `[512, 256]` view of each batch. -/
theorem KArr_at (hpre : Cert.Pre_KernelIdeal (hPre_finite_inputs := Cert.Pre_finite_inputs.Gen.facts) m)
    (b : Fin 64) (p : Fin 512) (q : Fin 256) :
    Cert.KRun.KArr m c (ix3 b p q)
      = Cert.Spec.G (args m c) b ⟨256 * p.val + q.val, by have := p.isLt; have := q.isLt; omega⟩ := by
  have hN : cfg0.N = 8 := N_0
  have hb := b.isLt
  have ht : b.val / 8 < cfg0.N := by rw [hN]; omega
  rw [Cert.KRun.KArr_blk m c ⟨b.val / 8, ht⟩ ⟨b.val % 8, Nat.mod_lt _ (by norm_num)⟩ p q (ix3 b p q)
    (by show b.val = b.val / 8 * 8 + b.val % 8; omega) rfl rfl]
  show (outsAt0 m c (b.val / 8) ht).1 (ix3 (⟨b.val % 8, Nat.mod_lt _ (by norm_num)⟩ : Fin 8) p q) = _
  rw [Cert.KPieces.point_out m c ⟨b.val / 8, ht⟩]
  refine (Cert.Bridge.stepVal_eq_G m c ⟨b.val / 8, ht⟩ (fun b' j' => Cert.Law.pre_h_real m hpre c b' j') ⟨b.val % 8, Nat.mod_lt _ (by norm_num)⟩ p q).trans ?_
  refine congrArg (fun b' => Cert.Spec.G (args m c) b' _) (Fin.ext ?_)
  show 8 * (b.val / 8) + b.val % 8 = b.val
  omega

/-- The program's result, entry by entry. -/
theorem result_eq (hpre : Cert.Pre_KernelIdeal (hPre_finite_inputs := Cert.Pre_finite_inputs.Gen.facts) m) :
    shapeCast S64x131072 (Cert.KRun.KArr m c) shapeCasts_S64x512x256_S64x131072
      = fun i => Cert.Spec.G (args m c) (i 0) (i 1) := by
  funext i
  obtain ⟨b, j, rfl⟩ : ∃ (b : Fin 64) (j : Fin 131072), i = ix2 b j := ⟨i 0, i 1, eq_ix2 i⟩
  have hj := j.isLt
  have hb := b.isLt
  rw [shapeCast_apply (Cert.KRun.KArr m c) shapeCasts_S64x512x256_S64x131072 (ix2 b j)
    (ix3 b (⟨j.val / 256, by omega⟩ : Fin 512) (⟨j.val % 256, Nat.mod_lt _ (by norm_num)⟩ : Fin 256))
    (by rewrite [Shape.rowMajor_val_three, Shape.rowMajor_val_two]
        show (b.val * 512 + j.val / 256) * 256 + j.val % 256 = b.val * 131072 + j.val
        omega)]
  rw [KArr_at m c hpre]
  refine congrArg (fun j' => Cert.Spec.G (args m c) b j') (Fin.ext ?_)
  show 256 * (j.val / 256) + j.val % 256 = j.val
  omega

end Cert.KValue

end
-- ==== Proof.lean ====
/-
  The certificate: the fused Pallas cell (a gated recurrent cell over two dense graph convolutions, eight batches
  per grid step) against its jnp reference, over the extended reals.

  Both programs compute the new hidden state `G` of proof/Proof/Spec.lean. The reference does so literally
  (Proof/RefSide.lean: its 48 host operations read one at a time). The kernel computes the same sums in another
  arrangement: it contracts over the nodes in evens-then-odds order — with the adjacency's columns, and for the second
  layer also its rows, permuted by exact 0/1 matrix products —, so that the flat `[512, 256]` view of a batch's hidden
  rows can be used without any re-layout; it splits the 129-column weight contraction into the node-input column and
  the 128 hidden columns; it extracts a batch's node-input aggregate by a one-hot product; and it gates by
  `c + u * (h - c)` where the reference has `u * h + (1 - u) * c`. Re-indexing a finite sum by a bijection, splitting
  off one term, and a product with a 0/1 row hold for all extended reals; the last identity needs `u`, `h`, `c`
  real, which they are: `h` by the precondition, `u` and `c` as values of the logistic function and of tanh
  (Proof/Law.lean). The kernel's run (Proof/KRun.lean) writes its result block by block; what each grid point writes is
  read off the body's stores (Proof/KPieces.lean over Proof/KSlots.lean), and the four arrays the first grid point
  leaves resident are carried unchanged to the later ones. The idealization rewrote nothing, so `preserves` is trivial.
-/
import proofs.«180865_g44452911513920_cont_8to1_c_104_44_alg».proof.Defs
import proofs.«180865_g44452911513920_cont_8to1_c_104_44_alg».proof.Proof.Gen.Kernel
import proofs.«180865_g44452911513920_cont_8to1_c_104_44_alg».proof.Proof.Gen.Kernel.Skeleton
import proofs.«180865_g44452911513920_cont_8to1_c_104_44_alg».proof.Proof.Gen.Kernel.Launch
import proofs.«180865_g44452911513920_cont_8to1_c_104_44_alg».proof.Proof.Gen.Kernel.Points
import proofs.«180865_g44452911513920_cont_8to1_c_104_44_alg».proof.Proof.Gen.Kernel.Frame
import proofs.«180865_g44452911513920_cont_8to1_c_104_44_alg».proof.Proof.Gen.KernelIdeal
import proofs.«180865_g44452911513920_cont_8to1_c_104_44_alg».proof.Proof.Gen.KernelIdeal.Skeleton
import proofs.«180865_g44452911513920_cont_8to1_c_104_44_alg».proof.Proof.Gen.KernelIdeal.Launch
import proofs.«180865_g44452911513920_cont_8to1_c_104_44_alg».proof.Proof.Gen.KernelIdeal.Points
import proofs.«180865_g44452911513920_cont_8to1_c_104_44_alg».proof.Proof.Gen.KernelIdeal.Frame
import proofs.«180865_g44452911513920_cont_8to1_c_104_44_alg».proof.Proof.Gen.ReferenceIdeal
import proofs.«180865_g44452911513920_cont_8to1_c_104_44_alg».proof.Proof.Gen.ReferenceIdeal.Run
import proofs.«180865_g44452911513920_cont_8to1_c_104_44_alg».proof.Proof.Gen.ReferenceIdeal.Read
import proofs.«180865_g44452911513920_cont_8to1_c_104_44_alg».proof.Proof.Gen.Pre_finite_inputs
import proofs.«180865_g44452911513920_cont_8to1_c_104_44_alg».proof.Proof.RefSide
import proofs.«180865_g44452911513920_cont_8to1_c_104_44_alg».proof.Proof.KRun
import proofs.«180865_g44452911513920_cont_8to1_c_104_44_alg».proof.Proof.KValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals the kernel's result and the reference's are the new hidden state `G` of arguments that agree. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨_, Cert.KRun.run (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v44_eq, Cert.KValue.result_eq m c hpre]
  funext i
  rw [Cert.RefSide.ref_is_G, (hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
